-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x768 : Shape := ⟨3, ![8, 1024, 768]⟩
abbrev S1024x64 : Shape := ⟨2, ![1024, 64]⟩
abbrev S2304x768 : Shape := ⟨2, ![2304, 768]⟩
abbrev S768x768 : Shape := ⟨2, ![768, 768]⟩
abbrev S768 : Shape := ⟨1, ![768]⟩
abbrev S_ : Shape := ⟨0, ![]⟩

class Facts : Prop where
  bcast_S_S8x1024x768 : S_.BroadcastsInDim S8x1024x768 (![] : Fin 0 → Fin S8x1024x768.rank)
  reducesTo_S8x1024x768_S_d0_1_2 : S8x1024x768.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S2304x768 : S_.BroadcastsInDim S2304x768 (![] : Fin 0 → Fin S2304x768.rank)
  reducesTo_S2304x768_S_d0_1 : S2304x768.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768x768 .f32) (main_arg5 : FVec F S768 .f32) (main_v13 : IVec S_ 1) (main_v16 : IVec S2304x768 1) : IVec S_ 1 :=
  let main_c_5 : IVec S_ 1 := constantI S_ 1 1#1
  let main_v17 : IVec S_ 1 := (fun x v => Host.reduce IntOp.andi x v reducesTo_S2304x768_S_d0_1 h_S_) main_v16 main_c_5
  let main_v18 : IVec S_ 1 := andi main_v13 main_v17
  let main_v19 : FVec F S768x768 .f32 := Host.absf main_arg4
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  main_v28

def fn {F : FTy → Type} [FloatOps F] (main_arg0 : FVec F S8x1024x768 .f32) (main_arg1 : FVec F S1024x64 .f32) (main_arg2 : FVec F S1024x64 .f32) (main_arg3 : FVec F S2304x768 .f32) (main_arg4 : FVec F S768x768 .f32) (main_arg5 : FVec F S768 .f32) : IVec S_ 1 :=
  let main_v0 : FVec F S8x1024x768 .f32 := Host.absf main_arg0
  let main_cst : FVec F S_ .f32 := constant S_ .f32 0x7F800000#32
  let main_v1 : FVec F S8x1024x768 .f32 := broadcastInDim S8x1024x768 ![] bcast_S_S8x1024x768 main_cst
  let main_v2 : IVec S8x1024x768 1 := cmpf .olt main_v0 main_v1
  let main_c : IVec S_ 1 := constantI S_ 1 1#1
  let main_v3 : IVec S_ 1 := (fun x v => Host.reduce IntOp.andi x v reducesTo_S8x1024x768_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S2304x768 .f32 := Host.absf main_arg3
  let main_cst_4 : FVec F S_ .f32 := constant S_ .f32 0x7F800000#32
  let main_v15 : FVec F S2304x768 .f32 := broadcastInDim S2304x768 ![] bcast_S_S2304x768 main_cst_4
  let main_v16 : IVec S2304x768 1 := cmpf .olt main_v14 main_v15
  fn_part1 (F := F) main_arg4 main_arg5 main_v13 main_v16
-- ==== Kernel.lean ====
abbrev S8x1024x768 : Shape := ⟨3, ![8, 1024, 768]⟩
abbrev S1024x64 : Shape := ⟨2, ![1024, 64]⟩
abbrev S2304x768 : Shape := ⟨2, ![2304, 768]⟩
abbrev S768x768 : Shape := ⟨2, ![768, 768]⟩
abbrev S768 : Shape := ⟨1, ![768]⟩
abbrev S768x2304 : Shape := ⟨2, ![768, 2304]⟩
abbrev S8192x768 : Shape := ⟨2, ![8192, 768]⟩
abbrev S8192x2304 : Shape := ⟨2, ![8192, 2304]⟩
abbrev S1024x768 : Shape := ⟨2, ![1024, 768]⟩
abbrev S1024x2304 : Shape := ⟨2, ![1024, 2304]⟩
abbrev S8x1024x2304 : Shape := ⟨3, ![8, 1024, 2304]⟩
abbrev S1x1024x128 : Shape := ⟨3, ![1, 1024, 128]⟩
abbrev S1024x128 : Shape := ⟨2, ![1024, 128]⟩
abbrev S1024x32 : Shape := ⟨2, ![1024, 32]⟩
abbrev S1024x1024 : Shape := ⟨2, ![1024, 1024]⟩
abbrev S1024 : Shape := ⟨1, ![1024]⟩
abbrev S1024x1 : Shape := ⟨2, ![1024, 1]⟩
abbrev S1x768 : Shape := ⟨2, ![1, 768]⟩
abbrev S512x768 : Shape := ⟨2, ![512, 768]⟩

abbrev nBuf : Space → Nat
  | .hbm => 19
  | .vmem => 21
  | .smem => 0
  | _ => 0

abbrev bufTy : (tb : Table) → Fin (tcTables nBuf tb) → BufTy
  | .hbm, ⟨0, _⟩ => ⟨S8x1024x768, .f32⟩
  | .hbm, ⟨1, _⟩ => ⟨S1024x64, .f32⟩
  | .hbm, ⟨2, _⟩ => ⟨S1024x64, .f32⟩
  | .hbm, ⟨3, _⟩ => ⟨S2304x768, .f32⟩
  | .hbm, ⟨4, _⟩ => ⟨S768x768, .f32⟩
  | .hbm, ⟨5, _⟩ => ⟨S768, .f32⟩
  | .hbm, ⟨6, _⟩ => ⟨S8x1024x768, .bf16⟩
  | .hbm, ⟨7, _⟩ => ⟨S768x2304, .f32⟩
  | .hbm, ⟨8, _⟩ => ⟨S768x2304, .bf16⟩
  | .hbm, ⟨9, _⟩ => ⟨S768x768, .f32⟩
  | .hbm, ⟨10, _⟩ => ⟨S768x768, .bf16⟩
  | .hbm, ⟨11, _⟩ => ⟨S8192x768, .bf16⟩
  | .hbm, ⟨12, _⟩ => ⟨S8192x2304, .bf16⟩
  | .hbm, ⟨13, _⟩ => ⟨S8x1024x2304, .bf16⟩
  | .hbm, ⟨14, _⟩ => ⟨S8x1024x768, .bf16⟩
  | .hbm, ⟨15, _⟩ => ⟨S8192x768, .bf16⟩
  | .hbm, ⟨16, _⟩ => ⟨S1x768, .f32⟩
  | .hbm, ⟨17, _⟩ => ⟨S8192x768, .f32⟩
  | .hbm, ⟨18, _⟩ => ⟨S8x1024x768, .f32⟩
  | .local _ .vmem, ⟨0, _⟩ => ⟨S1024x768, .bf16⟩
  | .local _ .vmem, ⟨1, _⟩ => ⟨S1024x768, .bf16⟩
  | .local _ .vmem, ⟨2, _⟩ => ⟨S768x2304, .bf16⟩
  | .local _ .vmem, ⟨3, _⟩ => ⟨S1024x2304, .bf16⟩
  | .local _ .vmem, ⟨4, _⟩ => ⟨S1024x2304, .bf16⟩
  | .local _ .vmem, ⟨5, _⟩ => ⟨S1x1024x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x1024x128, .bf16⟩
  | .local _ .vmem, ⟨9, _⟩ => ⟨S1x1024x128, .bf16⟩
  | .local _ .vmem, ⟨10, _⟩ => ⟨S1x1024x128, .bf16⟩
  | .local _ .vmem, ⟨11, _⟩ => ⟨S1024x64, .f32⟩
  | .local _ .vmem, ⟨12, _⟩ => ⟨S1024x64, .f32⟩
  | .local _ .vmem, ⟨13, _⟩ => ⟨S1x1024x128, .bf16⟩
  | .local _ .vmem, ⟨14, _⟩ => ⟨S1x1024x128, .bf16⟩
  | .local _ .vmem, ⟨15, _⟩ => ⟨S512x768, .bf16⟩
  | .local _ .vmem, ⟨16, _⟩ => ⟨S512x768, .bf16⟩
  | .local _ .vmem, ⟨17, _⟩ => ⟨S768x768, .bf16⟩
  | .local _ .vmem, ⟨18, _⟩ => ⟨S1x768, .f32⟩
  | .local _ .vmem, ⟨19, _⟩ => ⟨S512x768, .f32⟩
  | .local _ .vmem, ⟨20, _⟩ => ⟨S512x768, .f32⟩
  | _, _ => ⟨S8x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 6], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1024x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1024x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x1024x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x768 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S768x768 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x768 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  transposes_S2304x768_S768x2304_1_0 : S2304x768.Transposes [1, 0] S768x2304
  transposes_S768x768_S768x768_1_0 : S768x768.Transposes [1, 0] S768x768
  shapeCasts_S8x1024x768_S8192x768 : S8x1024x768.ShapeCasts S8192x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S1024x2304_S1024x2304_0_0 : ∀ a, (![0, 0] : Fin 2 → Nat) a + S1024x2304.size a ≤ S1024x2304.size a
  h_S1024x2304 : 0 < S1024x2304.numel
  packedbf16_S1024x2304_S1024x2304_0_0 : (Rect.unit (s := S1024x2304) ![0, 0] S1024x2304.size inb_S1024x2304_S1024x2304_0_0).PackedRows (EltTy.packing .bf16)
  shapeCasts_S8192x2304_S8x1024x2304 : S8192x2304.ShapeCasts S8x1024x2304
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1024x64_S1024x64_0_0 : ∀ a, (![0, 0] : Fin 2 → Nat) a + S1024x64.size a ≤ S1024x64.size a
  h_S1024x64 : 0 < S1024x64.numel
  slices_S1024x128_o0_0_S1024x64 : S1024x128.Slices ![0, 0] S1024x64
  slices_S1024x64_o0_0_S1024x32 : S1024x64.Slices ![0, 0] S1024x32
  slices_S1024x64_o0_32_S1024x32 : S1024x64.Slices ![0, 32] S1024x32
  concatenates_S1024x32_S1024x32_S1024x64_d1 : Shape.Concatenates [S1024x32, S1024x32] S1024x64 1
  reduces_S1024x1024_S1024 : S1024x1024.Reduces [1] S1024
  shapeCasts_S1024_S1024x1 : S1024.ShapeCasts S1024x1
  broadcasts_S1024x1_S1024x1024 : S1024x1.Broadcasts S1024x1024
  slices_S1024x128_o0_64_S1024x64 : S1024x128.Slices ![0, 64] S1024x64
  concatenates_S1024x64_S1024x64_S1024x128_d1 : Shape.Concatenates [S1024x64, S1024x64] S1024x128 1
  shapeCasts_S1024x128_S1x1024x128 : S1024x128.ShapeCasts S1x1024x128
  packedbf16_S1x1024x128_S1x1024x128_0_0_0 : (Rect.unit (s := S1x1024x128) ![0, 0, 0] S1x1024x128.size inb_S1x1024x128_S1x1024x128_0_0_0).PackedRows (EltTy.packing .bf16)
  shapeCasts_S768_S1x768 : S768.ShapeCasts S1x768
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  shapeCasts_S8192x768_S8x1024x768 : S8192x768.ShapeCasts S8x1024x768
  dot_S1024x768_S768x2304_S1024x2304_1_0_0_1_n_n_wf : DotDims.WF S1024x768 S768x2304 S1024x2304 [1] [0] [0] [1] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  dot_S512x768_S768x768_S512x768_1_0_0_1_n_n_wf : DotDims.WF S512x768 S768x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S8192x768.size a
  hwx0_0 : ∀ i : grid0.Coords, EltTy.bits .bf16 = 32 ∨ (Rect.block (s := S8192x768) S1024x768.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .bf16 = 32 ∨ (Rect.block (s := S768x2304) S768x2304.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2304.size a ≤ S8192x2304.size a
  hwx0_2 : ∀ i : grid0.Coords, EltTy.bits .bf16 = 32 ∨ (Rect.block (s := S8192x2304) S1024x2304.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S8x1024x2304.size a
  hwx1_0 : ∀ i : grid1.Coords, EltTy.bits .bf16 = 32 ∨ (Rect.block (s := S8x1024x2304) S1x1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x128.size a ≤ S8x1024x2304.size a
  hwx1_1 : ∀ i : grid1.Coords, EltTy.bits .bf16 = 32 ∨ (Rect.block (s := S8x1024x2304) S1x1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x128.size a ≤ S8x1024x2304.size a
  hwx1_2 : ∀ i : grid1.Coords, EltTy.bits .bf16 = 32 ∨ (Rect.block (s := S8x1024x2304) S1x1024x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S1024x64.size a
  hwx1_3 : ∀ i : grid1.Coords, EltTy.bits .f32 = 32 ∨ (Rect.block (s := S1024x64) S1024x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x64.size a ≤ S1024x64.size a
  hwx1_4 : ∀ i : grid1.Coords, EltTy.bits .f32 = 32 ∨ (Rect.block (s := S1024x64) S1024x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x128.size a ≤ S8x1024x768.size a
  hwx1_5 : ∀ i : grid1.Coords, EltTy.bits .bf16 = 32 ∨ (Rect.block (s := S8x1024x768) S1x1024x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x768.size a ≤ S8192x768.size a
  hwx2_0 : ∀ i : grid2.Coords, EltTy.bits .bf16 = 32 ∨ (Rect.block (s := S8192x768) S512x768.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S768x768.size a ≤ S768x768.size a
  hwx2_1 : ∀ i : grid2.Coords, EltTy.bits .bf16 = 32 ∨ (Rect.block (s := S768x768) S768x768.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x768.size a ≤ S1x768.size a
  hwx2_2 : ∀ i : grid2.Coords, EltTy.bits .f32 = 32 ∨ (Rect.block (s := S1x768) S1x768.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x768.size a ≤ S8192x768.size a
  hwx2_3 : ∀ i : grid2.Coords, EltTy.bits .f32 = 32 ∨ (Rect.block (s := S8192x768) S512x768.size (cc2_transform_3 i) (hinb2_3 i)).WholeWords (EltTy.packing .f32)

variable [Facts₀]

def dot_S1024x768_S768x2304_S1024x2304_1_0_0_1_n_n : DotDims S1024x768 S768x2304 S1024x2304 where
  lhsContracting := [1]
  rhsContracting := [0]
  lhsNonContracting := [0]
  rhsNonContracting := [1]
  lhsBatch := []
  rhsBatch := []
  wf := dot_S1024x768_S768x2304_S1024x2304_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf

abbrev win0_0 : Pipeline.Window sig grid0 :=
  Pipeline.Window.ofSpec (Memref.whole main_v5) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x2304.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1024x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S1024x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1x1024x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v9) S512x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S768x768.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S512x768.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8x1024x768 : Shape := ⟨3, ![8, 1024, 768]⟩
abbrev S1024x64 : Shape := ⟨2, ![1024, 64]⟩
abbrev S2304x768 : Shape := ⟨2, ![2304, 768]⟩
abbrev S768x768 : Shape := ⟨2, ![768, 768]⟩
abbrev S768 : Shape := ⟨1, ![768]⟩
abbrev S8x1024x2304 : Shape := ⟨3, ![8, 1024, 2304]⟩
abbrev S8x1024x3x12x64 : Shape := ⟨5, ![8, 1024, 3, 12, 64]⟩
abbrev S8x1024x1x12x64 : Shape := ⟨5, ![8, 1024, 1, 12, 64]⟩
abbrev S8x1024x12x64 : Shape := ⟨4, ![8, 1024, 12, 64]⟩
abbrev S8x12x1024x64 : Shape := ⟨4, ![8, 12, 1024, 64]⟩
abbrev S8x12x0x64 : Shape := ⟨4, ![8, 12, 0, 64]⟩
abbrev S1x1x1024x64 : Shape := ⟨4, ![1, 1, 1024, 64]⟩
abbrev S8x12x1024x32 : Shape := ⟨4, ![8, 12, 1024, 32]⟩
abbrev S8x12x1024x1024 : Shape := ⟨4, ![8, 12, 1024, 1024]⟩
abbrev S_ : Shape := ⟨0, ![]⟩
abbrev S8x12x1024 : Shape := ⟨3, ![8, 12, 1024]⟩
abbrev S8x12x1024x1 : Shape := ⟨4, ![8, 12, 1024, 1]⟩
abbrev S1x1x768 : Shape := ⟨3, ![1, 1, 768]⟩

abbrev nBuf : Space → Nat
  | .hbm => 68
  | .vmem => 0
  | .smem => 0
  | _ => 0

abbrev bufTy : (tb : Table) → Fin (tcTables nBuf tb) → BufTy
  | .hbm, ⟨0, _⟩ => ⟨S8x1024x768, .f32⟩
  | .hbm, ⟨1, _⟩ => ⟨S1024x64, .f32⟩
  | .hbm, ⟨2, _⟩ => ⟨S1024x64, .f32⟩
  | .hbm, ⟨3, _⟩ => ⟨S2304x768, .f32⟩
  | .hbm, ⟨4, _⟩ => ⟨S768x768, .f32⟩
  | .hbm, ⟨5, _⟩ => ⟨S768, .f32⟩
  | .hbm, ⟨6, _⟩ => ⟨S8x1024x2304, .f32⟩
  | .hbm, ⟨7, _⟩ => ⟨S8x1024x3x12x64, .f32⟩
  | .hbm, ⟨8, _⟩ => ⟨S8x1024x1x12x64, .f32⟩
  | .hbm, ⟨9, _⟩ => ⟨S8x1024x12x64, .f32⟩
  | .hbm, ⟨10, _⟩ => ⟨S8x1024x1x12x64, .f32⟩
  | .hbm, ⟨11, _⟩ => ⟨S8x1024x12x64, .f32⟩
  | .hbm, ⟨12, _⟩ => ⟨S8x1024x1x12x64, .f32⟩
  | .hbm, ⟨13, _⟩ => ⟨S8x1024x12x64, .f32⟩
  | .hbm, ⟨14, _⟩ => ⟨S8x12x1024x64, .f32⟩
  | .hbm, ⟨15, _⟩ => ⟨S8x12x1024x64, .f32⟩
  | .hbm, ⟨16, _⟩ => ⟨S8x12x1024x64, .f32⟩
  | .hbm, ⟨17, _⟩ => ⟨S8x12x0x64, .f32⟩
  | .hbm, ⟨18, _⟩ => ⟨S1x1x1024x64, .f32⟩
  | .hbm, ⟨19, _⟩ => ⟨S8x12x1024x64, .f32⟩
  | .hbm, ⟨20, _⟩ => ⟨S8x12x1024x64, .f32⟩
  | .hbm, ⟨21, _⟩ => ⟨S8x12x1024x32, .f32⟩
  | .hbm, ⟨22, _⟩ => ⟨S8x12x1024x32, .f32⟩
  | .hbm, ⟨23, _⟩ => ⟨S8x12x1024x32, .f32⟩
  | .hbm, ⟨24, _⟩ => ⟨S8x12x1024x64, .f32⟩
  | .hbm, ⟨25, _⟩ => ⟨S1x1x1024x64, .f32⟩
  | .hbm, ⟨26, _⟩ => ⟨S8x12x1024x64, .f32⟩
  | .hbm, ⟨27, _⟩ => ⟨S8x12x1024x64, .f32⟩
  | .hbm, ⟨28, _⟩ => ⟨S8x12x1024x64, .f32⟩
  | .hbm, ⟨29, _⟩ => ⟨S8x12x1024x64, .f32⟩
  | .hbm, ⟨30, _⟩ => ⟨S8x12x0x64, .f32⟩
  | .hbm, ⟨31, _⟩ => ⟨S1x1x1024x64, .f32⟩
  | .hbm, ⟨32, _⟩ => ⟨S8x12x1024x64, .f32⟩
  | .hbm, ⟨33, _⟩ => ⟨S8x12x1024x64, .f32⟩
  | .hbm, ⟨34, _⟩ => ⟨S8x12x1024x32, .f32⟩
  | .hbm, ⟨35, _⟩ => ⟨S8x12x1024x32, .f32⟩
  | .hbm, ⟨36, _⟩ => ⟨S8x12x1024x32, .f32⟩
  | .hbm, ⟨37, _⟩ => ⟨S8x12x1024x64, .f32⟩
  | .hbm, ⟨38, _⟩ => ⟨S1x1x1024x64, .f32⟩
  | .hbm, ⟨39, _⟩ => ⟨S8x12x1024x64, .f32⟩
  | .hbm, ⟨40, _⟩ => ⟨S8x12x1024x64, .f32⟩
  | .hbm, ⟨41, _⟩ => ⟨S8x12x1024x64, .f32⟩
  | .hbm, ⟨42, _⟩ => ⟨S8x12x1024x64, .f32⟩
  | .hbm, ⟨43, _⟩ => ⟨S8x12x1024x1024, .f32⟩
  | .hbm, ⟨44, _⟩ => ⟨S_, .f32⟩
  | .hbm, ⟨45, _⟩ => ⟨S8x12x1024x1024, .f32⟩
  | .hbm, ⟨46, _⟩ => ⟨S8x12x1024x1024, .f32⟩
  | .hbm, ⟨47, _⟩ => ⟨S_, .f32⟩
  | .hbm, ⟨48, _⟩ => ⟨S8x12x1024, .f32⟩
  | .hbm, ⟨49, _⟩ => ⟨S_, .f32⟩
  | .hbm, ⟨50, _⟩ => ⟨S8x12x1024, .f32⟩
  | .hbm, ⟨51, _⟩ => ⟨S8x12x1024, .f32⟩
  | .hbm, ⟨52, _⟩ => ⟨S8x12x1024x1, .f32⟩
  | .hbm, ⟨53, _⟩ => ⟨S8x12x1024x1024, .f32⟩
  | .hbm, ⟨54, _⟩ => ⟨S8x12x1024x1024, .f32⟩
  | .hbm, ⟨55, _⟩ => ⟨S8x12x1024x1024, .f32⟩
  | .hbm, ⟨56, _⟩ => ⟨S_, .f32⟩
  | .hbm, ⟨57, _⟩ => ⟨S8x12x1024, .f32⟩
  | .hbm, ⟨58, _⟩ => ⟨S8x12x1024x1, .f32⟩
  | .hbm, ⟨59, _⟩ => ⟨S8x12x1024x1024, .f32⟩
  | .hbm, ⟨60, _⟩ => ⟨S8x12x1024x1024, .f32⟩
  | .hbm, ⟨61, _⟩ => ⟨S8x12x1024x64, .f32⟩
  | .hbm, ⟨62, _⟩ => ⟨S8x1024x12x64, .f32⟩
  | .hbm, ⟨63, _⟩ => ⟨S8x1024x768, .f32⟩
  | .hbm, ⟨64, _⟩ => ⟨S8x1024x768, .f32⟩
  | .hbm, ⟨65, _⟩ => ⟨S1x1x768, .f32⟩
  | .hbm, ⟨66, _⟩ => ⟨S8x1024x768, .f32⟩
  | .hbm, ⟨67, _⟩ => ⟨S8x1024x768, .f32⟩
  | _, _ => ⟨S8x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst : Ref sig .tc := ⟨.hbm, 44, rfl⟩
abbrev main_v38 : Ref sig .tc := ⟨.hbm, 45, rfl⟩
abbrev main_v39 : Ref sig .tc := ⟨.hbm, 46, rfl⟩
abbrev main_cst_0 : Ref sig .tc := ⟨.hbm, 47, rfl⟩
abbrev main_v40 : Ref sig .tc := ⟨.hbm, 48, rfl⟩
abbrev main_cst_1 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_2 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩

abbrev nD : Nat := 1
abbrev τ : Topo := Topo.v7x

variable {F : FTy → Type} [FloatOps F]

class Facts₀ : Prop where
  shapeCasts_S8x1024x2304_S8x1024x3x12x64 : S8x1024x2304.ShapeCasts S8x1024x3x12x64
  slices_S8x1024x3x12x64_S8x1024x1x12x64_0_0_0_0_0 : S8x1024x3x12x64.Slices ![0, 0, 0, 0, 0] S8x1024x1x12x64
  shapeCasts_S8x1024x1x12x64_S8x1024x12x64 : S8x1024x1x12x64.ShapeCasts S8x1024x12x64
  slices_S8x1024x3x12x64_S8x1024x1x12x64_0_0_1_0_0 : S8x1024x3x12x64.Slices ![0, 0, 1, 0, 0] S8x1024x1x12x64
  slices_S8x1024x3x12x64_S8x1024x1x12x64_0_0_2_0_0 : S8x1024x3x12x64.Slices ![0, 0, 2, 0, 0] S8x1024x1x12x64
  transposes_S8x1024x12x64_S8x12x1024x64_0_2_1_3 : S8x1024x12x64.Transposes [0, 2, 1, 3] S8x12x1024x64
  slices_S8x12x1024x64_S8x12x0x64_0_0_0_0 : S8x12x1024x64.Slices ![0, 0, 0, 0] S8x12x0x64
  bcast_S1024x64_S1x1x1024x64_2_3 : S1024x64.BroadcastsInDim S1x1x1024x64 (![2, 3] : Fin 2 → Fin S1x1x1024x64.rank)
  bcast_S1x1x1024x64_S8x12x1024x64_0_1_2_3 : S1x1x1024x64.BroadcastsInDim S8x12x1024x64 (![0, 1, 2, 3] : Fin 4 → Fin S8x12x1024x64.rank)
  slices_S8x12x1024x64_S8x12x1024x32_0_0_0_0 : S8x12x1024x64.Slices ![0, 0, 0, 0] S8x12x1024x32
  slices_S8x12x1024x64_S8x12x1024x32_0_0_0_32 : S8x12x1024x64.Slices ![0, 0, 0, 32] S8x12x1024x32
  concatenates_S8x12x1024x32_S8x12x1024x32_S8x12x1024x64_d3 : Shape.Concatenates [S8x12x1024x32, S8x12x1024x32] S8x12x1024x64 3
  concatenates_S8x12x0x64_S8x12x1024x64_S8x12x1024x64_d2 : Shape.Concatenates [S8x12x0x64, S8x12x1024x64] S8x12x1024x64 2
  bcast_S_S8x12x1024x1024 : S_.BroadcastsInDim S8x12x1024x1024 (![] : Fin 0 → Fin S8x12x1024x1024.rank)
  reducesTo_S8x12x1024x1024_S8x12x1024_d3 : S8x12x1024x1024.ReducesTo [3] S8x12x1024
  h_S_ : 0 < S_.numel
  bcast_S_S8x12x1024 : S_.BroadcastsInDim S8x12x1024 (![] : Fin 0 → Fin S8x12x1024.rank)
  bcast_S8x12x1024_S8x12x1024x1_0_1_2 : S8x12x1024.BroadcastsInDim S8x12x1024x1 (![0, 1, 2] : Fin 3 → Fin S8x12x1024x1.rank)
  bcast_S8x12x1024x1_S8x12x1024x1024_0_1_2_3 : S8x12x1024x1.BroadcastsInDim S8x12x1024x1024 (![0, 1, 2, 3] : Fin 4 → Fin S8x12x1024x1024.rank)
  transposes_S8x12x1024x64_S8x1024x12x64_0_2_1_3 : S8x12x1024x64.Transposes [0, 2, 1, 3] S8x1024x12x64
  shapeCasts_S8x1024x12x64_S8x1024x768 : S8x1024x12x64.ShapeCasts S8x1024x768
  bcast_S768_S1x1x768_2 : S768.BroadcastsInDim S1x1x768 (![2] : Fin 1 → Fin S1x1x768.rank)
  bcast_S1x1x768_S8x1024x768_0_1_2 : S1x1x768.BroadcastsInDim S8x1024x768 (![0, 1, 2] : Fin 3 → Fin S8x1024x768.rank)
  dot_S8x1024x768_S2304x768_S8x1024x2304_2_1_01_0_n_n_wf : DotDims.WF S8x1024x768 S2304x768 S8x1024x2304 [2] [1] [0, 1] [0] [] []
  dot_S8x12x1024x64_S8x12x1024x64_S8x12x1024x1024_3_3_2_2_01_01_wf : DotDims.WF S8x12x1024x64 S8x12x1024x64 S8x12x1024x1024 [3] [3] [2] [2] [0, 1] [0, 1]
  dot_S8x12x1024x1024_S8x12x1024x64_S8x12x1024x64_3_2_2_3_01_01_wf : DotDims.WF S8x12x1024x1024 S8x12x1024x64 S8x12x1024x64 [3] [2] [2] [3] [0, 1] [0, 1]
  dot_S8x1024x768_S768x768_S8x1024x768_2_1_01_0_n_n_wf : DotDims.WF S8x1024x768 S768x768 S8x1024x768 [2] [1] [0, 1] [0] [] []

variable [Facts₀]

def dot_S8x1024x768_S2304x768_S8x1024x2304_2_1_01_0_n_n : DotDims S8x1024x768 S2304x768 S8x1024x2304 where
  lhsContracting := [2]
  rhsContracting := [1]
  lhsNonContracting := [0, 1]
  rhsNonContracting := [0]
  lhsBatch := []
  rhsBatch := []
  wf := dot_S8x1024x768_S2304x768_S8x1024x2304_2_1_01_0_n_n_wf
def dot_S8x12x1024x64_S8x12x1024x64_S8x12x1024x1024_3_3_2_2_01_01 : DotDims S8x12x1024x64 S8x12x1024x64 S8x12x1024x1024 where
  lhsContracting := [3]
  rhsContracting := [3]
  lhsNonContracting := [2]
  rhsNonContracting := [2]
  lhsBatch := [0, 1]
  rhsBatch := [0, 1]
  wf := dot_S8x12x1024x64_S8x12x1024x64_S8x12x1024x1024_3_3_2_2_01_01_wf
def dot_S8x12x1024x1024_S8x12x1024x64_S8x12x1024x64_3_2_2_3_01_01 : DotDims S8x12x1024x1024 S8x12x1024x64 S8x12x1024x64 where
  lhsContracting := [3]
  rhsContracting := [2]
  lhsNonContracting := [2]
  rhsNonContracting := [3]
  lhsBatch := [0, 1]
  rhsBatch := [0, 1]
  wf := dot_S8x12x1024x1024_S8x12x1024x64_S8x12x1024x64_3_2_2_3_01_01_wf
def dot_S8x1024x768_S768x768_S8x1024x768_2_1_01_0_n_n : DotDims S8x1024x768 S768x768 S8x1024x768 where
  lhsContracting := [2]
  rhsContracting := [1]
  lhsNonContracting := [0, 1]
  rhsNonContracting := [0]
  lhsBatch := []
  rhsBatch := []
  wf := dot_S8x1024x768_S768x768_S8x1024x768_2_1_01_0_n_n_wf

class Facts : Prop extends Facts₀ where

variable [Facts]
-- ==== Proof.K.Reg0.lean ====
/-
  The first projection kernel (a row block of 1024 rows of the activations against the whole transposed weight, into a
  zero accumulator), as one region of the program: what each window's staging buffer holds when the body runs — its
  block of the array as the region finds it —, what the body leaves in the output's buffer — the one stored value, a pure
  function of the two loaded blocks —, the body's run, and the pipeline's proof data at any entry contents `V`.
-/
import proofs.«154133_j39204461478412_2_alg».proof.Proof.Gen.Kernel.Launch
import proofs.«154133_j39204461478412_2_alg».proof.Proof.Gen.Kernel.Skeleton
import proofs.«154133_j39204461478412_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (unfetched, the block
    index has not moved), for any proof data on these arrays that leaves input blocks in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's three accesses are whole-buffer rectangles. -/
abbrev r0_0 : Rect S1024x768 := Rect.unit (s := S1024x768) ![0, 0] S1024x768.size inb_S1024x768_S1024x768_0_0
abbrev r0_1 : Rect S768x2304 := Rect.unit (s := S768x2304) ![0, 0] S768x2304.size inb_S768x2304_S768x2304_0_0
abbrev r0_2 : Rect S1024x2304 := Rect.unit (s := S1024x2304) ![0, 0] S1024x2304.size inb_S1024x2304_S1024x2304_0_0

/-- The output buffer after the body: its one store, of the product of the two loaded blocks. -/
def out0_2 (x0 : Vec F S1024x768 .bf16) (x1 : Vec F S768x2304 .bf16) : Vec F S1024x2304 .bf16 :=
  View.canon [⟨r0_2, k0_pay1 (View.ld x0 r0_0) (View.ld x1 r0_1)⟩]

/-- The store covers the whole buffer. -/
theorem cover0_2 (p0 : Vec F S1024x2304 .bf16) (y : S1024x2304.Idx) :
    ∃ pc ∈ ([⟨r0_2, p0⟩] : List (View.Piece (Elt F) S1024x2304 .bf16)), y ∈ pc.1.set :=
  View.cover_of_tiled [⟨r0_2, p0⟩] S1024x2304.size (by rfl) y

set_option maxHeartbeats 1000000 in
/-- The body on whole staging buffers, the inputs' at contents `x0`, `x1` and the output's at anything: it runs to its
    return with the inputs' as they were and the output's at `out0_2 x0 x1`. -/
theorem sound_kernel0 (c : Dev nD) (E : Set ℕ) (i : grid0.Coords) (arg1 : Memref sig .tc .vmem S1024x768 .bf16) (harg1 : arg1.IsWhole)
    (arg2 : Memref sig .tc .vmem S768x2304 .bf16) (harg2 : arg2.IsWhole) (arg3 : Memref sig .tc .vmem S1024x2304 .bf16) (harg3 : arg3.IsWhole)
    (x0 : Vec F S1024x768 .bf16) (x1 : Vec F S768x2304 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the region finds them; after the body at point `t` each
    input's buffer at its block and the output's at `out0_2` of the input blocks; the invariant the scoped buffers
    that are no staging buffer and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the run applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  The attention kernel (one batch and one pair of heads per grid point: the pair's 128 query, key and value channels of
  all 1024 positions and the two rotary tables in, the pair's 128 output channels out), as one region of the program:
  the windows' blocks, what the body leaves in the output's buffer — its one stored value, a pure function of the five
  loaded blocks —, the body's run, and the pipeline's proof data at any entry contents `V`. The query, key and value
  windows read ONE array (the fused projection), so the proof data holds that array at three disjoint parts of the
  full share, one per window.
-/
import proofs.«154133_j39204461478412_2_alg».proof.Proof.Gen.Kernel.Launch
import proofs.«154133_j39204461478412_2_alg».proof.Proof.Gen.Kernel.Skeleton
import proofs.«154133_j39204461478412_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The body's accesses are whole-buffer rectangles. -/
abbrev r1_0 : Rect S1x1024x128 := Rect.unit (s := S1x1024x128) ![0, 0, 0] S1x1024x128.size inb_S1x1024x128_S1x1024x128_0_0_0
abbrev r1_3 : Rect S1024x64 := Rect.unit (s := S1024x64) ![0, 0] S1024x64.size inb_S1024x64_S1024x64_0_0

/-- The output buffer after the body: its one store, the two heads' outputs side by side, from the five loaded blocks. -/
def out1_5 (x0 x1 x2 : Vec F S1x1024x128 .bf16) (x3 x4 : Vec F S1024x64 .f32) : Vec F S1x1024x128 .bf16 :=
  View.canon [⟨r1_0, k1_pay6 (k1_pay1 (View.ld x0 r1_0)) (k1_pay2 (View.ld x1 r1_0)) (k1_pay3 (View.ld x2 r1_0)) (View.ld x3 r1_3) (View.ld x4 r1_3)
    (k1_pay4 (View.ld x2 r1_0)) (k1_pay5 (View.ld x0 r1_0) (View.ld x1 r1_0) (View.ld x3 r1_3) (View.ld x4 r1_3))⟩]

/-- The store covers the whole buffer. -/
theorem cover1_5 (p0 : Vec F S1x1024x128 .bf16) (y : S1x1024x128.Idx) :
    ∃ pc ∈ ([⟨r1_0, p0⟩] : List (View.Piece (Elt F) S1x1024x128 .bf16)), y ∈ pc.1.set :=
  View.cover_of_tiled [⟨r1_0, p0⟩] S1x1024x128.size (by rfl) y

set_option maxHeartbeats 4000000 in
/-- The body on whole staging buffers, the inputs' at contents `x0 … x4` and the output's at anything: it runs to its
    return with the inputs' as they were and the output's at `out1_5` of them. -/
theorem sound_kernel1 (c : Dev nD) (E : Set ℕ) (i : grid1.Coords)
    (arg2 : Memref sig .tc .vmem S1x1024x128 .bf16) (harg2 : arg2.IsWhole) (arg3 : Memref sig .tc .vmem S1x1024x128 .bf16) (harg3 : arg3.IsWhole)
    (arg4 : Memref sig .tc .vmem S1x1024x128 .bf16) (harg4 : arg4.IsWhole) (arg5 : Memref sig .tc .vmem S1024x64 .f32) (harg5 : arg5.IsWhole)
    (arg6 : Memref sig .tc .vmem S1024x64 .f32) (harg6 : arg6.IsWhole) (arg7 : Memref sig .tc .vmem S1x1024x128 .bf16) (harg7 : arg7.IsWhole)
    (x0 x1 x2 : Vec F S1x1024x128 .bf16) (x3 x4 : Vec F S1024x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 x0 x1 x2 x3 x4)) -∗ K ⟨⟩))
      ⊢ wp frame (wpE (defs₀ (F := F)) Variants.none c none) E
          (cc1__fused_attn_kernel i arg2 harg2 arg3 harg3 arg4 harg4 arg5 harg5 arg6 harg6 arg7 harg7) K := by
  simp only [cc1__fused_attn_kernel_eq_skeleton]; unfold cc1__fused_attn_kernel_skel
  simp only [k1_part2_eq_skeleton]; unfold k1_part2_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The three parts of the full share the fused projection's array is held at, one per window on it. -/
abbrev shQ : PosShare TreeShare := fullShare.left
abbrev shK : PosShare TreeShare := fullShare.right.left
abbrev shV : PosShare TreeShare := fullShare.right.right

/-- The pipeline's proof data on core `c`: the arrays as the region finds them; after the body at point `t` each
    input's buffer at its block and the output's at `out1_5` of the input blocks; the invariant the scoped buffers
    that are no staging buffer and the generator register, untouched; nothing owed; the shared array dealt in three. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q w := match w with
    | ⟨0, _⟩ => shQ
    | ⟨1, _⟩ => shK
    | ⟨2, _⟩ => shV
    | _ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/-
  The output projection kernel (a row block of 512 rows of the attention output against the whole transposed weight,
  into a zero accumulator, plus the bias row broadcast down the rows), as one region of the program: the windows'
  blocks, what the body leaves in the output's buffer — its one stored value, a pure function of the three loaded
  blocks —, the body's run, and the pipeline's proof data at any entry contents `V`.
-/
import proofs.«154133_j39204461478412_2_alg».proof.Proof.Gen.Kernel.Launch
import proofs.«154133_j39204461478412_2_alg».proof.Proof.Gen.Kernel.Skeleton
import proofs.«154133_j39204461478412_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The body's four accesses are whole-buffer rectangles. -/
abbrev r2_0 : Rect S512x768 := Rect.unit (s := S512x768) ![0, 0] S512x768.size inb_S512x768_S512x768_0_0
abbrev r2_1 : Rect S768x768 := Rect.unit (s := S768x768) ![0, 0] S768x768.size inb_S768x768_S768x768_0_0
abbrev r2_2 : Rect S1x768 := Rect.unit (s := S1x768) ![0, 0] S1x768.size inb_S1x768_S1x768_0_0

/-- The output buffer after the body: its one store, of the product of the first two loaded blocks plus the third. -/
def out2_3 (x0 : Vec F S512x768 .bf16) (x1 : Vec F S768x768 .bf16) (x2 : Vec F S1x768 .f32) : Vec F S512x768 .f32 :=
  View.canon [⟨r2_0, k2_pay1 (View.ld x0 r2_0) (View.ld x1 r2_1) (View.ld x2 r2_2)⟩]

/-- The store covers the whole buffer. -/
theorem cover2_3 (p0 : Vec F S512x768 .f32) (y : S512x768.Idx) :
    ∃ pc ∈ ([⟨r2_0, p0⟩] : List (View.Piece (Elt F) S512x768 .f32)), y ∈ pc.1.set :=
  View.cover_of_tiled [⟨r2_0, p0⟩] S512x768.size (by rfl) y

set_option maxHeartbeats 1000000 in
/-- The body on whole staging buffers, the inputs' at contents `x0`, `x1`, `x2` and the output's at anything: it runs
    to its return with the inputs' as they were and the output's at `out2_3 x0 x1 x2`. -/
theorem sound_kernel2 (c : Dev nD) (E : Set ℕ) (i : grid2.Coords) (arg1 : Memref sig .tc .vmem S512x768 .bf16) (harg1 : arg1.IsWhole)
    (arg2 : Memref sig .tc .vmem S768x768 .bf16) (harg2 : arg2.IsWhole) (arg3 : Memref sig .tc .vmem S1x768 .f32) (harg3 : arg3.IsWhole)
    (arg4 : Memref sig .tc .vmem S512x768 .f32) (harg4 : arg4.IsWhole)
    (x0 : Vec F S512x768 .bf16) (x1 : Vec F S768x768 .bf16) (x2 : Vec F S1x768 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__matmul_bias_kernel i arg1 harg1 arg2 harg2 arg3 harg3 arg4 harg4) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's proof data on core `c`: the arrays as the region finds them; after the body at point `t` each
    input's buffer at its block and the output's at `out2_3` of the input blocks; the invariant the scoped buffers
    that are no staging buffer and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Fold.lean ====
/-
  The contents of the core's unscoped buffers at each boundary of the program — between its four stretches of host
  operations and its three kernel regions — as a fold from the launch memory: a host stretch applies its operations; a
  region leaves its output array at what its pipeline's write-backs fold to and every other buffer as entered. No host
  stretch and no region writes an argument, so the fold at an argument walks back to the launch memory.
-/
import proofs.«154133_j39204461478412_2_alg».proof.Proof.K.Reg0
import proofs.«154133_j39204461478412_2_alg».proof.Proof.K.Reg1
import proofs.«154133_j39204461478412_2_alg».proof.Proof.K.Reg2
import proofs.«154133_j39204461478412_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves (the inputs as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: the attention output's array at what the write-backs fold to, every other buffer as entered
    (the region's input arrays among them: no input window writes back). -/
def W4 (c : Dev nD) : Valuation τ sig (Elt F) :=
  Function.update (W3 m ρ c) (Proc.devRef .tc main_v8) ((dat1 (V3 m ρ) c).arrAt 5 cfg1.N : Buf (Elt F) ((c : Thread nD τ).loc main_v8))
theorem W4_v8 (c : Dev nD) : W4 m ρ c (Proc.devRef .tc main_v8) = (dat1 (V3 m ρ) c).arrAt 5 cfg1.N := by
  unfold W4; exact Function.update_self ..
theorem W4_of_ne (c : Dev nD) (b : Ref sig .tc) (hb : b ≠ main_v8) : W4 m ρ c (Proc.devRef .tc b) = W3 m ρ c (Proc.devRef .tc b) := by
  unfold W4
  exact Function.update_of_ne (StableHlo.devRef_ne_of_ne hb : (Proc.devRef .tc b : DevRef τ sig) ≠ Proc.devRef .tc main_v8) ..
abbrev V4 : (c : Dev nD) → (b : Ref sig .tc) → Buf (Elt F) ((c : Thread nD τ).loc b) := fun c b => W4 m ρ c b
/-- After the third host stretch (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves (the inputs as entered, the output's write-backs folded),
    every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last host stretch: the contents at the return. -/
abbrev W7 : Dev nD → Valuation τ sig (Elt F) := fun c => StableHlo.after hostOps3 (W6 m ρ c)

/-- A buffer that no host stretch writes and that is no region's output array holds at the return what it held at launch. -/
theorem W7_untouched (c : Dev nD) (r : Ref sig .tc) (h0 : r ∉ hostOps0_W) (h1 : r ∉ hostOps1_W) (h2 : r ∉ hostOps2_W) (h3 : r ∉ hostOps3_W)
    (hr0 : ∀ w, Pipeline.arrRef spec0 w ≠ r) (hr1 : r ≠ main_v8) (hr2 : ∀ w, Pipeline.arrRef spec2 w ≠ r) :
    W7 m ρ c (Proc.devRef .tc r) = m ((c : Thread nD τ).loc r) :=
  calc W7 m ρ c (Proc.devRef .tc r)
    _ = W6 m ρ c (Proc.devRef .tc r) := StableHlo.after_of_writes_sub hostOps3 _ hostOps3_writes h3
    _ = W5 m ρ c (Proc.devRef .tc r) := W6_of_ne m ρ c r hr2
    _ = W4 m ρ c (Proc.devRef .tc r) := StableHlo.after_of_writes_sub hostOps2 _ hostOps2_writes h2
    _ = W3 m ρ c (Proc.devRef .tc r) := W4_of_ne m ρ c r hr1
    _ = W2 m ρ c (Proc.devRef .tc r) := StableHlo.after_of_writes_sub hostOps1 _ hostOps1_writes h1
    _ = W1 m ρ c (Proc.devRef .tc r) := W2_of_ne m ρ c r hr0
    _ = W0 m ρ c (Proc.devRef .tc r) := StableHlo.after_of_writes_sub hostOps0 _ hostOps0_writes h0
    _ = m ((c : Thread nD τ).loc r) := rfl
theorem W7_main_arg0 (c : Dev nD) : W7 m ρ c (Proc.devRef .tc main_arg0) = m ((c : Thread nD τ).loc main_arg0) :=
  W7_untouched m ρ c main_arg0 (by decide) (by decide) (by decide) (by decide) (by decide) (by decide) (by decide)
theorem W7_main_arg1 (c : Dev nD) : W7 m ρ c (Proc.devRef .tc main_arg1) = m ((c : Thread nD τ).loc main_arg1) :=
  W7_untouched m ρ c main_arg1 (by decide) (by decide) (by decide) (by decide) (by decide) (by decide) (by decide)
theorem W7_main_arg2 (c : Dev nD) : W7 m ρ c (Proc.devRef .tc main_arg2) = m ((c : Thread nD τ).loc main_arg2) :=
  W7_untouched m ρ c main_arg2 (by decide) (by decide) (by decide) (by decide) (by decide) (by decide) (by decide)
theorem W7_main_arg3 (c : Dev nD) : W7 m ρ c (Proc.devRef .tc main_arg3) = m ((c : Thread nD τ).loc main_arg3) :=
  W7_untouched m ρ c main_arg3 (by decide) (by decide) (by decide) (by decide) (by decide) (by decide) (by decide)
theorem W7_main_arg4 (c : Dev nD) : W7 m ρ c (Proc.devRef .tc main_arg4) = m ((c : Thread nD τ).loc main_arg4) :=
  W7_untouched m ρ c main_arg4 (by decide) (by decide) (by decide) (by decide) (by decide) (by decide) (by decide)
theorem W7_main_arg5 (c : Dev nD) : W7 m ρ c (Proc.devRef .tc main_arg5) = m ((c : Thread nD τ).loc main_arg5) :=
  W7_untouched m ρ c main_arg5 (by decide) (by decide) (by decide) (by decide) (by decide) (by decide) (by decide)

end Cert.Kernel.Hand

end
-- ==== Proof.K.Share1.lean ====
/-
  The attention region's arrays in and out of the core's unscoped buffers. Its query, key and value windows read one
  array, so the region's arrays are not a sub-family of the unscoped buffers: at entry that array's full share is dealt
  in three disjoint parts (the left half; the two halves of the right half), one per window, and at exit the three are
  joined again — no input window writes its array back, so all three still hold the entry contents — while the output's
  array comes back at what the write-backs left.
-/
import proofs.«154133_j39204461478412_2_alg».proof.Proof.K.Reg1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The region's arrays, window by window: each window's whole array at the window's share. -/
theorem arrays1_eq (c : Dev nD) (Fv : (w : Fin cfg1.W) → Buf (Elt F) ((cfg1.win w).arr.view.loc (c : Thread nD τ))) :
    (dat1 V c).arrays Fv
      = bigSep Finset.univ fun w => (((c : Thread nD τ).loc (Pipeline.arrRef spec1 w)) ↦{(dat1 V c).share w} Fv w : sProp 𝕄) := by
  unfold Dat.arrays
  exact bigSep_congr fun w _ => by rw [(arr_whole1 w).set_eq_univ]

/-- The arrays behind the region's windows are four distinct buffers, none of them scoped. -/
theorem arrs1_sub : Finset.univ.image (Pipeline.arrRef spec1) ⊆ Finset.univ.filter fun b : Ref sig .tc => ¬ b.isScoped := by decide
theorem arrs1_list : Finset.univ.image (Pipeline.arrRef spec1) = ([main_v7, main_arg1, main_arg2, main_v8] : List (Ref sig .tc)).toFinset := by decide
/-- A family over those four buffers, one by one. -/
theorem arrs1_chain {M : Type} [URA M] (Φ : Ref sig .tc → sProp M) :
    bigSep (Finset.univ.image (Pipeline.arrRef spec1)) Φ = iprop(Φ main_v7 ∗ Φ main_arg1 ∗ Φ main_arg2 ∗ Φ main_v8) :=
  bigSep_eq_bigSepL_of_eq [main_v7, main_arg1, main_arg2, main_v8] arrs1_list (by decide) Φ

/-- ENTRY: the unscoped buffers at `V` give the region's arrays at their entry contents, the shared array dealt in
    three, beside the unscoped buffers that are no array of the region. -/
theorem entry1 (c : Dev nD) :
    (unscopedBufs c (V c) : sProp 𝕄) ⊢ iprop((dat1 V c).arrays ((dat1 V c).arrAt · 0) ∗ Pipeline.unscopedRest spec1 c (V c)) := by
  unfold unscopedBufs Pipeline.unscopedRest
  rw [bigSep_sdiff_split arrs1_sub]
  refine sep_mono ?_ .rfl
  rw [arrays1_eq, bigSep_W1, arrs1_chain]
  iintro ⟨H7, H1, H2, H8⟩
  ihave H7' := (pointsTo_share (PosShare.mem_left_op_right fullShare)).1 $$ H7
  icases H7' with ⟨HQ, HR⟩
  ihave HR' := (pointsTo_share (PosShare.mem_left_op_right fullShare.right)).1 $$ HR
  icases HR' with ⟨HK, HV⟩
  isplitl [HQ]; · iexact HQ
  isplitl [HK]; · iexact HK
  isplitl [HV]; · iexact HV
  isplitl [H1]; · iexact H1
  isplitl [H2]; · iexact H2
  iexact H8

/-- EXIT: the region's arrays at their final contents — the inputs' as entered, the output's at what the write-backs
    left — and the rest at `V` are the unscoped buffers at any valuation `V'` that has the output's array at those
    contents and agrees with `V` elsewhere. -/
theorem exit1 (c : Dev nD) (V' : (b : Ref sig .tc) → Buf (Elt F) ((c : Thread nD τ).loc b))
    (hout : V' main_v8 = (dat1 V c).arrAt 5 cfg1.N) (hne : ∀ b : Ref sig .tc, b ≠ main_v8 → V' b = V c b) :
    iprop((dat1 V c).arrays ((dat1 V c).arrAt · cfg1.N) ∗ Pipeline.unscopedRest spec1 c (V c)) ⊢ (unscopedBufs c V' : sProp 𝕄) := by
  unfold unscopedBufs Pipeline.unscopedRest
  rw [bigSep_sdiff_split arrs1_sub]
  have hrest : (bigSep ((Finset.univ.filter fun b : Ref sig .tc => ¬ b.isScoped) \ Finset.univ.image (Pipeline.arrRef spec1))
        (fun b => ((c : Thread nD τ).loc b) ↦{fullShare} V c b) : sProp 𝕄)
      = bigSep ((Finset.univ.filter fun b : Ref sig .tc => ¬ b.isScoped) \ Finset.univ.image (Pipeline.arrRef spec1))
        (fun b => ((c : Thread nD τ).loc b) ↦{fullShare} V' b) :=
    bigSep_congr fun b hb => by
      rw [hne b fun e => (Finset.mem_sdiff.mp hb).2 (e ▸ by decide)]
  rw [hrest]
  refine sep_mono ?_ .rfl
  rw [arrays1_eq, bigSep_W1, arrs1_chain]
  rw [(dat1 V c).arrAt_in 0 rfl, (dat1 V c).arrAt_in 1 rfl, (dat1 V c).arrAt_in 2 rfl, (dat1 V c).arrAt_in 3 rfl, (dat1 V c).arrAt_in 4 rfl,
    hne main_v7 (by decide), hne main_arg1 (by decide), hne main_arg2 (by decide), hout]
  iintro ⟨HQ, HK, HV, H1, H2, H8⟩
  isplitl [HQ HK HV]
  · iapply (pointsTo_share (PosShare.mem_left_op_right fullShare)).2
    isplitl [HQ]; · iexact HQ
    iapply (pointsTo_share (PosShare.mem_left_op_right fullShare.right)).2
    isplitl [HK]; · iexact HK
    iexact HV
  isplitl [H1]; · iexact H1
  isplitl [H2]; · iexact H2
  iexact H8

end Cert.Kernel.Hand

end
-- ==== Proof.K.Run.lean ====
/-
  The whole program's run. Its @main is four stretches of host operations (format changes, two weight transposes,
  reshapes) around three kernel regions. The contents of the core's unscoped buffers at each boundary are a fold from
  the launch memory: a host stretch applies its operations; a region leaves its arrays at what its pipeline's
  write-backs fold to and every other buffer as entered. Each region is a segment entered from one boundary's contents
  and left at the next; the launch runs the segments in order, and at the end every unscoped buffer — the arguments, and
  the result — is read off the last boundary. No host stretch and no region writes an argument, so the fold at an
  argument walks back to the launch memory: that is the frame; the fold at the result is the program's value.
-/
import proofs.«154133_j39204461478412_2_alg».proof.Proof.K.Fold
import proofs.«154133_j39204461478412_2_alg».proof.Proof.K.Share1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W7 m ρ c) ∗ ∃ r, prngReg c r)

/-- The last segment's exit is the last thread state beside the core owing nothing. -/
theorem last_state (c : Dev nD) :
    (iprop(StableHlo.held (c : Thread nD τ) (Pipeline.ucRefs τ sig) (W7 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

set_option backward.isDefEq.respectTransparency.types false in
/-- Region 0 over the thread state: entered from every unscoped buffer at `W1`, left at `W2`. Its arrays are split
    out of the unscoped buffers and put back at the exit contents; the generator register goes into the invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its windows share an
    array, so its arrays leave the unscoped buffers with that array's share dealt in three and come back joined. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := entry1 (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (V3 m ρ) c (V4 m ρ c) (W4_v8 m ρ c) (fun b hb => W4_of_ne m ρ c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split
    out of the unscoped buffers and put back at the exit contents; the generator register goes into the invariant and
    comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main is the run of the segments. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and in every final state every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c)⟩) (run_all m ρ)

/-- THE VALUE RUN: the same, with the result array named as the fold's contents at it. -/
theorem run_value : θ_run defs (onTc (τ := τ) (main (F := F))) ⟨m, fun _ => 0, ρ⟩ (fun r => ∀ c : Dev nD,
      r.2.mem ((c.tc : Thread nD τ).loc main_v12) = W7 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v12 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c)⟩) (run_all m ρ)

end Cert.Kernel.Hand

end
-- ==== Proof.KI.Reg0.lean ====
/-
  The first projection kernel (a row block of 1024 rows of the activations against the whole transposed weight, into a
  zero accumulator), as one region of the program: what each window's staging buffer holds when the body runs — its
  block of the array as the region finds it —, what the body leaves in the output's buffer — the one stored value, a pure
  function of the two loaded blocks —, the body's run, and the pipeline's proof data at any entry contents `V`.
-/
import proofs.«154133_j39204461478412_2_alg».proof.Proof.Gen.KernelIdeal.Launch
import proofs.«154133_j39204461478412_2_alg».proof.Proof.Gen.KernelIdeal.Skeleton
import proofs.«154133_j39204461478412_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (unfetched, the block
    index has not moved), for any proof data on these arrays that leaves input blocks in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's three accesses are whole-buffer rectangles. -/
abbrev r0_0 : Rect S1024x768 := Rect.unit (s := S1024x768) ![0, 0] S1024x768.size inb_S1024x768_S1024x768_0_0
abbrev r0_1 : Rect S768x2304 := Rect.unit (s := S768x2304) ![0, 0] S768x2304.size inb_S768x2304_S768x2304_0_0
abbrev r0_2 : Rect S1024x2304 := Rect.unit (s := S1024x2304) ![0, 0] S1024x2304.size inb_S1024x2304_S1024x2304_0_0

/-- The output buffer after the body: its one store, of the product of the two loaded blocks. -/
def out0_2 (x0 : Vec F S1024x768 .bf16) (x1 : Vec F S768x2304 .bf16) : Vec F S1024x2304 .bf16 :=
  View.canon [⟨r0_2, k0_pay1 (View.ld x0 r0_0) (View.ld x1 r0_1)⟩]

/-- The store covers the whole buffer. -/
theorem cover0_2 (p0 : Vec F S1024x2304 .bf16) (y : S1024x2304.Idx) :
    ∃ pc ∈ ([⟨r0_2, p0⟩] : List (View.Piece (Elt F) S1024x2304 .bf16)), y ∈ pc.1.set :=
  View.cover_of_tiled [⟨r0_2, p0⟩] S1024x2304.size (by rfl) y

set_option maxHeartbeats 1000000 in
/-- The body on whole staging buffers, the inputs' at contents `x0`, `x1` and the output's at anything: it runs to its
    return with the inputs' as they were and the output's at `out0_2 x0 x1`. -/
theorem sound_kernel0 (c : Dev nD) (E : Set ℕ) (i : grid0.Coords) (arg1 : Memref sig .tc .vmem S1024x768 .bf16) (harg1 : arg1.IsWhole)
    (arg2 : Memref sig .tc .vmem S768x2304 .bf16) (harg2 : arg2.IsWhole) (arg3 : Memref sig .tc .vmem S1024x2304 .bf16) (harg3 : arg3.IsWhole)
    (x0 : Vec F S1024x768 .bf16) (x1 : Vec F S768x2304 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the region finds them; after the body at point `t` each
    input's buffer at its block and the output's at `out0_2` of the input blocks; the invariant the scoped buffers
    that are no staging buffer and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the run applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  The attention kernel (one batch and one pair of heads per grid point: the pair's 128 query, key and value channels of
  all 1024 positions and the two rotary tables in, the pair's 128 output channels out), as one region of the program:
  the windows' blocks, what the body leaves in the output's buffer — its one stored value, a pure function of the five
  loaded blocks —, the body's run, and the pipeline's proof data at any entry contents `V`. The query, key and value
  windows read ONE array (the fused projection), so the proof data holds that array at three disjoint parts of the
  full share, one per window.
-/
import proofs.«154133_j39204461478412_2_alg».proof.Proof.Gen.KernelIdeal.Launch
import proofs.«154133_j39204461478412_2_alg».proof.Proof.Gen.KernelIdeal.Skeleton
import proofs.«154133_j39204461478412_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The body's accesses are whole-buffer rectangles. -/
abbrev r1_0 : Rect S1x1024x128 := Rect.unit (s := S1x1024x128) ![0, 0, 0] S1x1024x128.size inb_S1x1024x128_S1x1024x128_0_0_0
abbrev r1_3 : Rect S1024x64 := Rect.unit (s := S1024x64) ![0, 0] S1024x64.size inb_S1024x64_S1024x64_0_0

/-- The output buffer after the body: its one store, the two heads' outputs side by side, from the five loaded blocks. -/
def out1_5 (x0 x1 x2 : Vec F S1x1024x128 .bf16) (x3 x4 : Vec F S1024x64 .f32) : Vec F S1x1024x128 .bf16 :=
  View.canon [⟨r1_0, k1_pay6 (k1_pay1 (View.ld x0 r1_0)) (k1_pay2 (View.ld x1 r1_0)) (k1_pay3 (View.ld x2 r1_0)) (View.ld x3 r1_3) (View.ld x4 r1_3)
    (k1_pay4 (View.ld x2 r1_0)) (k1_pay5 (View.ld x0 r1_0) (View.ld x1 r1_0) (View.ld x3 r1_3) (View.ld x4 r1_3))⟩]

/-- The store covers the whole buffer. -/
theorem cover1_5 (p0 : Vec F S1x1024x128 .bf16) (y : S1x1024x128.Idx) :
    ∃ pc ∈ ([⟨r1_0, p0⟩] : List (View.Piece (Elt F) S1x1024x128 .bf16)), y ∈ pc.1.set :=
  View.cover_of_tiled [⟨r1_0, p0⟩] S1x1024x128.size (by rfl) y

set_option maxHeartbeats 4000000 in
/-- The body on whole staging buffers, the inputs' at contents `x0 … x4` and the output's at anything: it runs to its
    return with the inputs' as they were and the output's at `out1_5` of them. -/
theorem sound_kernel1 (c : Dev nD) (E : Set ℕ) (i : grid1.Coords)
    (arg2 : Memref sig .tc .vmem S1x1024x128 .bf16) (harg2 : arg2.IsWhole) (arg3 : Memref sig .tc .vmem S1x1024x128 .bf16) (harg3 : arg3.IsWhole)
    (arg4 : Memref sig .tc .vmem S1x1024x128 .bf16) (harg4 : arg4.IsWhole) (arg5 : Memref sig .tc .vmem S1024x64 .f32) (harg5 : arg5.IsWhole)
    (arg6 : Memref sig .tc .vmem S1024x64 .f32) (harg6 : arg6.IsWhole) (arg7 : Memref sig .tc .vmem S1x1024x128 .bf16) (harg7 : arg7.IsWhole)
    (x0 x1 x2 : Vec F S1x1024x128 .bf16) (x3 x4 : Vec F S1024x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 x0 x1 x2 x3 x4)) -∗ K ⟨⟩))
      ⊢ wp frame (wpE (defs₀ (F := F)) Variants.none c none) E
          (cc1__fused_attn_kernel i arg2 harg2 arg3 harg3 arg4 harg4 arg5 harg5 arg6 harg6 arg7 harg7) K := by
  simp only [cc1__fused_attn_kernel_eq_skeleton]; unfold cc1__fused_attn_kernel_skel
  simp only [k1_part2_eq_skeleton]; unfold k1_part2_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The three parts of the full share the fused projection's array is held at, one per window on it. -/
abbrev shQ : PosShare TreeShare := fullShare.left
abbrev shK : PosShare TreeShare := fullShare.right.left
abbrev shV : PosShare TreeShare := fullShare.right.right

/-- The pipeline's proof data on core `c`: the arrays as the region finds them; after the body at point `t` each
    input's buffer at its block and the output's at `out1_5` of the input blocks; the invariant the scoped buffers
    that are no staging buffer and the generator register, untouched; nothing owed; the shared array dealt in three. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q w := match w with
    | ⟨0, _⟩ => shQ
    | ⟨1, _⟩ => shK
    | ⟨2, _⟩ => shV
    | _ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  The output projection kernel (a row block of 512 rows of the attention output against the whole transposed weight,
  into a zero accumulator, plus the bias row broadcast down the rows), as one region of the program: the windows'
  blocks, what the body leaves in the output's buffer — its one stored value, a pure function of the three loaded
  blocks —, the body's run, and the pipeline's proof data at any entry contents `V`.
-/
import proofs.«154133_j39204461478412_2_alg».proof.Proof.Gen.KernelIdeal.Launch
import proofs.«154133_j39204461478412_2_alg».proof.Proof.Gen.KernelIdeal.Skeleton
import proofs.«154133_j39204461478412_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The body's four accesses are whole-buffer rectangles. -/
abbrev r2_0 : Rect S512x768 := Rect.unit (s := S512x768) ![0, 0] S512x768.size inb_S512x768_S512x768_0_0
abbrev r2_1 : Rect S768x768 := Rect.unit (s := S768x768) ![0, 0] S768x768.size inb_S768x768_S768x768_0_0
abbrev r2_2 : Rect S1x768 := Rect.unit (s := S1x768) ![0, 0] S1x768.size inb_S1x768_S1x768_0_0

/-- The output buffer after the body: its one store, of the product of the first two loaded blocks plus the third. -/
def out2_3 (x0 : Vec F S512x768 .bf16) (x1 : Vec F S768x768 .bf16) (x2 : Vec F S1x768 .f32) : Vec F S512x768 .f32 :=
  View.canon [⟨r2_0, k2_pay1 (View.ld x0 r2_0) (View.ld x1 r2_1) (View.ld x2 r2_2)⟩]

/-- The store covers the whole buffer. -/
theorem cover2_3 (p0 : Vec F S512x768 .f32) (y : S512x768.Idx) :
    ∃ pc ∈ ([⟨r2_0, p0⟩] : List (View.Piece (Elt F) S512x768 .f32)), y ∈ pc.1.set :=
  View.cover_of_tiled [⟨r2_0, p0⟩] S512x768.size (by rfl) y

set_option maxHeartbeats 1000000 in
/-- The body on whole staging buffers, the inputs' at contents `x0`, `x1`, `x2` and the output's at anything: it runs
    to its return with the inputs' as they were and the output's at `out2_3 x0 x1 x2`. -/
theorem sound_kernel2 (c : Dev nD) (E : Set ℕ) (i : grid2.Coords) (arg1 : Memref sig .tc .vmem S512x768 .bf16) (harg1 : arg1.IsWhole)
    (arg2 : Memref sig .tc .vmem S768x768 .bf16) (harg2 : arg2.IsWhole) (arg3 : Memref sig .tc .vmem S1x768 .f32) (harg3 : arg3.IsWhole)
    (arg4 : Memref sig .tc .vmem S512x768 .f32) (harg4 : arg4.IsWhole)
    (x0 : Vec F S512x768 .bf16) (x1 : Vec F S768x768 .bf16) (x2 : Vec F S1x768 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__matmul_bias_kernel i arg1 harg1 arg2 harg2 arg3 harg3 arg4 harg4) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's proof data on core `c`: the arrays as the region finds them; after the body at point `t` each
    input's buffer at its block and the output's at `out2_3` of the input blocks; the invariant the scoped buffers
    that are no staging buffer and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Fold.lean ====
/-
  The contents of the core's unscoped buffers at each boundary of the program — between its four stretches of host
  operations and its three kernel regions — as a fold from the launch memory: a host stretch applies its operations; a
  region leaves its output array at what its pipeline's write-backs fold to and every other buffer as entered. No host
  stretch and no region writes an argument, so the fold at an argument walks back to the launch memory.
-/
import proofs.«154133_j39204461478412_2_alg».proof.Proof.KI.Reg0
import proofs.«154133_j39204461478412_2_alg».proof.Proof.KI.Reg1
import proofs.«154133_j39204461478412_2_alg».proof.Proof.KI.Reg2
import proofs.«154133_j39204461478412_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves (the inputs as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: the attention output's array at what the write-backs fold to, every other buffer as entered
    (the region's input arrays among them: no input window writes back). -/
def W4 (c : Dev nD) : Valuation τ sig (Elt F) :=
  Function.update (W3 m ρ c) (Proc.devRef .tc main_v8) ((dat1 (V3 m ρ) c).arrAt 5 cfg1.N : Buf (Elt F) ((c : Thread nD τ).loc main_v8))
theorem W4_v8 (c : Dev nD) : W4 m ρ c (Proc.devRef .tc main_v8) = (dat1 (V3 m ρ) c).arrAt 5 cfg1.N := by
  unfold W4; exact Function.update_self ..
theorem W4_of_ne (c : Dev nD) (b : Ref sig .tc) (hb : b ≠ main_v8) : W4 m ρ c (Proc.devRef .tc b) = W3 m ρ c (Proc.devRef .tc b) := by
  unfold W4
  exact Function.update_of_ne (StableHlo.devRef_ne_of_ne hb : (Proc.devRef .tc b : DevRef τ sig) ≠ Proc.devRef .tc main_v8) ..
abbrev V4 : (c : Dev nD) → (b : Ref sig .tc) → Buf (Elt F) ((c : Thread nD τ).loc b) := fun c b => W4 m ρ c b
/-- After the third host stretch (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves (the inputs as entered, the output's write-backs folded),
    every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last host stretch: the contents at the return. -/
abbrev W7 : Dev nD → Valuation τ sig (Elt F) := fun c => StableHlo.after hostOps3 (W6 m ρ c)

/-- A buffer that no host stretch writes and that is no region's output array holds at the return what it held at launch. -/
theorem W7_untouched (c : Dev nD) (r : Ref sig .tc) (h0 : r ∉ hostOps0_W) (h1 : r ∉ hostOps1_W) (h2 : r ∉ hostOps2_W) (h3 : r ∉ hostOps3_W)
    (hr0 : ∀ w, Pipeline.arrRef spec0 w ≠ r) (hr1 : r ≠ main_v8) (hr2 : ∀ w, Pipeline.arrRef spec2 w ≠ r) :
    W7 m ρ c (Proc.devRef .tc r) = m ((c : Thread nD τ).loc r) :=
  calc W7 m ρ c (Proc.devRef .tc r)
    _ = W6 m ρ c (Proc.devRef .tc r) := StableHlo.after_of_writes_sub hostOps3 _ hostOps3_writes h3
    _ = W5 m ρ c (Proc.devRef .tc r) := W6_of_ne m ρ c r hr2
    _ = W4 m ρ c (Proc.devRef .tc r) := StableHlo.after_of_writes_sub hostOps2 _ hostOps2_writes h2
    _ = W3 m ρ c (Proc.devRef .tc r) := W4_of_ne m ρ c r hr1
    _ = W2 m ρ c (Proc.devRef .tc r) := StableHlo.after_of_writes_sub hostOps1 _ hostOps1_writes h1
    _ = W1 m ρ c (Proc.devRef .tc r) := W2_of_ne m ρ c r hr0
    _ = W0 m ρ c (Proc.devRef .tc r) := StableHlo.after_of_writes_sub hostOps0 _ hostOps0_writes h0
    _ = m ((c : Thread nD τ).loc r) := rfl
theorem W7_main_arg0 (c : Dev nD) : W7 m ρ c (Proc.devRef .tc main_arg0) = m ((c : Thread nD τ).loc main_arg0) :=
  W7_untouched m ρ c main_arg0 (by decide) (by decide) (by decide) (by decide) (by decide) (by decide) (by decide)
theorem W7_main_arg1 (c : Dev nD) : W7 m ρ c (Proc.devRef .tc main_arg1) = m ((c : Thread nD τ).loc main_arg1) :=
  W7_untouched m ρ c main_arg1 (by decide) (by decide) (by decide) (by decide) (by decide) (by decide) (by decide)
theorem W7_main_arg2 (c : Dev nD) : W7 m ρ c (Proc.devRef .tc main_arg2) = m ((c : Thread nD τ).loc main_arg2) :=
  W7_untouched m ρ c main_arg2 (by decide) (by decide) (by decide) (by decide) (by decide) (by decide) (by decide)
theorem W7_main_arg3 (c : Dev nD) : W7 m ρ c (Proc.devRef .tc main_arg3) = m ((c : Thread nD τ).loc main_arg3) :=
  W7_untouched m ρ c main_arg3 (by decide) (by decide) (by decide) (by decide) (by decide) (by decide) (by decide)
theorem W7_main_arg4 (c : Dev nD) : W7 m ρ c (Proc.devRef .tc main_arg4) = m ((c : Thread nD τ).loc main_arg4) :=
  W7_untouched m ρ c main_arg4 (by decide) (by decide) (by decide) (by decide) (by decide) (by decide) (by decide)
theorem W7_main_arg5 (c : Dev nD) : W7 m ρ c (Proc.devRef .tc main_arg5) = m ((c : Thread nD τ).loc main_arg5) :=
  W7_untouched m ρ c main_arg5 (by decide) (by decide) (by decide) (by decide) (by decide) (by decide) (by decide)

end Cert.KernelIdeal.Hand

end
-- ==== Proof.KI.Share1.lean ====
/-
  The attention region's arrays in and out of the core's unscoped buffers. Its query, key and value windows read one
  array, so the region's arrays are not a sub-family of the unscoped buffers: at entry that array's full share is dealt
  in three disjoint parts (the left half; the two halves of the right half), one per window, and at exit the three are
  joined again — no input window writes its array back, so all three still hold the entry contents — while the output's
  array comes back at what the write-backs left.
-/
import proofs.«154133_j39204461478412_2_alg».proof.Proof.KI.Reg1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The region's arrays, window by window: each window's whole array at the window's share. -/
theorem arrays1_eq (c : Dev nD) (Fv : (w : Fin cfg1.W) → Buf (Elt F) ((cfg1.win w).arr.view.loc (c : Thread nD τ))) :
    (dat1 V c).arrays Fv
      = bigSep Finset.univ fun w => (((c : Thread nD τ).loc (Pipeline.arrRef spec1 w)) ↦{(dat1 V c).share w} Fv w : sProp 𝕄) := by
  unfold Dat.arrays
  exact bigSep_congr fun w _ => by rw [(arr_whole1 w).set_eq_univ]

/-- The arrays behind the region's windows are four distinct buffers, none of them scoped. -/
theorem arrs1_sub : Finset.univ.image (Pipeline.arrRef spec1) ⊆ Finset.univ.filter fun b : Ref sig .tc => ¬ b.isScoped := by decide
theorem arrs1_list : Finset.univ.image (Pipeline.arrRef spec1) = ([main_v7, main_arg1, main_arg2, main_v8] : List (Ref sig .tc)).toFinset := by decide
/-- A family over those four buffers, one by one. -/
theorem arrs1_chain {M : Type} [URA M] (Φ : Ref sig .tc → sProp M) :
    bigSep (Finset.univ.image (Pipeline.arrRef spec1)) Φ = iprop(Φ main_v7 ∗ Φ main_arg1 ∗ Φ main_arg2 ∗ Φ main_v8) :=
  bigSep_eq_bigSepL_of_eq [main_v7, main_arg1, main_arg2, main_v8] arrs1_list (by decide) Φ

/-- ENTRY: the unscoped buffers at `V` give the region's arrays at their entry contents, the shared array dealt in
    three, beside the unscoped buffers that are no array of the region. -/
theorem entry1 (c : Dev nD) :
    (unscopedBufs c (V c) : sProp 𝕄) ⊢ iprop((dat1 V c).arrays ((dat1 V c).arrAt · 0) ∗ Pipeline.unscopedRest spec1 c (V c)) := by
  unfold unscopedBufs Pipeline.unscopedRest
  rw [bigSep_sdiff_split arrs1_sub]
  refine sep_mono ?_ .rfl
  rw [arrays1_eq, bigSep_W1, arrs1_chain]
  iintro ⟨H7, H1, H2, H8⟩
  ihave H7' := (pointsTo_share (PosShare.mem_left_op_right fullShare)).1 $$ H7
  icases H7' with ⟨HQ, HR⟩
  ihave HR' := (pointsTo_share (PosShare.mem_left_op_right fullShare.right)).1 $$ HR
  icases HR' with ⟨HK, HV⟩
  isplitl [HQ]; · iexact HQ
  isplitl [HK]; · iexact HK
  isplitl [HV]; · iexact HV
  isplitl [H1]; · iexact H1
  isplitl [H2]; · iexact H2
  iexact H8

/-- EXIT: the region's arrays at their final contents — the inputs' as entered, the output's at what the write-backs
    left — and the rest at `V` are the unscoped buffers at any valuation `V'` that has the output's array at those
    contents and agrees with `V` elsewhere. -/
theorem exit1 (c : Dev nD) (V' : (b : Ref sig .tc) → Buf (Elt F) ((c : Thread nD τ).loc b))
    (hout : V' main_v8 = (dat1 V c).arrAt 5 cfg1.N) (hne : ∀ b : Ref sig .tc, b ≠ main_v8 → V' b = V c b) :
    iprop((dat1 V c).arrays ((dat1 V c).arrAt · cfg1.N) ∗ Pipeline.unscopedRest spec1 c (V c)) ⊢ (unscopedBufs c V' : sProp 𝕄) := by
  unfold unscopedBufs Pipeline.unscopedRest
  rw [bigSep_sdiff_split arrs1_sub]
  have hrest : (bigSep ((Finset.univ.filter fun b : Ref sig .tc => ¬ b.isScoped) \ Finset.univ.image (Pipeline.arrRef spec1))
        (fun b => ((c : Thread nD τ).loc b) ↦{fullShare} V c b) : sProp 𝕄)
      = bigSep ((Finset.univ.filter fun b : Ref sig .tc => ¬ b.isScoped) \ Finset.univ.image (Pipeline.arrRef spec1))
        (fun b => ((c : Thread nD τ).loc b) ↦{fullShare} V' b) :=
    bigSep_congr fun b hb => by
      rw [hne b fun e => (Finset.mem_sdiff.mp hb).2 (e ▸ by decide)]
  rw [hrest]
  refine sep_mono ?_ .rfl
  rw [arrays1_eq, bigSep_W1, arrs1_chain]
  rw [(dat1 V c).arrAt_in 0 rfl, (dat1 V c).arrAt_in 1 rfl, (dat1 V c).arrAt_in 2 rfl, (dat1 V c).arrAt_in 3 rfl, (dat1 V c).arrAt_in 4 rfl,
    hne main_v7 (by decide), hne main_arg1 (by decide), hne main_arg2 (by decide), hout]
  iintro ⟨HQ, HK, HV, H1, H2, H8⟩
  isplitl [HQ HK HV]
  · iapply (pointsTo_share (PosShare.mem_left_op_right fullShare)).2
    isplitl [HQ]; · iexact HQ
    iapply (pointsTo_share (PosShare.mem_left_op_right fullShare.right)).2
    isplitl [HK]; · iexact HK
    iexact HV
  isplitl [H1]; · iexact H1
  isplitl [H2]; · iexact H2
  iexact H8

end Cert.KernelIdeal.Hand

end
-- ==== Proof.KI.Run.lean ====
/-
  The whole program's run. Its @main is four stretches of host operations (format changes, two weight transposes,
  reshapes) around three kernel regions. The contents of the core's unscoped buffers at each boundary are a fold from
  the launch memory: a host stretch applies its operations; a region leaves its arrays at what its pipeline's
  write-backs fold to and every other buffer as entered. Each region is a segment entered from one boundary's contents
  and left at the next; the launch runs the segments in order, and at the end every unscoped buffer — the arguments, and
  the result — is read off the last boundary. No host stretch and no region writes an argument, so the fold at an
  argument walks back to the launch memory: that is the frame; the fold at the result is the program's value.
-/
import proofs.«154133_j39204461478412_2_alg».proof.Proof.KI.Fold
import proofs.«154133_j39204461478412_2_alg».proof.Proof.KI.Share1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W7 m ρ c) ∗ ∃ r, prngReg c r)

/-- The last segment's exit is the last thread state beside the core owing nothing. -/
theorem last_state (c : Dev nD) :
    (iprop(StableHlo.held (c : Thread nD τ) (Pipeline.ucRefs τ sig) (W7 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

set_option backward.isDefEq.respectTransparency.types false in
/-- Region 0 over the thread state: entered from every unscoped buffer at `W1`, left at `W2`. Its arrays are split
    out of the unscoped buffers and put back at the exit contents; the generator register goes into the invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its windows share an
    array, so its arrays leave the unscoped buffers with that array's share dealt in three and come back joined. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := entry1 (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (V3 m ρ) c (V4 m ρ c) (W4_v8 m ρ c) (fun b hb => W4_of_ne m ρ c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split
    out of the unscoped buffers and put back at the exit contents; the generator register goes into the invariant and
    comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main is the run of the segments. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and in every final state every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c)⟩) (run_all m ρ)

/-- THE VALUE RUN: the same, with the result array named as the fold's contents at it. -/
theorem run_value : θ_run defs (onTc (τ := τ) (main (F := F))) ⟨m, fun _ => 0, ρ⟩ (fun r => ∀ c : Dev nD,
      r.2.mem ((c.tc : Thread nD τ).loc main_v12) = W7 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v12 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c)⟩) (run_all m ρ)

end Cert.KernelIdeal.Hand

end
-- ==== Proof.Frames.lean ====
/-
  The three frame claims and the idealization claim.

  The kernel program, read at the word level and at the extended reals alike, runs as seven segments — four stretches
  of host operations around three kernel regions — and at its return every unscoped buffer holds the last boundary's
  contents; no stretch and no region writes an argument, so each argument holds its launch contents. The reference is a
  host program with no kernel: its run, read back operation by operation, leaves its arguments unchanged. The ideal pass
  rewrote no operation of the kernel, so the idealization claim has no conjunct.
-/
import proofs.«154133_j39204461478412_2_alg».proof.Defs
import proofs.«154133_j39204461478412_2_alg».proof.Proof.K.Run
import proofs.«154133_j39204461478412_2_alg».proof.Proof.KI.Run
import proofs.«154133_j39204461478412_2_alg».proof.Proof.Gen.ReferenceIdeal.Run
import proofs.«154133_j39204461478412_2_alg».proof.Proof.Gen.Pre_finite_inputs

noncomputable section

namespace Cert.Proof

open Idealize.ShloMosaic Idealize.SL.Sem

theorem frame_kernel : Cert.frame_Kernel := fun m ρ _ => Cert.Kernel.Hand.frame (F := Bits) m ρ

theorem frame_kernelIdeal : Cert.frame_KernelIdeal := fun m ρ _ => Cert.KernelIdeal.Hand.frame (F := Ideal) m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

end Cert.Proof

end
-- ==== Proof.KernelValueKeep.lean ====
/-
  Buffers the program leaves alone between two boundaries: a buffer that a host stretch does not write and that is not
  a region's output array holds after them what it held before.  In particular the six arguments hold the launch
  memory's contents at every boundary, and the transposed output weights, written before the first region, are still
  there at the third region's entry.
-/
import proofs.«154133_j39204461478412_2_alg».proof.Proof.KI.Fold

noncomputable section

namespace Cert.KernelIdeal.Val

open Cert.KernelIdeal Cert.KernelIdeal.Gen Cert.KernelIdeal.Hand Idealize.ShloMosaic Idealize.ShloMosaic.TcCoe

variable {F : FTy → Type} [FloatOps F] (m : (ℓ : Loc nD τ sig) → Buf (Elt F) ℓ) (ρ : Dev nD → PrngReg)

/-- Launch to the first region's entry. -/
theorem W1_keep (c : Dev nD) (r : Ref sig .tc) (h0 : r ∉ hostOps0_W) :
    W1 m ρ c (Proc.devRef .tc r) = m ((c : Thread nD τ).loc r) :=
  calc W1 m ρ c (Proc.devRef .tc r)
    _ = W0 m ρ c (Proc.devRef .tc r) := StableHlo.after_of_writes_sub hostOps0 _ hostOps0_writes h0
    _ = m ((c : Thread nD τ).loc r) := rfl

/-- The first region's entry to the second's. -/
theorem W3_keep (c : Dev nD) (r : Ref sig .tc) (h1 : r ∉ hostOps1_W) (hr0 : ∀ w, Pipeline.arrRef spec0 w ≠ r) :
    W3 m ρ c (Proc.devRef .tc r) = W1 m ρ c (Proc.devRef .tc r) :=
  calc W3 m ρ c (Proc.devRef .tc r)
    _ = W2 m ρ c (Proc.devRef .tc r) := StableHlo.after_of_writes_sub hostOps1 _ hostOps1_writes h1
    _ = W1 m ρ c (Proc.devRef .tc r) := W2_of_ne m ρ c r hr0

/-- The second region's entry to the third's. -/
theorem W5_keep (c : Dev nD) (r : Ref sig .tc) (h2 : r ∉ hostOps2_W) (hr1 : r ≠ main_v8) :
    W5 m ρ c (Proc.devRef .tc r) = W3 m ρ c (Proc.devRef .tc r) :=
  calc W5 m ρ c (Proc.devRef .tc r)
    _ = W4 m ρ c (Proc.devRef .tc r) := StableHlo.after_of_writes_sub hostOps2 _ hostOps2_writes h2
    _ = W3 m ρ c (Proc.devRef .tc r) := W4_of_ne m ρ c r hr1

/-- The rotary tables at the second region's entry. -/
theorem W3_arg1 (c : Dev nD) : W3 m ρ c (Proc.devRef .tc main_arg1) = m ((c : Thread nD τ).loc main_arg1) :=
  (W3_keep m ρ c main_arg1 (by decide) (by decide)).trans (W1_keep m ρ c main_arg1 (by decide))
theorem W3_arg2 (c : Dev nD) : W3 m ρ c (Proc.devRef .tc main_arg2) = m ((c : Thread nD τ).loc main_arg2) :=
  (W3_keep m ρ c main_arg2 (by decide) (by decide)).trans (W1_keep m ρ c main_arg2 (by decide))

/-- The bias at the second region's exit. -/
theorem W4_arg5 (c : Dev nD) : W4 m ρ c (Proc.devRef .tc main_arg5) = m ((c : Thread nD τ).loc main_arg5) :=
  ((W4_of_ne m ρ c main_arg5 (by decide)).trans (W3_keep m ρ c main_arg5 (by decide) (by decide))).trans
    (W1_keep m ρ c main_arg5 (by decide))

/-- The transposed output weights at the third region's entry are those written before the first region. -/
theorem W5_v4 (c : Dev nD) : W5 m ρ c (Proc.devRef .tc main_v4) = W1 m ρ c (Proc.devRef .tc main_v4) :=
  (W5_keep m ρ c main_v4 (by decide) (by decide)).trans (W3_keep m ρ c main_v4 (by decide) (by decide))

end Cert.KernelIdeal.Val

end
-- ==== Proof.GlueIdx.lean ====
/-
  The host's layout operations of the kernel program, read at an index.

  A reshape keeps the row-major position: the flat row r of [8192, ·] is batch r / 1024, position r % 1024 of
  [8, 1024, ·], and back (b, n) is row 1024·b + n; a [768] vector seen as a [1, 768] row keeps its entry.  The
  transpose of a matrix read at (c, d) is the matrix at (d, c).  All of it holds for any carried type.
-/
import proofs.«154133_j39204461478412_2_alg».proof.Proof.Gen.KernelIdeal
import Idealize.ShloMosaic.Lib.Pipeline.Value
import Idealize.ShloMosaic.Lib.ValueIdx

noncomputable section

namespace Cert.KernelIdeal.Glue

open Cert.KernelIdeal Idealize.ShloMosaic Idealize.ShloMosaic.ValueIdx

variable {α : Type}

/-- The flat row 1024·b + n of an [8192, ·] array. -/
abbrev flatRow (b : Fin 8) (n : Fin 1024) : Fin 8192 := ⟨1024 * b.val + n.val, by omega⟩
/-- The batch of a flat row. -/
abbrev rowBatch (r : Fin 8192) : Fin 8 := ⟨r.val / 1024, by omega⟩
/-- The position of a flat row within its batch. -/
abbrev rowPos (r : Fin 8192) : Fin 1024 := ⟨r.val % 1024, Nat.mod_lt _ (by decide)⟩

/-- [8, 1024, 768] read as [8192, 768]. -/
theorem cast_flat768 (f : S8x1024x768.Idx → α) (h : S8x1024x768.ShapeCasts S8192x768) (r : Fin 8192) (c : Fin 768) :
    shapeCast S8192x768 f h (ix2 r c) = f (ix3 (rowBatch r) (rowPos r) c) :=
  shapeCast_apply f h (ix2 r c) (ix3 (rowBatch r) (rowPos r) c) (by
    rw [Shape.rowMajor_val_three, Shape.rowMajor_val_two]
    show (r.val / 1024 * 1024 + r.val % 1024) * 768 + c.val = r.val * 768 + c.val
    omega)

/-- [8192, 2304] read as [8, 1024, 2304]. -/
theorem cast_unflat2304 (f : S8192x2304.Idx → α) (h : S8192x2304.ShapeCasts S8x1024x2304) (b : Fin 8) (n : Fin 1024)
    (d : Fin 2304) : shapeCast S8x1024x2304 f h (ix3 b n d) = f (ix2 (flatRow b n) d) :=
  shapeCast_apply f h (ix3 b n d) (ix2 (flatRow b n) d) (by
    rw [Shape.rowMajor_val_three, Shape.rowMajor_val_two]
    show (1024 * b.val + n.val) * 2304 + d.val = (b.val * 1024 + n.val) * 2304 + d.val
    omega)

/-- [8192, 768] read as [8, 1024, 768]. -/
theorem cast_unflat768 (f : S8192x768.Idx → α) (h : S8192x768.ShapeCasts S8x1024x768) (b : Fin 8) (n : Fin 1024)
    (d : Fin 768) : shapeCast S8x1024x768 f h (ix3 b n d) = f (ix2 (flatRow b n) d) :=
  shapeCast_apply f h (ix3 b n d) (ix2 (flatRow b n) d) (by
    rw [Shape.rowMajor_val_three, Shape.rowMajor_val_two]
    show (1024 * b.val + n.val) * 768 + d.val = (b.val * 1024 + n.val) * 768 + d.val
    omega)

/-- [768] read as the one row of [1, 768]. -/
theorem cast_row768 (f : S768.Idx → α) (h : S768.ShapeCasts S1x768) (z : Fin 1) (d : Fin 768) :
    shapeCast S1x768 f h (ix2 z d) = f (ix1 d) :=
  shapeCast_apply f h (ix2 z d) (ix1 d) (by
    rw [Shape.rowMajor_val_one, Shape.rowMajor_val_two]
    show d.val = z.val * 768 + d.val
    have := z.isLt
    omega)

/-- The transpose of a [2304, 768] matrix at (c, d). -/
theorem transpose_qkv (f : S2304x768.Idx → α) (h : S2304x768.Transposes [1, 0] S768x2304) (c : Fin 768) (d : Fin 2304) :
    transpose S768x2304 [1, 0] f h (ix2 c d) = f (ix2 d c) :=
  transpose_apply [1, 0] f h (ix2 c d) (ix2 d c) (fun x => by
    match x with
    | ⟨0, _⟩ => rfl
    | ⟨1, _⟩ => rfl)

/-- The transpose of a [768, 768] matrix at (c, d). -/
theorem transpose_proj (f : S768x768.Idx → α) (h : S768x768.Transposes [1, 0] S768x768) (c : Fin 768) (d : Fin 768) :
    transpose S768x768 [1, 0] f h (ix2 c d) = f (ix2 d c) :=
  transpose_apply [1, 0] f h (ix2 c d) (ix2 d c) (fun x => by
    match x with
    | ⟨0, _⟩ => rfl
    | ⟨1, _⟩ => rfl)

end Cert.KernelIdeal.Glue

end
-- ==== Proof.Glue.lean ====
/-
  What the kernel program's host operations leave in the arrays the regions read, index by index.

  Before the first region the input x is narrowed (the identity over the extended reals) and flattened to
  [8192, 768], and the two weight matrices are transposed and narrowed; between the regions the arrays are only
  reshaped ([8192, ·] ↔ [8, 1024, ·], and the bias [768] → [1, 768]).  Each statement is for an arbitrary contents V
  before the stretch, and reads the array after the stretch at coordinates in terms of V at the stretch's inputs.
-/
import proofs.«154133_j39204461478412_2_alg».proof.Proof.Gen.KernelIdeal.Launch
import proofs.«154133_j39204461478412_2_alg».proof.Proof.GlueIdx
import Idealize.ShloMosaic.Lib.StableHlo.Run

noncomputable section

namespace Cert.KernelIdeal.Glue

open Cert.KernelIdeal Cert.KernelIdeal.Gen Idealize.ShloMosaic Idealize.ShloMosaic.TcCoe Idealize.ShloMosaic.ValueIdx
open Idealize.ShloMosaic.StableHlo

variable (V : Valuation τ sig (Elt Ideal))

/-! ## Before the first region -/

/-- The narrowed input keeps its entries. -/
theorem after0_v0_eq :
    (StableHlo.after (hostOps0 (F := Ideal)) V (Proc.devRef .tc main_v0) : S8x1024x768.Idx → EReal)
      = (V (Proc.devRef .tc main_arg0) : S8x1024x768.Idx → EReal) := by
  dsimp only [hostOps0]; after_results; rfl

/-- The flattened input as one array. -/
theorem after0_v5_eq :
    (StableHlo.after (hostOps0 (F := Ideal)) V (Proc.devRef .tc main_v5) : S8192x768.Idx → EReal)
      = shapeCast S8192x768 (V (Proc.devRef .tc main_arg0) : S8x1024x768.Idx → EReal) shapeCasts_S8x1024x768_S8192x768 := by
  dsimp only [hostOps0]; after_results; rfl

/-- The flattened input at row r, channel c: the input at batch r / 1024, position r % 1024. -/
theorem after0_v5 (r : Fin 8192) (c : Fin 768) :
    (StableHlo.after (hostOps0 (F := Ideal)) V (Proc.devRef .tc main_v5) : S8192x768.Idx → EReal) (ix2 r c)
      = (V (Proc.devRef .tc main_arg0) : S8x1024x768.Idx → EReal) (ix3 (rowBatch r) (rowPos r) c) := by
  rw [after0_v5_eq]
  exact cast_flat768 _ _ r c

/-- The transposed projection weights as one array. -/
theorem after0_v2_eq :
    (StableHlo.after (hostOps0 (F := Ideal)) V (Proc.devRef .tc main_v2) : S768x2304.Idx → EReal)
      = transpose S768x2304 [1, 0] (V (Proc.devRef .tc main_arg3) : S2304x768.Idx → EReal) transposes_S2304x768_S768x2304_1_0 := by
  dsimp only [hostOps0]; after_results; rfl

/-- The transposed projection weights at (c, d): the weights at (d, c). -/
theorem after0_v2 (c : Fin 768) (d : Fin 2304) :
    (StableHlo.after (hostOps0 (F := Ideal)) V (Proc.devRef .tc main_v2) : S768x2304.Idx → EReal) (ix2 c d)
      = (V (Proc.devRef .tc main_arg3) : S2304x768.Idx → EReal) (ix2 d c) := by
  rw [after0_v2_eq]
  exact transpose_qkv _ _ c d

/-- The transposed output weights as one array. -/
theorem after0_v4_eq :
    (StableHlo.after (hostOps0 (F := Ideal)) V (Proc.devRef .tc main_v4) : S768x768.Idx → EReal)
      = transpose S768x768 [1, 0] (V (Proc.devRef .tc main_arg4) : S768x768.Idx → EReal) transposes_S768x768_S768x768_1_0 := by
  dsimp only [hostOps0]; after_results; rfl

/-- The transposed output weights at (c, d): the weights at (d, c). -/
theorem after0_v4 (c : Fin 768) (d : Fin 768) :
    (StableHlo.after (hostOps0 (F := Ideal)) V (Proc.devRef .tc main_v4) : S768x768.Idx → EReal) (ix2 c d)
      = (V (Proc.devRef .tc main_arg4) : S768x768.Idx → EReal) (ix2 d c) := by
  rw [after0_v4_eq]
  exact transpose_proj _ _ c d

/-! ## Between the first and the second region -/

/-- The projection's result by batch, as one array. -/
theorem after1_v7_eq :
    (StableHlo.after (hostOps1 (F := Ideal)) V (Proc.devRef .tc main_v7) : S8x1024x2304.Idx → EReal)
      = shapeCast S8x1024x2304 (V (Proc.devRef .tc main_v6) : S8192x2304.Idx → EReal) shapeCasts_S8192x2304_S8x1024x2304 := by
  dsimp only [hostOps1]; after_results; rfl

/-- The projection's result at batch b, position n, channel d: the flat result at row 1024·b + n. -/
theorem after1_v7 (b : Fin 8) (n : Fin 1024) (d : Fin 2304) :
    (StableHlo.after (hostOps1 (F := Ideal)) V (Proc.devRef .tc main_v7) : S8x1024x2304.Idx → EReal) (ix3 b n d)
      = (V (Proc.devRef .tc main_v6) : S8192x2304.Idx → EReal) (ix2 (flatRow b n) d) := by
  rw [after1_v7_eq]
  exact cast_unflat2304 _ _ b n d

/-! ## Between the second and the third region -/

/-- The flattened attention output as one array. -/
theorem after2_v9_eq :
    (StableHlo.after (hostOps2 (F := Ideal)) V (Proc.devRef .tc main_v9) : S8192x768.Idx → EReal)
      = shapeCast S8192x768 (V (Proc.devRef .tc main_v8) : S8x1024x768.Idx → EReal) shapeCasts_S8x1024x768_S8192x768 := by
  dsimp only [hostOps2]; after_results; rfl

/-- The flattened attention output at row r, channel c: the output at batch r / 1024, position r % 1024. -/
theorem after2_v9 (r : Fin 8192) (c : Fin 768) :
    (StableHlo.after (hostOps2 (F := Ideal)) V (Proc.devRef .tc main_v9) : S8192x768.Idx → EReal) (ix2 r c)
      = (V (Proc.devRef .tc main_v8) : S8x1024x768.Idx → EReal) (ix3 (rowBatch r) (rowPos r) c) := by
  rw [after2_v9_eq]
  exact cast_flat768 _ _ r c

/-- The bias as a row, as one array. -/
theorem after2_v10_eq :
    (StableHlo.after (hostOps2 (F := Ideal)) V (Proc.devRef .tc main_v10) : S1x768.Idx → EReal)
      = shapeCast S1x768 (V (Proc.devRef .tc main_arg5) : S768.Idx → EReal) shapeCasts_S768_S1x768 := by
  dsimp only [hostOps2]; after_results; rfl

/-- The bias row at (0, d): the bias at d. -/
theorem after2_v10 (d : Fin 768) :
    (StableHlo.after (hostOps2 (F := Ideal)) V (Proc.devRef .tc main_v10) : S1x768.Idx → EReal) (ix2 (0 : Fin 1) d)
      = (V (Proc.devRef .tc main_arg5) : S768.Idx → EReal) (ix1 d) := by
  rw [after2_v10_eq]
  exact cast_row768 _ _ 0 d

/-! ## After the third region -/

/-- The result by batch, as one array. -/
theorem after3_v12_eq :
    (StableHlo.after (hostOps3 (F := Ideal)) V (Proc.devRef .tc main_v12) : S8x1024x768.Idx → EReal)
      = shapeCast S8x1024x768 (V (Proc.devRef .tc main_v11) : S8192x768.Idx → EReal) shapeCasts_S8192x768_S8x1024x768 := by
  dsimp only [hostOps3]; after_results; rfl

/-- The result at batch b, position n, channel d: the flat result at row 1024·b + n. -/
theorem after3_v12 (b : Fin 8) (n : Fin 1024) (d : Fin 768) :
    (StableHlo.after (hostOps3 (F := Ideal)) V (Proc.devRef .tc main_v12) : S8x1024x768.Idx → EReal) (ix3 b n d)
      = (V (Proc.devRef .tc main_v11) : S8192x768.Idx → EReal) (ix2 (flatRow b n) d) := by
  rw [after3_v12_eq]
  exact cast_unflat768 _ _ b n d

end Cert.KernelIdeal.Glue

end
-- ==== Proof.Spec.lean ====
/-
  The function both programs compute, index by index over the extended reals.

  With x : [8, 1024, 768], rotary tables sn, cs : [1024, 64], weights wq : [2304, 768], wp : [768, 768] and a bias
  bp : [768]:  the projection  qkv[b, n, d] = Σ_c x[b, n, c] · wq[d, c];  channel 768·s + 64·h + e of it is lane e of
  head h of the query (s = 0), the key (s = 1) or the value (s = 2);  queries and keys are rotated,
  rope u = u · cs + rot u · sn  with  rot u = (−u[32 …], u[… 32]);  a head's scores are  (Σ_e q[n, e] · k[m, e]) · 1/8,
  its weights the softmax of a row of scores spelt  exp (s − max s) / Σ exp (s − max s)  with the maximum taken from
  −∞, its output  Σ_m weight[n, m] · v[m, e];  the heads' outputs side by side, channel 64·h + e, are projected by
  wp and the bias is added:  out[b, n, d] = (Σ_c attn[b, n, c] · wp[d, c]) + bp[d].

  Every sum is a finite sum in the extended reals (commutative and associative), so neither the order of the terms
  nor the tiling of a contraction matters; no law that needs finiteness is used anywhere.
-/
import Idealize.ShloMosaic.PureOps.Ideal
import Idealize.ShloMosaic.Lib.ValueIdx

noncomputable section

namespace Cert.Attn

open Idealize.ShloMosaic Idealize.ShloMosaic.ValueIdx

/-- The scale 1/8 as both programs spell it. -/
abbrev eighth : EReal := Ideal.ofBits .f32 0x3E000000#32

/-- Rotate-half of one head's 64 lanes: lane e < 32 is minus lane e + 32, lane e ≥ 32 is lane e − 32. -/
def rot (u : Fin 64 → EReal) (e : Fin 64) : EReal :=
  if h : e.val < 32 then -(u ⟨e.val + 32, by omega⟩) else u ⟨e.val - 32, by omega⟩

/-- The rotary embedding of one position's 64 lanes. -/
def rope (u sn cs : Fin 64 → EReal) (e : Fin 64) : EReal := u e * cs e + rot u e * sn e

/-- A row's maximum, taken from −∞. -/
def rowMax (s : Fin 1024 → EReal) : EReal := (Finset.univ : Finset (Fin 1024)).fold max ⊥ s

/-- The unnormalised softmax weight. -/
def expo (s : Fin 1024 → EReal) (m : Fin 1024) : EReal := Ideal.exp (s m - rowMax s)

/-- The softmax weight. -/
def prob (s : Fin 1024 → EReal) (m : Fin 1024) : EReal := Ideal.div (expo s m) (∑ m' : Fin 1024, expo s m')

/-- One head's scaled scores. -/
def score (q k : Fin 1024 → Fin 64 → EReal) (n m : Fin 1024) : EReal := (∑ e : Fin 64, q n e * k m e) * eighth

/-- One head's output. -/
def head (q k v : Fin 1024 → Fin 64 → EReal) (n : Fin 1024) (e : Fin 64) : EReal :=
  ∑ m : Fin 1024, prob (score q k n) m * v m e

/-- Channel of section s (query, key, value), head h, lane e. -/
def chan (s : Fin 3) (h : Fin 12) (e : Fin 64) : Fin 2304 := ⟨768 * s.val + 64 * h.val + e.val, by omega⟩

/-- Channel of head h, lane e, in the heads' outputs side by side. -/
def chanO (h : Fin 12) (e : Fin 64) : Fin 768 := ⟨64 * h.val + e.val, by omega⟩

variable (x : (⟨3, ![8, 1024, 768]⟩ : Shape).Idx → EReal) (sn cs : (⟨2, ![1024, 64]⟩ : Shape).Idx → EReal)
  (wq : (⟨2, ![2304, 768]⟩ : Shape).Idx → EReal) (wp : (⟨2, ![768, 768]⟩ : Shape).Idx → EReal)
  (bp : (⟨1, ![768]⟩ : Shape).Idx → EReal)

/-- The fused projection. -/
def qkv (b : Fin 8) (n : Fin 1024) (d : Fin 2304) : EReal := ∑ c : Fin 768, x (ix3 b n c) * wq (ix2 d c)

/-- Head h's rotated queries, rotated keys, and values, of batch b. -/
def qh (b : Fin 8) (h : Fin 12) (n : Fin 1024) : Fin 64 → EReal :=
  rope (fun e => qkv x wq b n (chan 0 h e)) (fun e => sn (ix2 n e)) (fun e => cs (ix2 n e))
def kh (b : Fin 8) (h : Fin 12) (n : Fin 1024) : Fin 64 → EReal :=
  rope (fun e => qkv x wq b n (chan 1 h e)) (fun e => sn (ix2 n e)) (fun e => cs (ix2 n e))
def vh (b : Fin 8) (h : Fin 12) (n : Fin 1024) (e : Fin 64) : EReal := qkv x wq b n (chan 2 h e)

/-- The attention output, channel c = 64·h + e. -/
def attn (b : Fin 8) (n : Fin 1024) (c : Fin 768) : EReal :=
  head (qh x sn cs wq b ⟨c.val / 64, by omega⟩) (kh x sn cs wq b ⟨c.val / 64, by omega⟩) (vh x wq b ⟨c.val / 64, by omega⟩)
    n ⟨c.val % 64, Nat.mod_lt _ (by decide)⟩

/-- The result. -/
def out (b : Fin 8) (n : Fin 1024) (d : Fin 768) : EReal :=
  (∑ c : Fin 768, attn x sn cs wq b n c * wp (ix2 d c)) + bp (ix1 d)

/-- The result as one array. -/
def G : (⟨3, ![8, 1024, 768]⟩ : Shape).Idx → EReal := fun i =>
  out x sn cs wq wp bp ⟨(i 0).val, (i 0).isLt⟩ ⟨(i 1).val, (i 1).isLt⟩ ⟨(i 2).val, (i 2).isLt⟩

theorem G_ix3 (b : Fin 8) (n : Fin 1024) (d : Fin 768) : G x sn cs wq wp bp (ix3 b n d) = out x sn cs wq wp bp b n d := rfl

end Cert.Attn

end
-- ==== Proof.KernelValue0.lean ====
/-
  The kernel program's result is the specification.  Walking back from the returned array through the program's
  boundaries: the last reshape reads the third region's output array; that array is the output projection of the
  flattened attention output plus the bias; the attention output is the second region's array, head by head the
  specification's attention over the rotated queries and keys and the values cut from the first region's array; and that
  array is the fused projection of the flattened input.  The three regions' arrays enter as hypotheses, one per region,
  each for an arbitrary contents at the region's entry.
-/
import proofs.«154133_j39204461478412_2_alg».proof.Proof.KernelValueKeep
import proofs.«154133_j39204461478412_2_alg».proof.Proof.Glue
import proofs.«154133_j39204461478412_2_alg».proof.Proof.Spec

noncomputable section

namespace Cert.KernelIdeal.Val

open Cert.KernelIdeal Cert.KernelIdeal.Gen Cert.KernelIdeal.Hand Cert.KernelIdeal.Glue Idealize.ShloMosaic Idealize.ShloMosaic.TcCoe Idealize.ShloMosaic.ValueIdx

variable (m : (ℓ : Loc nD τ sig) → Buf (Elt Ideal) ℓ) (ρ : Dev nD → PrngReg)

/-- A matrix product read at (r, d), its operands typed as arrays of extended reals. -/
def mm0 (a : S8192x768.Idx → EReal) (w : S768x2304.Idx → EReal) (r : Fin 8192) (d : Fin 2304) : EReal :=
  ∑ k : Fin 768, a (ix2 r k) * w (ix2 k d)

/-- A matrix product plus a bias row read at (r, d). -/
def mm2 (a : S8192x768.Idx → EReal) (w : S768x768.Idx → EReal) (bias : S1x768.Idx → EReal) (r : Fin 8192) (d : Fin 768) : EReal :=
  (∑ k : Fin 768, a (ix2 r k) * w (ix2 k d)) + bias (ix2 (0 : Fin 1) d)

/-- Row 1024·b + n is batch b … -/
theorem flat_batch (b : Fin 8) (n : Fin 1024) : rowBatch (flatRow b n) = b :=
  Fin.ext (by show (1024 * b.val + n.val) / 1024 = b.val; have := n.isLt; omega)
/-- … position n. -/
theorem flat_pos (b : Fin 8) (n : Fin 1024) : rowPos (flatRow b n) = n :=
  Fin.ext (by show (1024 * b.val + n.val) % 1024 = n.val; have := n.isLt; omega)

section FirstRegion
variable (harr0 : ∀ (V : (c : Dev nD) → (b : Ref sig .tc) → Buf (Elt Ideal) ((c : Thread nD τ).loc b)) (c : Dev nD) (r : Fin 8192) (d : Fin 2304),
    ((dat0 V c).arrAt 2 cfg0.N : S8192x2304.Idx → EReal) (ix2 r d) = mm0 (V c main_v5) (V c main_v2) r d)
include harr0

/-- The first region's array is the fused projection of the input, rows flattened. -/
theorem v6_at (c : Dev nD) (b : Fin 8) (n : Fin 1024) (ch : Fin 2304) :
    (W2 m ρ c (Proc.devRef .tc main_v6) : S8192x2304.Idx → EReal) (ix2 (flatRow b n) ch)
      = Cert.Attn.qkv (m ((c : Thread nD τ).loc main_arg0)) (m ((c : Thread nD τ).loc main_arg3)) b n ch := by
  refine (congrFun (W2_arr m ρ c 2) (ix2 (flatRow b n) ch)).trans ?_
  refine (harr0 (V1 m ρ) c (flatRow b n) ch).trans ?_
  show (mm0 (V1 m ρ c main_v5) (V1 m ρ c main_v2) (flatRow b n) ch : EReal) = Cert.Attn.qkv (m ((c : Thread nD τ).loc main_arg0)) (m ((c : Thread nD τ).loc main_arg3)) b n ch
  unfold mm0 Cert.Attn.qkv
  refine Finset.sum_congr rfl fun k _ => ?_
  have e5 := after0_v5 (W0 m ρ c) (flatRow b n) k
  have e2 := after0_v2 (W0 m ρ c) k ch
  rw [flat_batch, flat_pos] at e5
  exact congr (congrArg HMul.hMul e5) e2

/-- The same array by batch, at the second region's entry. -/
theorem v7_at (c : Dev nD) (b : Fin 8) (n : Fin 1024) (ch : Fin 2304) :
    (W3 m ρ c (Proc.devRef .tc main_v7) : S8x1024x2304.Idx → EReal) (ix3 b n ch)
      = Cert.Attn.qkv (m ((c : Thread nD τ).loc main_arg0)) (m ((c : Thread nD τ).loc main_arg3)) b n ch :=
  (after1_v7 (W2 m ρ c) b n ch).trans (v6_at m ρ harr0 c b n ch)

end FirstRegion

end Cert.KernelIdeal.Val

end
-- ==== Proof.KernelValueChain.lean ====
/-
  The second and third regions and the return.  Head by head the second region's array is the specification's attention
  over the rotated queries and keys and the values cut from the projection; the third region's array is its output
  projection plus the bias; the returned array is that one, by batch.
-/
import proofs.«154133_j39204461478412_2_alg».proof.Proof.KernelValue0

noncomputable section

namespace Cert.KernelIdeal.Val

open Cert.KernelIdeal Cert.KernelIdeal.Gen Cert.KernelIdeal.Hand Cert.KernelIdeal.Glue Idealize.ShloMosaic Idealize.ShloMosaic.TcCoe Idealize.ShloMosaic.ValueIdx

variable (m : (ℓ : Loc nD τ sig) → Buf (Elt Ideal) ℓ) (ρ : Dev nD → PrngReg)

variable (harr0 : ∀ (V : (c : Dev nD) → (b : Ref sig .tc) → Buf (Elt Ideal) ((c : Thread nD τ).loc b)) (c : Dev nD) (r : Fin 8192) (d : Fin 2304),
    ((dat0 V c).arrAt 2 cfg0.N : S8192x2304.Idx → EReal) (ix2 r d) = mm0 (V c main_v5) (V c main_v2) r d)
  (harr1 : ∀ (V : (c : Dev nD) → (b : Ref sig .tc) → Buf (Elt Ideal) ((c : Thread nD τ).loc b)) (c : Dev nD) (b : Fin 8) (n : Fin 1024) (h : Fin 12) (e : Fin 64),
    ((dat1 V c).arrAt 5 cfg1.N : S8x1024x768.Idx → EReal) (ix3 b n (Cert.Attn.chanO h e))
      = Cert.Attn.head (fun n' : Fin 1024 => Cert.Attn.rope (fun e' : Fin 64 => (V c main_v7 : S8x1024x2304.Idx → EReal) (ix3 b n' (Cert.Attn.chan 0 h e'))) (fun e' : Fin 64 => (V c main_arg1 : S1024x64.Idx → EReal) (ix2 n' e')) (fun e' : Fin 64 => (V c main_arg2 : S1024x64.Idx → EReal) (ix2 n' e')))
          (fun n' : Fin 1024 => Cert.Attn.rope (fun e' : Fin 64 => (V c main_v7 : S8x1024x2304.Idx → EReal) (ix3 b n' (Cert.Attn.chan 1 h e'))) (fun e' : Fin 64 => (V c main_arg1 : S1024x64.Idx → EReal) (ix2 n' e')) (fun e' : Fin 64 => (V c main_arg2 : S1024x64.Idx → EReal) (ix2 n' e')))
          (fun (m' : Fin 1024) (e' : Fin 64) => (V c main_v7 : S8x1024x2304.Idx → EReal) (ix3 b m' (Cert.Attn.chan 2 h e'))) n e)
  (harr2 : ∀ (V : (c : Dev nD) → (b : Ref sig .tc) → Buf (Elt Ideal) ((c : Thread nD τ).loc b)) (c : Dev nD) (r : Fin 8192) (d : Fin 768),
    ((dat2 V c).arrAt 3 cfg2.N : S8192x768.Idx → EReal) (ix2 r d) = mm2 (V c main_v9) (V c main_v4) (V c main_v10) r d)

include harr0 harr1 in
/-- The second region's array at channel 64·h + e: head h's attention output at lane e. -/
theorem v8_at (c : Dev nD) (b : Fin 8) (n : Fin 1024) (h : Fin 12) (e : Fin 64) :
    (W4 m ρ c (Proc.devRef .tc main_v8) : S8x1024x768.Idx → EReal) (ix3 b n (Cert.Attn.chanO h e))
      = Cert.Attn.head (Cert.Attn.qh (m ((c : Thread nD τ).loc main_arg0)) (m ((c : Thread nD τ).loc main_arg1)) (m ((c : Thread nD τ).loc main_arg2)) (m ((c : Thread nD τ).loc main_arg3)) b h) (Cert.Attn.kh (m ((c : Thread nD τ).loc main_arg0)) (m ((c : Thread nD τ).loc main_arg1)) (m ((c : Thread nD τ).loc main_arg2)) (m ((c : Thread nD τ).loc main_arg3)) b h)
          (Cert.Attn.vh (m ((c : Thread nD τ).loc main_arg0)) (m ((c : Thread nD τ).loc main_arg3)) b h) n e := by
  refine (congrFun (W4_v8 m ρ c) (ix3 b n (Cert.Attn.chanO h e))).trans ?_
  refine (harr1 (V3 m ρ) c b n h e).trans ?_
  have es : ∀ n' : Fin 1024, (fun e' : Fin 64 => (V3 m ρ c main_arg1 : S1024x64.Idx → EReal) (ix2 n' e'))
      = fun e' : Fin 64 => ((m ((c : Thread nD τ).loc main_arg1)) : S1024x64.Idx → EReal) (ix2 n' e') :=
    fun n' => funext fun e' => congrFun (W3_arg1 m ρ c) (ix2 n' e')
  have ec : ∀ n' : Fin 1024, (fun e' : Fin 64 => (V3 m ρ c main_arg2 : S1024x64.Idx → EReal) (ix2 n' e'))
      = fun e' : Fin 64 => ((m ((c : Thread nD τ).loc main_arg2)) : S1024x64.Idx → EReal) (ix2 n' e') :=
    fun n' => funext fun e' => congrFun (W3_arg2 m ρ c) (ix2 n' e')
  have ev : ∀ (s : Fin 3) (n' : Fin 1024), (fun e' : Fin 64 => (V3 m ρ c main_v7 : S8x1024x2304.Idx → EReal) (ix3 b n' (Cert.Attn.chan s h e')))
      = fun e' : Fin 64 => Cert.Attn.qkv (m ((c : Thread nD τ).loc main_arg0)) (m ((c : Thread nD τ).loc main_arg3)) b n' (Cert.Attn.chan s h e') :=
    fun s n' => funext fun e' => v7_at m ρ harr0 c b n' (Cert.Attn.chan s h e')
  have hq : (fun n' : Fin 1024 => Cert.Attn.rope (fun e' : Fin 64 => (V3 m ρ c main_v7 : S8x1024x2304.Idx → EReal) (ix3 b n' (Cert.Attn.chan 0 h e'))) (fun e' : Fin 64 => (V3 m ρ c main_arg1 : S1024x64.Idx → EReal) (ix2 n' e')) (fun e' : Fin 64 => (V3 m ρ c main_arg2 : S1024x64.Idx → EReal) (ix2 n' e'))) = Cert.Attn.qh (m ((c : Thread nD τ).loc main_arg0)) (m ((c : Thread nD τ).loc main_arg1)) (m ((c : Thread nD τ).loc main_arg2)) (m ((c : Thread nD τ).loc main_arg3)) b h := by
    funext n'
    unfold Cert.Attn.qh
    rw [ev 0 n', es n', ec n']
  have hk : (fun n' : Fin 1024 => Cert.Attn.rope (fun e' : Fin 64 => (V3 m ρ c main_v7 : S8x1024x2304.Idx → EReal) (ix3 b n' (Cert.Attn.chan 1 h e'))) (fun e' : Fin 64 => (V3 m ρ c main_arg1 : S1024x64.Idx → EReal) (ix2 n' e')) (fun e' : Fin 64 => (V3 m ρ c main_arg2 : S1024x64.Idx → EReal) (ix2 n' e'))) = Cert.Attn.kh (m ((c : Thread nD τ).loc main_arg0)) (m ((c : Thread nD τ).loc main_arg1)) (m ((c : Thread nD τ).loc main_arg2)) (m ((c : Thread nD τ).loc main_arg3)) b h := by
    funext n'
    unfold Cert.Attn.kh
    rw [ev 1 n', es n', ec n']
  have hv : (fun (m' : Fin 1024) (e' : Fin 64) => (V3 m ρ c main_v7 : S8x1024x2304.Idx → EReal) (ix3 b m' (Cert.Attn.chan 2 h e')))
      = Cert.Attn.vh (m ((c : Thread nD τ).loc main_arg0)) (m ((c : Thread nD τ).loc main_arg3)) b h := by
    funext m' e'
    exact v7_at m ρ harr0 c b m' (Cert.Attn.chan 2 h e')
  rw [hq, hk, hv]

include harr0 harr1 in
/-- The second region's array is the specification's attention output. -/
theorem v8_attn (c : Dev nD) (b : Fin 8) (n : Fin 1024) (k : Fin 768) :
    (W4 m ρ c (Proc.devRef .tc main_v8) : S8x1024x768.Idx → EReal) (ix3 b n k)
      = Cert.Attn.attn (m ((c : Thread nD τ).loc main_arg0)) (m ((c : Thread nD τ).loc main_arg1)) (m ((c : Thread nD τ).loc main_arg2)) (m ((c : Thread nD τ).loc main_arg3)) b n k := by
  have hk : k = Cert.Attn.chanO (⟨k.val / 64, by have := k.isLt; omega⟩ : Fin 12) (⟨k.val % 64, Nat.mod_lt _ (by decide)⟩ : Fin 64) :=
    Fin.ext (by show k.val = 64 * (k.val / 64) + k.val % 64; omega)
  refine (congrArg (fun z : Fin 768 => (W4 m ρ c (Proc.devRef .tc main_v8) : S8x1024x768.Idx → EReal) (ix3 b n z)) hk).trans ?_
  exact v8_at m ρ harr0 harr1 c b n _ _

include harr0 harr1 harr2 in
/-- The third region's array is the specification's result, rows flattened. -/
theorem v11_at (c : Dev nD) (b : Fin 8) (n : Fin 1024) (d : Fin 768) :
    (W6 m ρ c (Proc.devRef .tc main_v11) : S8192x768.Idx → EReal) (ix2 (flatRow b n) d)
      = Cert.Attn.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b n d := by
  refine (congrFun (W6_arr m ρ c 3) (ix2 (flatRow b n) d)).trans ?_
  refine (harr2 (V5 m ρ) c (flatRow b n) d).trans ?_
  show (mm2 (V5 m ρ c main_v9) (V5 m ρ c main_v4) (V5 m ρ c main_v10) (flatRow b n) d : EReal)
    = Cert.Attn.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b n d
  unfold mm2 Cert.Attn.out
  have e10 : (V5 m ρ c main_v10 : S1x768.Idx → EReal) (ix2 (0 : Fin 1) d) = ((m ((c : Thread nD τ).loc main_arg5)) : S768.Idx → EReal) (ix1 d) :=
    (after2_v10 (W4 m ρ c) d).trans (congrFun (W4_arg5 m ρ c) (ix1 d))
  have e9 : ∀ k : Fin 768, (V5 m ρ c main_v9 : S8192x768.Idx → EReal) (ix2 (flatRow b n) k)
      = Cert.Attn.attn (m ((c : Thread nD τ).loc main_arg0)) (m ((c : Thread nD τ).loc main_arg1)) (m ((c : Thread nD τ).loc main_arg2)) (m ((c : Thread nD τ).loc main_arg3)) b n k := fun k => by
    have e := after2_v9 (W4 m ρ c) (flatRow b n) k
    rw [flat_batch, flat_pos] at e
    exact e.trans (v8_attn m ρ harr0 harr1 c b n k)
  have e4 : ∀ k : Fin 768, (V5 m ρ c main_v4 : S768x768.Idx → EReal) (ix2 k d) = ((m ((c : Thread nD τ).loc main_arg4)) : S768x768.Idx → EReal) (ix2 d k) :=
    fun k => (congrFun (W5_v4 m ρ c) (ix2 k d)).trans (after0_v4 (W0 m ρ c) k d)
  exact congr (congrArg HAdd.hAdd (Finset.sum_congr rfl fun k _ => congr (congrArg HMul.hMul (e9 k)) (e4 k))) e10

include harr0 harr1 harr2 in
/-- The returned array is the specification's, given the three regions' arrays. -/
theorem result_eq_G_of (c : Dev nD) :
    (W7 m ρ c (Proc.devRef .tc main_v12) : S8x1024x768.Idx → EReal)
      = Cert.Attn.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  obtain ⟨b, n, d, rfl⟩ : ∃ (b : Fin 8) (n : Fin 1024) (d : Fin 768), i = ix3 b n d := ⟨i 0, i 1, i 2, eq_ix3 i⟩
  exact (after3_v12 (W6 m ρ c) b n d).trans ((v11_at m ρ harr0 harr1 harr2 c b n d).trans
    (Cert.Attn.G_ix3 _ _ _ _ _ _ b n d).symm)

end Cert.KernelIdeal.Val

end
-- ==== Proof.Pay0.lean ====
/-
  The first matmul body's value at an index.

  The body multiplies a [1024, 768] block by a [768, 2304] block into a zero accumulator and narrows the result's
  format.  Over the extended reals the format change is the identity, a shape cast to the same shape is the
  identity, and the product into the zero accumulator is the plain sum over the one contracted axis:
  entry (r, d) is  Σ_c a[r, c] · w[c, d].
-/
import proofs.«154133_j39204461478412_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.PayMM

open Cert.KernelIdeal Cert.KernelIdeal.Gen Idealize.ShloMosaic Idealize.ShloMosaic.ValueIdx

/-- The dimension numbers of the first product: [1024, 768] × [768, 2304], contracting axis 1 with axis 0. -/
abbrev D0 : DotDims S1024x768 S768x2304 S1024x2304 := dot_S1024x768_S768x2304_S1024x2304_1_0_0_1_n_n

/-- The left operand's row coordinate is the result's row. -/
theorem D0_lhs_0 (i : S1024x2304.Idx) (q : D0.contr.Idx) : (D0.lhsIdx i q 0).val = (i 0).val := by
  unfold DotDims.lhsIdx
  rw [dif_neg (show ¬(0 : Fin S1024x768.rank) ∈ D0.lhsBatch by decide),
    dif_pos (show (0 : Fin S1024x768.rank) ∈ D0.lhsNonContracting by decide)]
  rfl

/-- The left operand's column coordinate is the contracted coordinate. -/
theorem D0_lhs_1 (i : S1024x2304.Idx) (q : D0.contr.Idx) : (D0.lhsIdx i q 1).val = (q ⟨0, by decide⟩).val :=
  D0.lhsIdx_val_of_single rfl i q

/-- The right operand's row coordinate is the contracted coordinate. -/
theorem D0_rhs_0 (i : S1024x2304.Idx) (q : D0.contr.Idx) : (D0.rhsIdx i q 0).val = (q ⟨0, by decide⟩).val :=
  D0.rhsIdx_val_of_single rfl i q

/-- The right operand's column coordinate is the result's column. -/
theorem D0_rhs_1 (i : S1024x2304.Idx) (q : D0.contr.Idx) : (D0.rhsIdx i q 1).val = (i 1).val := by
  unfold DotDims.rhsIdx
  rw [dif_neg (show ¬(1 : Fin S768x2304.rank) ∈ D0.rhsBatch by decide),
    dif_pos (show (1 : Fin S768x2304.rank) ∈ D0.rhsNonContracting by decide)]
  rfl

/-- The product into the zero accumulator, read at (r, d): the sum over the contracted coordinate. -/
theorem mm0_apply (a : FVec Ideal S1024x768 .bf16) (w : FVec Ideal S768x2304 .bf16) (r : Fin 1024) (d : Fin 2304) :
    matmul D0 none a w (constant (F := Ideal) S1024x2304 .f32 0x00000000#32) (ix2 r d)
      = ∑ c : Fin 768, a (ix2 r c) * w (ix2 c d) := by
  refine (Ideal.matmul_constant_zero_apply D0 none a w (ix2 r d)).trans ?_
  rw [← Equiv.sum_comp (contrEquiv1 D0 768 rfl rfl).symm]
  refine Finset.sum_congr rfl fun k _ => ?_
  have hk := contrEquiv1_symm_val D0 768 rfl rfl k
  have el : D0.lhsIdx (ix2 r d) ((contrEquiv1 D0 768 rfl rfl).symm k) = ix2 r k := funext fun x => Fin.ext (by
    match x with
    | ⟨0, _⟩ => exact D0_lhs_0 _ _
    | ⟨1, _⟩ => exact (D0_lhs_1 _ _).trans hk)
  have er : D0.rhsIdx (ix2 r d) ((contrEquiv1 D0 768 rfl rfl).symm k) = ix2 k d := funext fun x => Fin.ext (by
    match x with
    | ⟨0, _⟩ => exact (D0_rhs_0 _ _).trans hk
    | ⟨1, _⟩ => exact D0_rhs_1 _ _)
  rw [el, er]

/-- The first matmul body's stored value at (r, d). -/
theorem pay0_apply (a : Vec Ideal S1024x768 .bf16) (w : Vec Ideal S768x2304 .bf16) (r : Fin 1024) (d : Fin 2304) :
    Cert.KernelIdeal.Gen.k0_pay1 (F := Ideal) a w (ix2 r d) = ∑ c : Fin 768, a (ix2 r c) * w (ix2 c d) := by
  unfold Cert.KernelIdeal.Gen.k0_pay1
  rw [shapeCast_self, shapeCast_self]
  exact mm0_apply a w r d

end Cert.KernelIdeal.PayMM

end
-- ==== Proof.Arr0.lean ====
/-
  The first region's output array as one function of what the region finds.

  Grid point t multiplies rows 1024·t … 1024·t + 1023 of the activations by the whole weight matrix and writes the
  product back to the same rows of the output.  So each written block is that block of ONE array — row r, column d
  holds Σ_k a[r, k] · w[k, d] — and the eight blocks cover all 8192 rows: the output array ends holding that array.
-/
import proofs.«154133_j39204461478412_2_alg».proof.Proof.KI.Reg0
import proofs.«154133_j39204461478412_2_alg».proof.Proof.Pay0
import Idealize.ShloMosaic.Lib.Pipeline.Value
import Idealize.ShloMosaic.Lib.ValueIdx

noncomputable section

namespace Cert.KernelIdeal.Arr

open Cert.KernelIdeal Cert.KernelIdeal.Gen Cert.KernelIdeal.Hand Idealize.ShloMosaic Idealize.ShloMosaic.TcCoe
open Idealize.ShloMosaic.ValueIdx Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- Row r of the activations against column d of the weights. -/
def prod0 (a : S8192x768.Idx → EReal) (w : S768x2304.Idx → EReal) (r : Fin 8192) (d : Fin 2304) : EReal :=
  ∑ k : Fin 768, a (ix2 r k) * w (ix2 k d)

/-- The whole product, as an array over the output's index. -/
def G0 (c : Dev nD) : S8192x2304.Idx → EReal := fun i =>
  prod0 (V c main_v5) (V c main_v2) ⟨(i 0).val, (i 0).isLt⟩ ⟨(i 1).val, (i 1).isLt⟩

/-- The block indices over the grid: the activations' and the output's row block is the point, everything else 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The activations' block at point t, entry (p, k): row 1024·t + p. -/
theorem blk0_0 (c : Dev nD) (t : Fin cfg0.N) (p : Fin 1024) (k : Fin 768) (r : Fin 8192)
    (hr : r.val = 1024 * t.val + p.val) :
    (iblk0 V c 0 t : S1024x768.Idx → EReal) (ix2 p k) = (V c main_v5 : S8192x768.Idx → EReal) (ix2 r k) := by
  obtain ⟨e0, e1, -⟩ := idx_facts0 t
  show (V c main_v5 : S8192x768.Idx → EReal) (((cfg0.win 0).blk t).view.emb (ix2 p k)) = _
  refine congrArg _ (funext fun a => Fin.ext ?_)
  match a with
  | ⟨0, _⟩ => show win0_0.index t (0 : Fin 2) * 1024 + 1 * p.val = r.val; omega
  | ⟨1, _⟩ => show win0_0.index t (1 : Fin 2) * 768 + 1 * k.val = k.val; omega

/-- The weights' block at any point is the whole matrix. -/
theorem blk0_1 (c : Dev nD) (t : Fin cfg0.N) (k : Fin 768) (q : Fin 2304) :
    (iblk0 V c 1 t : S768x2304.Idx → EReal) (ix2 k q) = (V c main_v2 : S768x2304.Idx → EReal) (ix2 k q) := by
  obtain ⟨-, -, e2, e3, -⟩ := idx_facts0 t
  show (V c main_v2 : S768x2304.Idx → EReal) (((cfg0.win 1).blk t).view.emb (ix2 k q)) = _
  refine congrArg _ (funext fun a => Fin.ext ?_)
  match a with
  | ⟨0, _⟩ => show win0_1.index t (0 : Fin 2) * 768 + 1 * k.val = k.val; omega
  | ⟨1, _⟩ => show win0_1.index t (1 : Fin 2) * 2304 + 1 * q.val = q.val; omega

/-- What point t stores at entry y of its block: the product at row 1024·t + y₀, column y₁. -/
theorem point0 (c : Dev nD) (t : Fin cfg0.N) (y : S1024x2304.Idx) (r : Fin 8192) (q : Fin 2304)
    (hr : r.val = 1024 * t.val + (y 0).val) (hq : q.val = (y 1).val) :
    k0_pay1 (F := Ideal) (iblk0 V c 0 t) (iblk0 V c 1 t) y = prod0 (V c main_v5) (V c main_v2) r q := by
  obtain ⟨p, q', rfl⟩ : ∃ (p : Fin 1024) (q' : Fin 2304), y = ix2 p q' := ⟨y 0, y 1, eq_ix2 y⟩
  obtain rfl : q = q' := Fin.ext hq
  refine (PayMM.pay0_apply _ _ p q).trans ?_
  unfold prod0
  exact Finset.sum_congr rfl fun k _ => congrArg₂ (· * ·) (blk0_0 V c t p k r hr) (blk0_1 V c t k q)

/-- What point t writes back is block t of the whole product. -/
theorem flushed0_eq (c : Dev nD) (t : Fin cfg0.N) :
    (dat0 V c).flushed 2 t = ((cfg0.win 2).blk t).view.read (Elt Ideal) (G0 V c) := by
  show (cfg0.win 2).cut (grid0.coords t) ((dat0 V c).after 2 t) = _
  rw [after0_2]
  unfold out0_2
  rw [View.canon_unit_zero hz0]
  simp only [View.ld_unit_zero (S := S1024x768) hz0, View.ld_unit_zero (S := S768x2304) hz0]
  funext j
  obtain ⟨-, -, -, -, e4, e5⟩ := idx_facts0 t
  have hN : cfg0.N = 8 := N_0
  have ht : t.val < cfg0.N := t.isLt
  have hj0 : (j 0).val < 1024 := (j 0).isLt
  have hj1 : (j 1).val < 2304 := (j 1).isLt
  refine (point0 V c t _ ⟨1024 * t.val + (j 0).val, by omega⟩ ⟨(j 1).val, hj1⟩ rfl rfl).trans ?_
  show prod0 _ _ _ _ = prod0 _ _ _ _
  congr 1 <;> apply Fin.ext
  · show 1024 * t.val + (j 0).val = win0_2.index t (0 : Fin 2) * 1024 + 1 * (j 0).val; omega
  · show (j 1).val = win0_2.index t (1 : Fin 2) * 2304 + 1 * (j 1).val; omega

/-- An index is in point t's block iff each coordinate is in the block's range. -/
theorem mem_blk0 (t : Fin cfg0.N) (i : S8192x2304.Idx) :
    i ∈ ((cfg0.win 2).blk t).view.set ↔ ∀ a : Fin 2, win0_2.index t a * S1024x2304.size a ≤ (i a).val
      ∧ (i a).val < win0_2.index t a * S1024x2304.size a + S1024x2304.size a := by
  show i ∈ ((View.whole main_v6).slice (win0_2.rect t)).set ↔ _
  rw [View.set_slice_whole, Rect.mem_set_unit]
  exact Iff.rfl

/-- Row r is written by point r / 1024. -/
theorem cover0 (i : S8192x2304.Idx) :
    ∃ t : Fin cfg0.N, (cfg0.win 2).flush t = true ∧ i ∈ ((cfg0.win 2).blk t).view.set := by
  have hN : cfg0.N = 8 := N_0
  have hi0 : (i 0).val < 8192 := (i 0).isLt
  have hi1 : (i 1).val < 2304 := (i 1).isLt
  have ht : (i 0).val / 1024 < cfg0.N := by omega
  obtain ⟨-, -, -, -, e4, e5⟩ := idx_facts0 ⟨(i 0).val / 1024, ht⟩
  refine ⟨⟨(i 0).val / 1024, ht⟩, flush0_2 _, ?_⟩
  rw [mem_blk0]
  intro a
  match a with
  | ⟨0, _⟩ =>
    show win0_2.index ⟨(i 0).val / 1024, ht⟩ (0 : Fin 2) * 1024 ≤ (i 0).val
      ∧ (i 0).val < win0_2.index ⟨(i 0).val / 1024, ht⟩ (0 : Fin 2) * 1024 + 1024
    rw [e4]; show (i 0).val / 1024 * 1024 ≤ (i 0).val ∧ (i 0).val < (i 0).val / 1024 * 1024 + 1024; omega
  | ⟨1, _⟩ =>
    show win0_2.index ⟨(i 0).val / 1024, ht⟩ (1 : Fin 2) * 2304 ≤ (i 1).val
      ∧ (i 1).val < win0_2.index ⟨(i 0).val / 1024, ht⟩ (1 : Fin 2) * 2304 + 2304
    rw [e5]; omega

/-- The output array after the region is the whole product. -/
theorem arr0_eq (c : Dev nD) : (dat0 V c).arrAt 2 cfg0.N = G0 V c :=
  (dat0 V c).arrAt_eq_of_cover 2 (G0 V c) (fun t _ => flushed0_eq V c t) cover0

/-- The product unfolded: the sum over the contracted coordinate. -/
theorem prod0_def (a : S8192x768.Idx → EReal) (w : S768x2304.Idx → EReal) (r : Fin 8192) (d : Fin 2304) :
    prod0 a w r d = ∑ k : Fin 768, a (ix2 r k) * w (ix2 k d) := rfl

/-- The output array after the region, at row r and column d. -/
theorem arr0 (c : Dev nD) (r : Fin 8192) (d : Fin 2304) :
    ((dat0 V c).arrAt 2 cfg0.N : S8192x2304.Idx → EReal) (ix2 r d) = prod0 (V c main_v5) (V c main_v2) r d :=
  (congrFun (arr0_eq V c) (ix2 r d)).trans rfl

end Cert.KernelIdeal.Arr

end
-- ==== Proof.Pay1Layout.lean ====
/-
  Layout operations of the attention body read at an index: the lane slices of a [1024,128] and of a [1024,64]
  value, the two lane concatenations, the casts between [1,1024,128] and [1024,128], and a [1024] vector
  spread along the rows of a [1024,1024] value (cast to a column, then broadcast).
-/
import proofs.«154133_j39204461478412_2_alg».proof.Proof.Gen.KernelIdeal.Skeleton
import Idealize.ShloMosaic.Lib.Pipeline.Value
import Idealize.ShloMosaic.Lib.ValueIdx

namespace Cert.KernelIdeal.Pay1

open Cert.KernelIdeal Cert.KernelIdeal.Gen Idealize.ShloMosaic Idealize.ShloMosaic.ValueIdx

variable {α : Type}

/-- Lanes 0 … 63 of a [1024,128] value. -/
theorem slice128_lo (x : S1024x128.Idx → α) (h : S1024x128.Slices ![0, 0] S1024x64) (n : Fin 1024) (e : Fin 64) :
    extractStridedSlice S1024x64 ![0, 0] x h (ix2 n e) = x (ix2 n (⟨e.val, by omega⟩ : Fin 128)) :=
  extractStridedSlice_apply ![0, 0] x h (ix2 n e) (ix2 n (⟨e.val, by omega⟩ : Fin 128)) (fun a => match a with
    | ⟨0, _⟩ => by show n.val = 0 + n.val; omega
    | ⟨1, _⟩ => by show e.val = 0 + e.val; omega)

/-- Lanes 64 … 127 of a [1024,128] value. -/
theorem slice128_hi (x : S1024x128.Idx → α) (h : S1024x128.Slices ![0, 64] S1024x64) (n : Fin 1024) (e : Fin 64) :
    extractStridedSlice S1024x64 ![0, 64] x h (ix2 n e) = x (ix2 n (⟨64 + e.val, by omega⟩ : Fin 128)) :=
  extractStridedSlice_apply ![0, 64] x h (ix2 n e) (ix2 n (⟨64 + e.val, by omega⟩ : Fin 128)) (fun a => match a with
    | ⟨0, _⟩ => by show n.val = 0 + n.val; omega
    | ⟨1, _⟩ => by show 64 + e.val = 64 + e.val; rfl)

/-- Lanes 0 … 31 of a [1024,64] value. -/
theorem slice64_lo (x : S1024x64.Idx → α) (h : S1024x64.Slices ![0, 0] S1024x32) (n : Fin 1024) (e : Fin 32) :
    extractStridedSlice S1024x32 ![0, 0] x h (ix2 n e) = x (ix2 n (⟨e.val, by omega⟩ : Fin 64)) :=
  extractStridedSlice_apply ![0, 0] x h (ix2 n e) (ix2 n (⟨e.val, by omega⟩ : Fin 64)) (fun a => match a with
    | ⟨0, _⟩ => by show n.val = 0 + n.val; omega
    | ⟨1, _⟩ => by show e.val = 0 + e.val; omega)

/-- Lanes 32 … 63 of a [1024,64] value. -/
theorem slice64_hi (x : S1024x64.Idx → α) (h : S1024x64.Slices ![0, 32] S1024x32) (n : Fin 1024) (e : Fin 32) :
    extractStridedSlice S1024x32 ![0, 32] x h (ix2 n e) = x (ix2 n (⟨e.val + 32, by omega⟩ : Fin 64)) :=
  extractStridedSlice_apply ![0, 32] x h (ix2 n e) (ix2 n (⟨e.val + 32, by omega⟩ : Fin 64)) (fun a => match a with
    | ⟨0, _⟩ => by show n.val = 0 + n.val; omega
    | ⟨1, _⟩ => by show e.val + 32 = 32 + e.val; omega)

/-- Two [1024,32] halves side by side: lane e < 32 is the first half's lane e. -/
theorem concat32_left (a b : S1024x32.Idx → α) (h : Shape.Concatenates [S1024x32, S1024x32] S1024x64 1)
    (n : Fin 1024) (e : Fin 64) (he : e.val < 32) :
    concatenate S1024x64 1 [⟨S1024x32, a⟩, ⟨S1024x32, b⟩] h (ix2 n e) = a (ix2 n (⟨e.val, he⟩ : Fin 32)) :=
  concatenate_pair_apply_left 1 a b h (ix2 n e) rfl (ix2 n (⟨e.val, he⟩ : Fin 32)) (fun c => match c with
    | ⟨0, _⟩ => rfl
    | ⟨1, _⟩ => rfl)

/-- … and lane e ≥ 32 is the second half's lane e − 32. -/
theorem concat32_right (a b : S1024x32.Idx → α) (h : Shape.Concatenates [S1024x32, S1024x32] S1024x64 1)
    (n : Fin 1024) (e : Fin 64) (he : ¬ e.val < 32) :
    concatenate S1024x64 1 [⟨S1024x32, a⟩, ⟨S1024x32, b⟩] h (ix2 n e) = b (ix2 n (⟨e.val - 32, by omega⟩ : Fin 32)) :=
  concatenate_pair_apply_right 1 a b h (ix2 n e) rfl rfl (ix2 n (⟨e.val - 32, by omega⟩ : Fin 32)) (fun c => match c with
    | ⟨0, _⟩ => fun _ => rfl
    | ⟨1, _⟩ => fun hc => absurd rfl hc)
    (by show e.val - 32 + 32 = e.val; omega)

/-- Two [1024,64] heads side by side: lane 64·p + e is head p's lane e. -/
theorem concat64_left (a b : S1024x64.Idx → α) (h : Shape.Concatenates [S1024x64, S1024x64] S1024x128 1)
    (n : Fin 1024) (e : Fin 64) :
    concatenate S1024x128 1 [⟨S1024x64, a⟩, ⟨S1024x64, b⟩] h (ix2 n (⟨e.val, by omega⟩ : Fin 128)) = a (ix2 n e) :=
  concatenate_pair_apply_left 1 a b h (ix2 n (⟨e.val, by omega⟩ : Fin 128)) rfl (ix2 n e) (fun c => match c with
    | ⟨0, _⟩ => rfl
    | ⟨1, _⟩ => rfl)

theorem concat64_right (a b : S1024x64.Idx → α) (h : Shape.Concatenates [S1024x64, S1024x64] S1024x128 1)
    (n : Fin 1024) (e : Fin 64) :
    concatenate S1024x128 1 [⟨S1024x64, a⟩, ⟨S1024x64, b⟩] h (ix2 n (⟨64 + e.val, by omega⟩ : Fin 128)) = b (ix2 n e) :=
  concatenate_pair_apply_right 1 a b h (ix2 n (⟨64 + e.val, by omega⟩ : Fin 128)) rfl rfl (ix2 n e) (fun c => match c with
    | ⟨0, _⟩ => fun _ => rfl
    | ⟨1, _⟩ => fun hc => absurd rfl hc)
    (by show e.val + 64 = 64 + e.val; omega)

/-- The cast [1,1024,128] → [1024,128] keeps (n, l). -/
theorem cast3to2 (x : S1x1024x128.Idx → α) (h : S1x1024x128.ShapeCasts S1024x128) (n : Fin 1024) (l : Fin 128) :
    shapeCast S1024x128 x h (ix2 n l) = x (ix3 (0 : Fin 1) n l) :=
  shapeCast_apply x h (ix2 n l) (ix3 (0 : Fin 1) n l)
    (by rewrite [Shape.rowMajor_val_three, Shape.rowMajor_val_two]; show (0 * 1024 + n.val) * 128 + l.val = n.val * 128 + l.val; omega)

/-- The cast [1024,128] → [1,1024,128] keeps (n, l). -/
theorem cast2to3 (x : S1024x128.Idx → α) (h : S1024x128.ShapeCasts S1x1024x128) (n : Fin 1024) (l : Fin 128) :
    shapeCast S1x1024x128 x h (ix3 (0 : Fin 1) n l) = x (ix2 n l) :=
  shapeCast_apply x h (ix3 (0 : Fin 1) n l) (ix2 n l)
    (by rewrite [Shape.rowMajor_val_three, Shape.rowMajor_val_two]; show n.val * 128 + l.val = (0 * 1024 + n.val) * 128 + l.val; omega)

/-- A [1024] vector cast to a column and broadcast along the rows: entry (n, m) is the vector's entry n. -/
theorem column_spread (x : S1024.Idx → α) (hc : S1024.ShapeCasts S1024x1) (hb : S1024x1.Broadcasts S1024x1024)
    (n m : Fin 1024) :
    broadcastTo S1024x1024 (shapeCast S1024x1 x hc) hb (ix2 n m) = x (ix1 n) := by
  refine (broadcastTo_apply (shapeCast S1024x1 x hc) hb (ix2 n m) (ix2 n (0 : Fin 1)) (fun a => match a with
    | ⟨0, _⟩ => rfl
    | ⟨1, _⟩ => rfl)).trans ?_
  exact shapeCast_apply x hc (ix2 n (0 : Fin 1)) (ix1 n)
    (by rewrite [Shape.rowMajor_val_one, Shape.rowMajor_val_two]; show n.val = n.val * 1 + 0; omega)

end Cert.KernelIdeal.Pay1
-- ==== Proof.Pay1Rope.lean ====
/-
  The rotary embedding of a [1024,64] value as the attention body spells it — the value times the cosine table
  plus its rotate-half (minus the upper 32 lanes, then the lower 32 lanes) times the sine table — read at an index.
-/
import proofs.«154133_j39204461478412_2_alg».proof.Proof.Pay1Layout
import proofs.«154133_j39204461478412_2_alg».proof.Proof.Spec
import Idealize.ShloMosaic.PureOps.Ideal.Laws

noncomputable section

namespace Cert.KernelIdeal.Pay1

open Cert.KernelIdeal Cert.KernelIdeal.Gen Idealize.ShloMosaic Idealize.ShloMosaic.ValueIdx

/-- The rotate-half of a [1024,64] value: zero minus its upper 32 lanes, beside its lower 32 lanes. -/
def rotV (u : FVec Ideal S1024x64 .f32) : FVec Ideal S1024x64 .f32 :=
  concatenate S1024x64 1
    [⟨S1024x32, subf (broadcast S1024x32 (Scalar.ofBits (F := Ideal) .f32 0x00000000#32))
        (extractStridedSlice S1024x32 ![0, 32] u slices_S1024x64_o0_32_S1024x32)⟩,
     ⟨S1024x32, extractStridedSlice S1024x32 ![0, 0] u slices_S1024x64_o0_0_S1024x32⟩]
    concatenates_S1024x32_S1024x32_S1024x64_d1

/-- The rotary embedding of a [1024,64] value with sine table sn and cosine table cs. -/
def ropeV (u sn cs : FVec Ideal S1024x64 .f32) : FVec Ideal S1024x64 .f32 :=
  addf (mulf u cs) (mulf (rotV u) sn)

theorem rotV_apply (u : FVec Ideal S1024x64 .f32) (n : Fin 1024) (e : Fin 64) :
    rotV u (ix2 n e) = Cert.Attn.rot (fun e' => u (ix2 n e')) e := by
  unfold rotV Cert.Attn.rot
  by_cases he : e.val < 32
  · rw [dif_pos he]
    refine (concat32_left _ _ _ n e he).trans ?_
    show Ideal.ofBits .f32 0x00000000#32
        - extractStridedSlice S1024x32 ![0, 32] u slices_S1024x64_o0_32_S1024x32 (ix2 n (⟨e.val, he⟩ : Fin 32)) = _
    rw [slice64_hi, Ideal.ofBits_zero_f32, zero_sub]
  · rw [dif_neg he]
    refine (concat32_right _ _ _ n e he).trans ?_
    exact slice64_lo u _ n ⟨e.val - 32, by omega⟩

theorem ropeV_apply (u sn cs : FVec Ideal S1024x64 .f32) (n : Fin 1024) (e : Fin 64) :
    ropeV u sn cs (ix2 n e)
      = Cert.Attn.rope (fun e' => u (ix2 n e')) (fun e' => sn (ix2 n e')) (fun e' => cs (ix2 n e')) e := by
  unfold ropeV Cert.Attn.rope
  show u (ix2 n e) * cs (ix2 n e) + rotV u (ix2 n e) * sn (ix2 n e) = _
  rw [rotV_apply]

end Cert.KernelIdeal.Pay1

end
-- ==== Proof.Pay1Scores.lean ====
/-
  One head's scaled scores and the numerator of its softmax as the attention body spells them, read at an index:
  the product of the rotated queries and keys over the 64 lanes times 1/8; a row's maximum taken from −∞, spread
  back along the row; the exponential of the difference.
-/
import proofs.«154133_j39204461478412_2_alg».proof.Proof.Pay1Layout
import proofs.«154133_j39204461478412_2_alg».proof.Proof.Spec
import Idealize.ShloMosaic.PureOps.Ideal.Laws

noncomputable section

namespace Cert.KernelIdeal.Pay1

open Cert.KernelIdeal Cert.KernelIdeal.Gen Idealize.ShloMosaic Idealize.ShloMosaic.ValueIdx

/-! ## The scores product: rows of the left operand against rows of the right operand -/

theorem lhsS_0 (i : S1024x1024.Idx) (q : dot_S1024x64_S1024x64_S1024x1024_1_1_0_0_n_n.contr.Idx) :
    (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch by decide),
    dif_pos (show (0 : Fin S1024x64.rank) ∈ dot_S1024x64_S1024x64_S1024x1024_1_1_0_0_n_n.lhsNonContracting by decide)]
  rfl
theorem lhsS_1 (i : S1024x1024.Idx) (q : dot_S1024x64_S1024x64_S1024x1024_1_1_0_0_n_n.contr.Idx) :
    (dot_S1024x64_S1024x64_S1024x1024_1_1_0_0_n_n.lhsIdx i q 1).val = (q ⟨0, by decide⟩).val :=
  dot_S1024x64_S1024x64_S1024x1024_1_1_0_0_n_n.lhsIdx_val_of_single rfl i q
theorem rhsS_0 (i : S1024x1024.Idx) (q : dot_S1024x64_S1024x64_S1024x1024_1_1_0_0_n_n.contr.Idx) :
    (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch by decide),
    dif_pos (show (0 : Fin S1024x64.rank) ∈ dot_S1024x64_S1024x64_S1024x1024_1_1_0_0_n_n.rhsNonContracting by decide)]
  rfl
theorem rhsS_1 (i : S1024x1024.Idx) (q : dot_S1024x64_S1024x64_S1024x1024_1_1_0_0_n_n.contr.Idx) :
    (dot_S1024x64_S1024x64_S1024x1024_1_1_0_0_n_n.rhsIdx i q 1).val = (q ⟨0, by decide⟩).val :=
  dot_S1024x64_S1024x64_S1024x1024_1_1_0_0_n_n.rhsIdx_val_of_single rfl i q

/-- Entry (n, m) of the product into a zero accumulator: the sum over the 64 lanes of row n times row m. -/
theorem scores_matmul_apply (a b : FVec Ideal S1024x64 .bf16) (n m : Fin 1024) :
    matmul dot_S1024x64_S1024x64_S1024x1024_1_1_0_0_n_n none a b (constant (F := Ideal) S1024x1024 .f32 0x00000000#32) (ix2 n m)
      = ∑ e : Fin 64, a (ix2 n e) * b (ix2 m e) := by
  refine (Ideal.matmul_constant_zero_apply dot_S1024x64_S1024x64_S1024x1024_1_1_0_0_n_n none a b (ix2 n m)).trans ?_
  rw [← Equiv.sum_comp (contrEquiv1 dot_S1024x64_S1024x64_S1024x1024_1_1_0_0_n_n 64 rfl rfl).symm]
  refine Finset.sum_congr rfl fun k _ => ?_
  have hk := contrEquiv1_symm_val dot_S1024x64_S1024x64_S1024x1024_1_1_0_0_n_n 64 rfl rfl k
  have el : dot_S1024x64_S1024x64_S1024x1024_1_1_0_0_n_n.lhsIdx (ix2 n m)
      ((contrEquiv1 dot_S1024x64_S1024x64_S1024x1024_1_1_0_0_n_n 64 rfl rfl).symm k) = ix2 n k :=
    funext fun c => Fin.ext (by
      match c with
      | ⟨0, _⟩ => exact lhsS_0 _ _
      | ⟨1, _⟩ => exact (lhsS_1 _ _).trans hk)
  have er : dot_S1024x64_S1024x64_S1024x1024_1_1_0_0_n_n.rhsIdx (ix2 n m)
      ((contrEquiv1 dot_S1024x64_S1024x64_S1024x1024_1_1_0_0_n_n 64 rfl rfl).symm k) = ix2 m k :=
    funext fun c => Fin.ext (by
      match c with
      | ⟨0, _⟩ => exact rhsS_0 _ _
      | ⟨1, _⟩ => exact (rhsS_1 _ _).trans hk)
  rw [el, er]

/-- The scaled scores of rotated queries a against rotated keys b (narrowed to bf16, which changes nothing here). -/
def scoreV (a b : FVec Ideal S1024x64 .f32) : FVec Ideal S1024x1024 .f32 :=
  mulf (matmul dot_S1024x64_S1024x64_S1024x1024_1_1_0_0_n_n none (truncf .bf16 a bitsLt_bf16_f32) (truncf .bf16 b bitsLt_bf16_f32)
      (constant (F := Ideal) S1024x1024 .f32 0x00000000#32))
    (broadcast S1024x1024 (Scalar.ofBits (F := Ideal) .f32 0x3E000000#32))

theorem scoreV_apply (a b : FVec Ideal S1024x64 .f32) (n m : Fin 1024) :
    scoreV a b (ix2 n m) = Cert.Attn.score (fun n' e => a (ix2 n' e)) (fun m' e => b (ix2 m' e)) n m := by
  unfold scoreV Cert.Attn.score
  show matmul dot_S1024x64_S1024x64_S1024x1024_1_1_0_0_n_n none (truncf .bf16 a bitsLt_bf16_f32) (truncf .bf16 b bitsLt_bf16_f32)
      (constant (F := Ideal) S1024x1024 .f32 0x00000000#32) (ix2 n m) * Ideal.ofBits .f32 0x3E000000#32 = _
  rw [scores_matmul_apply]
  rfl

/-! ## A row's maximum and the exponential of the difference -/

/-- The row maximum from −∞ at row n. -/
theorem max_row (s : FVec Ideal S1024x1024 .f32) (hφ : FKind.Formats .f32)
    (hacc : (0xFF800000#32 : BitVec (FTy.bits .f32)) = FKind.maximumf.neutral .f32 hφ) (n : Fin 1024) :
    multiReduction (F := Ideal) .maximumf [1] S1024 s 0xFF800000#32 reduces_S1024x1024_S1024 hφ hacc (ix1 n)
      = Cert.Attn.rowMax (fun m => s (ix2 n m)) := by
  refine (Ideal.multiReduction_maximumf_single (a := 1) s 0xFF800000#32 reduces_S1024x1024_S1024 hφ hacc (ix1 n)).trans ?_
  have e1 : (FloatOps.ofBits (F := Ideal) .f32 0xFF800000#32) = (⊥ : EReal) := by
    show Ideal.ofBits .f32 0xFF800000#32 = ⊥
    simp [Ideal.ofBits, Ideal.ieee]
  have e2 : (s ∘ reduces_S1024x1024_S1024.lift (ix1 n)) = fun m : Fin 1024 => s (ix2 n m) :=
    funext fun m => congrArg s (funext fun c => Fin.ext (by
      match c with
      | ⟨0, _⟩ => rfl
      | ⟨1, _⟩ => rfl))
  rw [e1, e2]
  rfl

/-- The numerator of the softmax of scores s: exp (s − row maximum). -/
def expV (s : FVec Ideal S1024x1024 .f32) : FVec Ideal S1024x1024 .f32 :=
  exp (subf s (broadcastTo S1024x1024
    (shapeCast S1024x1 (multiReduction .maximumf [1] S1024 s 0xFF800000#32 reduces_S1024x1024_S1024 (.inl rfl) rfl) shapeCasts_S1024_S1024x1)
    broadcasts_S1024x1_S1024x1024))

theorem expV_apply (s : FVec Ideal S1024x1024 .f32) (n m : Fin 1024) :
    expV s (ix2 n m) = Cert.Attn.expo (fun m' => s (ix2 n m')) m := by
  unfold expV Cert.Attn.expo
  show Ideal.exp (s (ix2 n m) - broadcastTo S1024x1024
    (shapeCast S1024x1 (multiReduction (F := Ideal) .maximumf [1] S1024 s 0xFF800000#32 reduces_S1024x1024_S1024 (.inl rfl) rfl) shapeCasts_S1024_S1024x1)
    broadcasts_S1024x1_S1024x1024 (ix2 n m)) = _
  rw [column_spread]
  exact congrArg (fun z => Ideal.exp (s (ix2 n m) - z)) (max_row s (.inl rfl) rfl n)

end Cert.KernelIdeal.Pay1

end
-- ==== Proof.Pay1Head.lean ====
/-
  One head's output as the attention body spells it, read at an index: the softmax numerators divided by their
  row sum, times the values, summed over the 1024 key positions.
-/
import proofs.«154133_j39204461478412_2_alg».proof.Proof.Pay1Layout
import proofs.«154133_j39204461478412_2_alg».proof.Proof.Spec
import Idealize.ShloMosaic.PureOps.Ideal.Laws

noncomputable section

namespace Cert.KernelIdeal.Pay1

open Cert.KernelIdeal Cert.KernelIdeal.Gen Idealize.ShloMosaic Idealize.ShloMosaic.ValueIdx

/-! ## The output product: rows of the weights against columns of the values -/

theorem lhsH_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide),
    dif_pos (show (0 : Fin S1024x1024.rank) ∈ dot_S1024x1024_S1024x64_S1024x64_1_0_0_1_n_n.lhsNonContracting by decide)]
  rfl
theorem lhsH_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
theorem rhsH_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem rhsH_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide),
    dif_pos (show (1 : Fin S1024x64.rank) ∈ dot_S1024x1024_S1024x64_S1024x64_1_0_0_1_n_n.rhsNonContracting by decide)]
  rfl

/-- Entry (n, e) of the product into a zero accumulator: the sum over the 1024 positions of row n times column e. -/
theorem out_matmul_apply (w : FVec Ideal S1024x1024 .bf16) (v : FVec Ideal S1024x64 .bf16) (n : Fin 1024) (e : Fin 64) :
    matmul dot_S1024x1024_S1024x64_S1024x64_1_0_0_1_n_n none w v (constant (F := Ideal) S1024x64 .f32 0x00000000#32) (ix2 n e)
      = ∑ m : Fin 1024, w (ix2 n m) * v (ix2 m e) := by
  refine (Ideal.matmul_constant_zero_apply dot_S1024x1024_S1024x64_S1024x64_1_0_0_1_n_n none w v (ix2 n e)).trans ?_
  rw [← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 n e)
      ((contrEquiv1 dot_S1024x1024_S1024x64_S1024x64_1_0_0_1_n_n 1024 rfl rfl).symm k) = ix2 n k :=
    funext fun c => Fin.ext (by
      match c with
      | ⟨0, _⟩ => exact lhsH_0 _ _
      | ⟨1, _⟩ => exact (lhsH_1 _ _).trans hk)
  have er : dot_S1024x1024_S1024x64_S1024x64_1_0_0_1_n_n.rhsIdx (ix2 n e)
      ((contrEquiv1 dot_S1024x1024_S1024x64_S1024x64_1_0_0_1_n_n 1024 rfl rfl).symm k) = ix2 k e :=
    funext fun c => Fin.ext (by
      match c with
      | ⟨0, _⟩ => exact (rhsH_0 _ _).trans hk
      | ⟨1, _⟩ => exact rhsH_1 _ _)
  rw [el, er]

/-! ## The row sum and the weights -/

/-- The row sum at row n. -/
theorem sum_row (x : FVec Ideal S1024x1024 .f32) (hφ : FKind.Formats .f32)
    (hacc : (0x00000000#32 : BitVec (FTy.bits .f32)) = FKind.add.neutral .f32 hφ) (n : Fin 1024) :
    multiReduction (F := Ideal) .add [1] S1024 x 0x00000000#32 reduces_S1024x1024_S1024 hφ hacc (ix1 n)
      = ∑ m : Fin 1024, x (ix2 n m) := by
  refine (Ideal.multiReduction_add_single (a := 1) x 0x00000000#32 reduces_S1024x1024_S1024 hφ hacc (ix1 n)).trans ?_
  refine Finset.sum_congr rfl fun m _ => ?_
  exact congrArg x (funext fun c => Fin.ext (by
    match c with
    | ⟨0, _⟩ => rfl
    | ⟨1, _⟩ => rfl))

/-- Numerators x divided by their row sums. -/
def probV (x : FVec Ideal S1024x1024 .f32) : FVec Ideal S1024x1024 .f32 :=
  divf x (broadcastTo S1024x1024
    (shapeCast S1024x1 (multiReduction .add [1] S1024 x 0x00000000#32 reduces_S1024x1024_S1024 (.inl rfl) rfl) shapeCasts_S1024_S1024x1)
    broadcasts_S1024x1_S1024x1024)

theorem probV_apply (x : FVec Ideal S1024x1024 .f32) (n m : Fin 1024) :
    probV x (ix2 n m) = Ideal.div (x (ix2 n m)) (∑ m' : Fin 1024, x (ix2 n m')) := by
  unfold probV
  show Ideal.div (x (ix2 n m)) (broadcastTo S1024x1024
    (shapeCast S1024x1 (multiReduction (F := Ideal) .add [1] S1024 x 0x00000000#32 reduces_S1024x1024_S1024 (.inl rfl) rfl) shapeCasts_S1024_S1024x1)
    broadcasts_S1024x1_S1024x1024 (ix2 n m)) = _
  rw [column_spread]
  exact congrArg (fun z => Ideal.div (x (ix2 n m)) z) (sum_row x (.inl rfl) rfl n)

/-- The head's output from numerators x and values v (the two narrowings to bf16 change nothing here). -/
def headV (x : FVec Ideal S1024x1024 .f32) (v : FVec Ideal S1024x64 .bf16) : FVec Ideal S1024x64 .bf16 :=
  truncf .bf16 (matmul dot_S1024x1024_S1024x64_S1024x64_1_0_0_1_n_n none (truncf .bf16 (probV x) bitsLt_bf16_f32) v
      (constant (F := Ideal) S1024x64 .f32 0x00000000#32)) bitsLt_bf16_f32

theorem headV_apply (x : FVec Ideal S1024x1024 .f32) (v : FVec Ideal S1024x64 .bf16) (n : Fin 1024) (e : Fin 64) :
    headV x v (ix2 n e)
      = ∑ m : Fin 1024, Ideal.div (x (ix2 n m)) (∑ m' : Fin 1024, x (ix2 n m')) * v (ix2 m e) := by
  unfold headV
  show matmul dot_S1024x1024_S1024x64_S1024x64_1_0_0_1_n_n none (truncf .bf16 (probV x) bitsLt_bf16_f32) v
      (constant (F := Ideal) S1024x64 .f32 0x00000000#32) (ix2 n e) = _
  rw [out_matmul_apply]
  refine Finset.sum_congr rfl fun m _ => ?_
  show probV x (ix2 n m) * v (ix2 m e) = _
  rw [probV_apply]

end Cert.KernelIdeal.Pay1

end
-- ==== Proof.Pay1.lean ====
/-
  The attention body's stored value at an index.  The body works on one pair of heads: lane 64·p + e of its
  [1,1024,128] loads is lane e of head p.  Each head's rotated queries and keys, scaled scores, softmax and
  weighted sum of values are the specification's, so the stored value at (0, n, 64·p + e) is the specification's
  head output at (n, e) of head p's lanes.
-/
import proofs.«154133_j39204461478412_2_alg».proof.Proof.Pay1Rope
import proofs.«154133_j39204461478412_2_alg».proof.Proof.Pay1Scores
import proofs.«154133_j39204461478412_2_alg».proof.Proof.Pay1Head

noncomputable section

namespace Cert.KernelIdeal.Pay1

open Cert.KernelIdeal Cert.KernelIdeal.Gen Idealize.ShloMosaic Idealize.ShloMosaic.ValueIdx

/-! ## One head, from rotated queries a, rotated keys b and values v -/

theorem headV_expV_scoreV_apply (a b : FVec Ideal S1024x64 .f32) (v : FVec Ideal S1024x64 .bf16) (n : Fin 1024) (e : Fin 64) :
    headV (expV (scoreV a b)) v (ix2 n e)
      = Cert.Attn.head (fun n' e' => a (ix2 n' e')) (fun m' e' => b (ix2 m' e')) (fun m e' => v (ix2 m e')) n e := by
  rw [headV_apply]
  unfold Cert.Attn.head Cert.Attn.prob
  have hs : (fun m' => scoreV a b (ix2 n m'))
      = Cert.Attn.score (fun n' e' => a (ix2 n' e')) (fun m' e' => b (ix2 m' e')) n :=
    funext fun m' => scoreV_apply a b n m'
  have he : ∀ m, expV (scoreV a b) (ix2 n m)
      = Cert.Attn.expo (Cert.Attn.score (fun n' e' => a (ix2 n' e')) (fun m' e' => b (ix2 m' e')) n) m :=
    fun m => by rw [expV_apply, hs]
  simp only [he]

/-- The specification's head output depends on its three arguments entry by entry. -/
theorem head_congr {a a' b b' v v' : Fin 1024 → Fin 64 → EReal} (ha : ∀ n e, a n e = a' n e) (hb : ∀ n e, b n e = b' n e)
    (hv : ∀ n e, v n e = v' n e) (n : Fin 1024) (e : Fin 64) : Cert.Attn.head a b v n e = Cert.Attn.head a' b' v' n e := by
  have ea : a = a' := funext fun n => funext fun e => ha n e
  have eb : b = b' := funext fun n => funext fun e => hb n e
  have ev : v = v' := funext fun n => funext fun e => hv n e
  rw [ea, eb, ev]

/-! ## The loads, cast to [1024,128] and widened -/

theorem pay1_apply (q : Vec Ideal S1x1024x128 .bf16) (n : Fin 1024) (l : Fin 128) :
    k1_pay1 (F := Ideal) q (ix2 n l) = q (ix3 (0 : Fin 1) n l) := by
  unfold k1_pay1
  exact cast3to2 q _ n l
theorem pay2_apply (k : Vec Ideal S1x1024x128 .bf16) (n : Fin 1024) (l : Fin 128) :
    k1_pay2 (F := Ideal) k (ix2 n l) = k (ix3 (0 : Fin 1) n l) := by
  unfold k1_pay2
  exact cast3to2 k _ n l
theorem pay3_apply (v : Vec Ideal S1x1024x128 .bf16) (n : Fin 1024) (l : Fin 128) :
    k1_pay3 (F := Ideal) v (ix2 n l) = v (ix3 (0 : Fin 1) n l) := by
  unfold k1_pay3
  exact cast3to2 v _ n l

/-! ## The two payloads as the stages above -/

theorem pay5_eq (q k : Vec Ideal S1x1024x128 .bf16) (sn cs : Vec Ideal S1024x64 .f32) :
    k1_pay5 (F := Ideal) q k sn cs
      = expV (scoreV (ropeV (extractStridedSlice S1024x64 ![0, 0] (k1_pay1 q) slices_S1024x128_o0_0_S1024x64) sn cs)
          (ropeV (extractStridedSlice S1024x64 ![0, 0] (k1_pay2 k) slices_S1024x128_o0_0_S1024x64) sn cs)) := rfl

theorem pay4_eq (v : Vec Ideal S1x1024x128 .bf16) :
    k1_pay4 (F := Ideal) v = extractStridedSlice S1024x64 ![0, 0] (k1_pay3 v) slices_S1024x128_o0_0_S1024x64 := rfl

theorem pay6_eq (v2 v5 : FVec Ideal S1024x128 .f32) (v7 : FVec Ideal S1024x128 .bf16) (sn cs : Vec Ideal S1024x64 .f32)
    (v28 : FVec Ideal S1024x64 .bf16) (v38 : FVec Ideal S1024x1024 .f32) :
    k1_pay6 (F := Ideal) v2 v5 v7 sn cs v28 v38
      = shapeCast S1x1024x128 (concatenate S1024x128 1
          [⟨S1024x64, headV v38 v28⟩,
           ⟨S1024x64, headV (expV (scoreV
                (ropeV (extractStridedSlice S1024x64 ![0, 64] v2 slices_S1024x128_o0_64_S1024x64) sn cs)
                (ropeV (extractStridedSlice S1024x64 ![0, 64] v5 slices_S1024x128_o0_64_S1024x64) sn cs)))
              (extractStridedSlice S1024x64 ![0, 64] v7 slices_S1024x128_o0_64_S1024x64)⟩]
          concatenates_S1024x64_S1024x64_S1024x128_d1) shapeCasts_S1024x128_S1x1024x128 := rfl

/-! ## Head 0 of the pair (lanes 0 … 63) and head 1 (lanes 64 … 127) -/

theorem pay_head0 (q k v : Vec Ideal S1x1024x128 .bf16) (sn cs : Vec Ideal S1024x64 .f32) (n : Fin 1024) (e : Fin 64) :
    k1_pay6 (F := Ideal) (k1_pay1 q) (k1_pay2 k) (k1_pay3 v) sn cs (k1_pay4 v) (k1_pay5 q k sn cs)
        (ix3 (0 : Fin 1) n (⟨64 * (0 : Fin 2).val + e.val, by omega⟩ : Fin 128))
      = Cert.Attn.head
          (fun n' => Cert.Attn.rope (fun e' => q (ix3 (0 : Fin 1) n' (⟨64 * (0 : Fin 2).val + e'.val, by omega⟩ : Fin 128)))
            (fun e' => sn (ix2 n' e')) (fun e' => cs (ix2 n' e')))
          (fun n' => Cert.Attn.rope (fun e' => k (ix3 (0 : Fin 1) n' (⟨64 * (0 : Fin 2).val + e'.val, by omega⟩ : Fin 128)))
            (fun e' => sn (ix2 n' e')) (fun e' => cs (ix2 n' e')))
          (fun m e' => v (ix3 (0 : Fin 1) m (⟨64 * (0 : Fin 2).val + e'.val, by omega⟩ : Fin 128))) n e := by
  rw [pay6_eq, pay5_eq, pay4_eq]
  refine (cast2to3 _ _ n _).trans ?_
  have hl : (⟨64 * (0 : Fin 2).val + e.val, by omega⟩ : Fin 128) = ⟨e.val, by omega⟩ :=
    Fin.ext (by show 64 * 0 + e.val = e.val; omega)
  rw [hl]
  refine (concat64_left _ _ _ n e).trans ?_
  refine (headV_expV_scoreV_apply _ _ _ n e).trans ?_
  have lane : ∀ e' : Fin 64, (⟨e'.val, by omega⟩ : Fin 128) = ⟨64 * (0 : Fin 2).val + e'.val, by omega⟩ :=
    fun e' => Fin.ext (by show e'.val = 64 * 0 + e'.val; omega)
  refine head_congr (fun n' e' => ?_) (fun n' e' => ?_) (fun m e' => ?_) n e
  · refine (ropeV_apply _ sn cs n' e').trans ?_
    refine congrArg (fun u => Cert.Attn.rope u (fun e' => sn (ix2 n' e')) (fun e' => cs (ix2 n' e')) e') (funext fun e'' => ?_)
    rw [slice128_lo, pay1_apply, lane]
  · refine (ropeV_apply _ sn cs n' e').trans ?_
    refine congrArg (fun u => Cert.Attn.rope u (fun e' => sn (ix2 n' e')) (fun e' => cs (ix2 n' e')) e') (funext fun e'' => ?_)
    rw [slice128_lo, pay2_apply, lane]
  · rw [slice128_lo, pay3_apply, lane]

theorem pay_head1 (q k v : Vec Ideal S1x1024x128 .bf16) (sn cs : Vec Ideal S1024x64 .f32) (n : Fin 1024) (e : Fin 64) :
    k1_pay6 (F := Ideal) (k1_pay1 q) (k1_pay2 k) (k1_pay3 v) sn cs (k1_pay4 v) (k1_pay5 q k sn cs)
        (ix3 (0 : Fin 1) n (⟨64 * (1 : Fin 2).val + e.val, by omega⟩ : Fin 128))
      = Cert.Attn.head
          (fun n' => Cert.Attn.rope (fun e' => q (ix3 (0 : Fin 1) n' (⟨64 * (1 : Fin 2).val + e'.val, by omega⟩ : Fin 128)))
            (fun e' => sn (ix2 n' e')) (fun e' => cs (ix2 n' e')))
          (fun n' => Cert.Attn.rope (fun e' => k (ix3 (0 : Fin 1) n' (⟨64 * (1 : Fin 2).val + e'.val, by omega⟩ : Fin 128)))
            (fun e' => sn (ix2 n' e')) (fun e' => cs (ix2 n' e')))
          (fun m e' => v (ix3 (0 : Fin 1) m (⟨64 * (1 : Fin 2).val + e'.val, by omega⟩ : Fin 128))) n e := by
  rw [pay6_eq]
  refine (cast2to3 _ _ n _).trans ?_
  have hl : (⟨64 * (1 : Fin 2).val + e.val, by omega⟩ : Fin 128) = ⟨64 + e.val, by omega⟩ :=
    Fin.ext (by show 64 * 1 + e.val = 64 + e.val; omega)
  rw [hl]
  refine (concat64_right _ _ _ n e).trans ?_
  refine (headV_expV_scoreV_apply _ _ _ n e).trans ?_
  have lane : ∀ e' : Fin 64, (⟨64 + e'.val, by omega⟩ : Fin 128) = ⟨64 * (1 : Fin 2).val + e'.val, by omega⟩ :=
    fun e' => Fin.ext (by show 64 + e'.val = 64 * 1 + e'.val; omega)
  refine head_congr (fun n' e' => ?_) (fun n' e' => ?_) (fun m e' => ?_) n e
  · refine (ropeV_apply _ sn cs n' e').trans ?_
    refine congrArg (fun u => Cert.Attn.rope u (fun e' => sn (ix2 n' e')) (fun e' => cs (ix2 n' e')) e') (funext fun e'' => ?_)
    rw [slice128_hi, pay1_apply, lane]
  · refine (ropeV_apply _ sn cs n' e').trans ?_
    refine congrArg (fun u => Cert.Attn.rope u (fun e' => sn (ix2 n' e')) (fun e' => cs (ix2 n' e')) e') (funext fun e'' => ?_)
    rw [slice128_hi, pay2_apply, lane]
  · rw [slice128_hi, pay3_apply, lane]

/-- The stored value at (0, n, 64·p + e) is head p's output at (n, e). -/
theorem pay_head (q k v : Vec Ideal S1x1024x128 .bf16) (sn cs : Vec Ideal S1024x64 .f32) (n : Fin 1024) (p : Fin 2) (e : Fin 64) :
    k1_pay6 (F := Ideal) (k1_pay1 q) (k1_pay2 k) (k1_pay3 v) sn cs (k1_pay4 v) (k1_pay5 q k sn cs)
        (ix3 (0 : Fin 1) n (⟨64 * p.val + e.val, by omega⟩ : Fin 128))
      = Cert.Attn.head
          (fun n' => Cert.Attn.rope (fun e' => q (ix3 (0 : Fin 1) n' (⟨64 * p.val + e'.val, by omega⟩ : Fin 128)))
            (fun e' => sn (ix2 n' e')) (fun e' => cs (ix2 n' e')))
          (fun n' => Cert.Attn.rope (fun e' => k (ix3 (0 : Fin 1) n' (⟨64 * p.val + e'.val, by omega⟩ : Fin 128)))
            (fun e' => sn (ix2 n' e')) (fun e' => cs (ix2 n' e')))
          (fun m e' => v (ix3 (0 : Fin 1) m (⟨64 * p.val + e'.val, by omega⟩ : Fin 128))) n e :=
  match p with
  | ⟨0, _⟩ => pay_head0 q k v sn cs n e
  | ⟨1, _⟩ => pay_head1 q k v sn cs n e

end Cert.KernelIdeal.Pay1

end
-- ==== Proof.Arr1.lean ====
/-
  The attention region's output array as one function of what the region finds.

  Grid point t = 6·b + j works on batch b and the pair of heads 2j, 2j + 1: it reads channels 128·j + l (queries),
  768 + 128·j + l (keys) and 1536 + 128·j + l (values) of the fused projection at batch b, and both rotary tables
  whole, and writes channels 128·j + l of the output at batch b.  Lane l = 64·p + e of the block is lane e of head
  2j + p, so each written block is that block of ONE array — batch b, position n, channel 64·h + e holds head h's
  output at (n, e) — and the 48 blocks cover all 8 × 768 channels: the output array ends holding that array.
-/
import proofs.«154133_j39204461478412_2_alg».proof.Proof.KI.Reg1
import proofs.«154133_j39204461478412_2_alg».proof.Proof.Pay1
import Idealize.ShloMosaic.Lib.Pipeline.Value
import Idealize.ShloMosaic.Lib.ValueIdx

noncomputable section

namespace Cert.KernelIdeal.Arr

open Cert.KernelIdeal Cert.KernelIdeal.Gen Cert.KernelIdeal.Hand Idealize.ShloMosaic Idealize.ShloMosaic.TcCoe
open Idealize.ShloMosaic.ValueIdx Idealize.SL.Sem
open Idealize.ShloMosaic.Pipeline (Dat)

variable (V : (c : Dev nD) → (b : Ref sig .tc) → Buf (Elt Ideal) ((c : Thread nD τ).loc b))

theorem hz1_3 : (![0, 0, 0] : Fin 3 → Nat) = fun _ => 0 := funext fun a => by fin_cases a <;> rfl
theorem hz1_2 : (![0, 0] : Fin 2 → Nat) = fun _ => 0 := funext fun a => by fin_cases a <;> rfl

/-- Head h's output at batch b, position n, lane e, from the fused projection x and the two rotary tables. -/
def headAt1 (x : S8x1024x2304.Idx → EReal) (sn cs : S1024x64.Idx → EReal) (b : Fin 8) (h : Fin 12) (n : Fin 1024) (e : Fin 64) : EReal :=
  Cert.Attn.head
    (fun n' => Cert.Attn.rope (fun e' => x (ix3 b n' (Cert.Attn.chan 0 h e'))) (fun e' => sn (ix2 n' e')) (fun e' => cs (ix2 n' e')))
    (fun n' => Cert.Attn.rope (fun e' => x (ix3 b n' (Cert.Attn.chan 1 h e'))) (fun e' => sn (ix2 n' e')) (fun e' => cs (ix2 n' e')))
    (fun m e' => x (ix3 b m (Cert.Attn.chan 2 h e'))) n e

theorem headAt1_congr (x : S8x1024x2304.Idx → EReal) (sn cs : S1024x64.Idx → EReal) {b b' : Fin 8} {h h' : Fin 12} {n n' : Fin 1024}
    {e e' : Fin 64} (hb : b = b') (hh : h = h') (hn : n = n') (he : e = e') :
    headAt1 x sn cs b h n e = headAt1 x sn cs b' h' n' e' := by
  subst hb; subst hh; subst hn; subst he; rfl

/-- The whole attention output, as an array over the output's index: channel ch is lane ch % 64 of head ch / 64. -/
def A1 (c : Dev nD) : S8x1024x768.Idx → EReal := fun i =>
  headAt1 (V c main_v7) (V c main_arg1) (V c main_arg2) ⟨(i 0).val, (i 0).isLt⟩
    ⟨(i 2).val / 64, by have h : (i 2).val < 768 := (i 2).isLt; omega⟩ ⟨(i 1).val, (i 1).isLt⟩
    ⟨(i 2).val % 64, Nat.mod_lt _ (by decide)⟩

/-- The block indices over the grid: point t is batch t / 6 and pair t % 6; the key and value windows sit 6 and 12
    blocks further along the channels; the tables' one block is the whole table. -/
theorem idx_facts1 : ∀ t : Fin cfg1.N,
    win1_0.index t (0 : Fin 3) = t.val / 6 ∧ win1_0.index t (1 : Fin 3) = 0 ∧ win1_0.index t (2 : Fin 3) = t.val % 6
    ∧ win1_1.index t (0 : Fin 3) = t.val / 6 ∧ win1_1.index t (1 : Fin 3) = 0 ∧ win1_1.index t (2 : Fin 3) = 6 + t.val % 6
    ∧ win1_2.index t (0 : Fin 3) = t.val / 6 ∧ win1_2.index t (1 : Fin 3) = 0 ∧ win1_2.index t (2 : Fin 3) = 12 + t.val % 6
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = t.val / 6 ∧ win1_5.index t (1 : Fin 3) = 0 ∧ win1_5.index t (2 : Fin 3) = t.val % 6 :=
  (by decide +kernel : ∀ t : Fin grid1.N, _)

/-- The query window's block at point t, entry (0, n, l): batch t / 6, channel 128·(t % 6) + l. -/
theorem blk1_0 (c : Dev nD) (t : Fin cfg1.N) (n : Fin 1024) (l : Fin 128) (b : Fin 8) (ch : Fin 2304)
    (hb : b.val = t.val / 6) (hch : ch.val = 128 * (t.val % 6) + l.val) :
    (iblk1 V c 0 t : S1x1024x128.Idx → EReal) (ix3 (0 : Fin 1) n l) = (V c main_v7 : S8x1024x2304.Idx → EReal) (ix3 b n ch) := by
  obtain ⟨e0, e1, e2, -⟩ := idx_facts1 t
  show (V c main_v7 : S8x1024x2304.Idx → EReal) (((cfg1.win 0).blk t).view.emb (ix3 (0 : Fin 1) n l)) = _
  refine congrArg _ (funext fun a => Fin.ext ?_)
  match a with
  | ⟨0, _⟩ => show win1_0.index t (0 : Fin 3) * 1 + 1 * 0 = b.val; omega
  | ⟨1, _⟩ => show win1_0.index t (1 : Fin 3) * 1024 + 1 * n.val = n.val; omega
  | ⟨2, _⟩ => show win1_0.index t (2 : Fin 3) * 128 + 1 * l.val = ch.val; omega

/-- The key window's block: channel 768 + 128·(t % 6) + l. -/
theorem blk1_1 (c : Dev nD) (t : Fin cfg1.N) (n : Fin 1024) (l : Fin 128) (b : Fin 8) (ch : Fin 2304)
    (hb : b.val = t.val / 6) (hch : ch.val = 768 + 128 * (t.val % 6) + l.val) :
    (iblk1 V c 1 t : S1x1024x128.Idx → EReal) (ix3 (0 : Fin 1) n l) = (V c main_v7 : S8x1024x2304.Idx → EReal) (ix3 b n ch) := by
  obtain ⟨-, -, -, e0, e1, e2, -⟩ := idx_facts1 t
  show (V c main_v7 : S8x1024x2304.Idx → EReal) (((cfg1.win 1).blk t).view.emb (ix3 (0 : Fin 1) n l)) = _
  refine congrArg _ (funext fun a => Fin.ext ?_)
  match a with
  | ⟨0, _⟩ => show win1_1.index t (0 : Fin 3) * 1 + 1 * 0 = b.val; omega
  | ⟨1, _⟩ => show win1_1.index t (1 : Fin 3) * 1024 + 1 * n.val = n.val; omega
  | ⟨2, _⟩ => show win1_1.index t (2 : Fin 3) * 128 + 1 * l.val = ch.val; omega

/-- The value window's block: channel 1536 + 128·(t % 6) + l. -/
theorem blk1_2 (c : Dev nD) (t : Fin cfg1.N) (n : Fin 1024) (l : Fin 128) (b : Fin 8) (ch : Fin 2304)
    (hb : b.val = t.val / 6) (hch : ch.val = 1536 + 128 * (t.val % 6) + l.val) :
    (iblk1 V c 2 t : S1x1024x128.Idx → EReal) (ix3 (0 : Fin 1) n l) = (V c main_v7 : S8x1024x2304.Idx → EReal) (ix3 b n ch) := by
  obtain ⟨-, -, -, -, -, -, e0, e1, e2, -⟩ := idx_facts1 t
  show (V c main_v7 : S8x1024x2304.Idx → EReal) (((cfg1.win 2).blk t).view.emb (ix3 (0 : Fin 1) n l)) = _
  refine congrArg _ (funext fun a => Fin.ext ?_)
  match a with
  | ⟨0, _⟩ => show win1_2.index t (0 : Fin 3) * 1 + 1 * 0 = b.val; omega
  | ⟨1, _⟩ => show win1_2.index t (1 : Fin 3) * 1024 + 1 * n.val = n.val; omega
  | ⟨2, _⟩ => show win1_2.index t (2 : Fin 3) * 128 + 1 * l.val = ch.val; omega

/-- The sine table's block at any point is the whole table. -/
theorem blk1_3 (c : Dev nD) (t : Fin cfg1.N) (n : Fin 1024) (e : Fin 64) :
    (iblk1 V c 3 t : S1024x64.Idx → EReal) (ix2 n e) = (V c main_arg1 : S1024x64.Idx → EReal) (ix2 n e) := by
  obtain ⟨-, -, -, -, -, -, -, -, -, e0, e1, -⟩ := idx_facts1 t
  show (V c main_arg1 : S1024x64.Idx → EReal) (((cfg1.win 3).blk t).view.emb (ix2 n e)) = _
  refine congrArg _ (funext fun a => Fin.ext ?_)
  match a with
  | ⟨0, _⟩ => show win1_3.index t (0 : Fin 2) * 1024 + 1 * n.val = n.val; omega
  | ⟨1, _⟩ => show win1_3.index t (1 : Fin 2) * 64 + 1 * e.val = e.val; omega

/-- The cosine table's block at any point is the whole table. -/
theorem blk1_4 (c : Dev nD) (t : Fin cfg1.N) (n : Fin 1024) (e : Fin 64) :
    (iblk1 V c 4 t : S1024x64.Idx → EReal) (ix2 n e) = (V c main_arg2 : S1024x64.Idx → EReal) (ix2 n e) := by
  obtain ⟨-, -, -, -, -, -, -, -, -, -, -, e0, e1, -⟩ := idx_facts1 t
  show (V c main_arg2 : S1024x64.Idx → EReal) (((cfg1.win 4).blk t).view.emb (ix2 n e)) = _
  refine congrArg _ (funext fun a => Fin.ext ?_)
  match a with
  | ⟨0, _⟩ => show win1_4.index t (0 : Fin 2) * 1024 + 1 * n.val = n.val; omega
  | ⟨1, _⟩ => show win1_4.index t (1 : Fin 2) * 64 + 1 * e.val = e.val; omega

/-- The rotary embedding depends on its three arguments entry by entry. -/
theorem rope_congr1 {u u' s s' k k' : Fin 64 → EReal} (hu : ∀ e, u e = u' e) (hs : ∀ e, s e = s' e) (hk : ∀ e, k e = k' e) (e : Fin 64) :
    Cert.Attn.rope u s k e = Cert.Attn.rope u' s' k' e := by
  have eu : u = u' := funext hu
  have es : s = s' := funext hs
  have ek : k = k' := funext hk
  rw [eu, es, ek]

/-- What point t stores at entry (0, n, 64·p + e) of its block: head 2·(t % 6) + p's output at batch t / 6. -/
theorem point1_at (c : Dev nD) (t : Fin cfg1.N) (n : Fin 1024) (p : Fin 2) (e : Fin 64) (b : Fin 8) (h : Fin 12)
    (hb : b.val = t.val / 6) (hh : h.val = 2 * (t.val % 6) + p.val) :
    k1_pay6 (F := Ideal) (k1_pay1 (iblk1 V c 0 t)) (k1_pay2 (iblk1 V c 1 t)) (k1_pay3 (iblk1 V c 2 t)) (iblk1 V c 3 t) (iblk1 V c 4 t)
        (k1_pay4 (iblk1 V c 2 t)) (k1_pay5 (iblk1 V c 0 t) (iblk1 V c 1 t) (iblk1 V c 3 t) (iblk1 V c 4 t))
        (ix3 (0 : Fin 1) n (⟨64 * p.val + e.val, by omega⟩ : Fin 128))
      = headAt1 (V c main_v7) (V c main_arg1) (V c main_arg2) b h n e := by
  refine (Pay1.pay_head (iblk1 V c 0 t) (iblk1 V c 1 t) (iblk1 V c 2 t) (iblk1 V c 3 t) (iblk1 V c 4 t) n p e).trans ?_
  unfold headAt1
  refine Pay1.head_congr (fun n' e' => ?_) (fun n' e' => ?_) (fun m e' => ?_) n e
  · exact rope_congr1 (fun e'' => blk1_0 V c t n' _ b _ hb (by show 768 * 0 + 64 * h.val + e''.val = 128 * (t.val % 6) + (64 * p.val + e''.val); omega))
      (fun e'' => blk1_3 V c t n' e'') (fun e'' => blk1_4 V c t n' e'') e'
  · exact rope_congr1 (fun e'' => blk1_1 V c t n' _ b _ hb (by show 768 * 1 + 64 * h.val + e''.val = 768 + 128 * (t.val % 6) + (64 * p.val + e''.val); omega))
      (fun e'' => blk1_3 V c t n' e'') (fun e'' => blk1_4 V c t n' e'') e'
  · exact blk1_2 V c t m _ b _ hb (by show 768 * 2 + 64 * h.val + e'.val = 1536 + 128 * (t.val % 6) + (64 * p.val + e'.val); omega)

/-- The same at any entry y of the block: lane y₂ is lane y₂ % 64 of head 2·(t % 6) + y₂ / 64. -/
theorem point1 (c : Dev nD) (t : Fin cfg1.N) (y : S1x1024x128.Idx) (b : Fin 8) (h : Fin 12) (n : Fin 1024) (e : Fin 64)
    (hb : b.val = t.val / 6) (hh : h.val = 2 * (t.val % 6) + (y 2).val / 64) (hn : n.val = (y 1).val) (he : e.val = (y 2).val % 64) :
    k1_pay6 (F := Ideal) (k1_pay1 (iblk1 V c 0 t)) (k1_pay2 (iblk1 V c 1 t)) (k1_pay3 (iblk1 V c 2 t)) (iblk1 V c 3 t) (iblk1 V c 4 t)
        (k1_pay4 (iblk1 V c 2 t)) (k1_pay5 (iblk1 V c 0 t) (iblk1 V c 1 t) (iblk1 V c 3 t) (iblk1 V c 4 t)) y
      = headAt1 (V c main_v7) (V c main_arg1) (V c main_arg2) b h n e := by
  obtain ⟨z, n', l, rfl⟩ : ∃ (z : Fin 1) (n' : Fin 1024) (l : Fin 128), y = ix3 z n' l := ⟨y 0, y 1, y 2, eq_ix3 y⟩
  obtain rfl : z = 0 := Fin.ext (by have := z.isLt; omega)
  obtain rfl : n = n' := Fin.ext hn
  have hl : l = (⟨64 * (⟨l.val / 64, by have := l.isLt; omega⟩ : Fin 2).val + e.val, by have := e.isLt; have := l.isLt; show 64 * (l.val / 64) + e.val < 128; omega⟩ : Fin 128) :=
    Fin.ext (by show l.val = 64 * (l.val / 64) + e.val; have : e.val = l.val % 64 := he; omega)
  rw [hl]
  exact point1_at V c t n ⟨l.val / 64, by have := l.isLt; omega⟩ e b h hb hh

/-- What point t writes back is block t of the whole attention output. -/
theorem flushed1_eq (c : Dev nD) (t : Fin cfg1.N) :
    (dat1 V c).flushed 5 t = ((cfg1.win 5).blk t).view.read (Elt Ideal) (A1 V c) := by
  show (cfg1.win 5).cut (grid1.coords t) ((dat1 V c).after 5 t) = _
  rw [after1_5]
  unfold out1_5
  rw [View.canon_unit_zero hz1_3]
  simp only [View.ld_unit_zero (S := S1x1024x128) hz1_3, View.ld_unit_zero (S := S1024x64) hz1_2]
  funext j
  obtain ⟨-, -, -, -, -, -, -, -, -, -, -, -, -, e0, e1, e2⟩ := idx_facts1 t
  have hN : cfg1.N = 48 := N_1
  have ht : t.val < cfg1.N := t.isLt
  have hj0 : (j 0).val < 1 := (j 0).isLt
  have hj1 : (j 1).val < 1024 := (j 1).isLt
  have hj2 : (j 2).val < 128 := (j 2).isLt
  refine (point1 V c t j ⟨t.val / 6, by omega⟩ ⟨2 * (t.val % 6) + (j 2).val / 64, by omega⟩ ⟨(j 1).val, hj1⟩
    ⟨(j 2).val % 64, Nat.mod_lt _ (by decide)⟩ rfl rfl rfl rfl).trans ?_
  show headAt1 _ _ _ _ _ _ _ = headAt1 _ _ _ _ _ _ _
  refine headAt1_congr _ _ _ (Fin.ext ?_) (Fin.ext ?_) (Fin.ext ?_) (Fin.ext ?_)
  · show t.val / 6 = win1_5.index t (0 : Fin 3) * 1 + 1 * (j 0).val; omega
  · show 2 * (t.val % 6) + (j 2).val / 64 = (win1_5.index t (2 : Fin 3) * 128 + 1 * (j 2).val) / 64; omega
  · show (j 1).val = win1_5.index t (1 : Fin 3) * 1024 + 1 * (j 1).val; omega
  · show (j 2).val % 64 = (win1_5.index t (2 : Fin 3) * 128 + 1 * (j 2).val) % 64; omega

/-- An index is in point t's block iff each coordinate is in the block's range. -/
theorem mem_blk1 (t : Fin cfg1.N) (i : S8x1024x768.Idx) :
    i ∈ ((cfg1.win 5).blk t).view.set ↔ ∀ a : Fin 3, win1_5.index t a * S1x1024x128.size a ≤ (i a).val
      ∧ (i a).val < win1_5.index t a * S1x1024x128.size a + S1x1024x128.size a := by
  show i ∈ ((View.whole main_v8).slice (win1_5.rect t)).set ↔ _
  rw [View.set_slice_whole, Rect.mem_set_unit]
  exact Iff.rfl

/-- Batch b, channel ch is written by point 6·b + ch / 128. -/
theorem cover1 (i : S8x1024x768.Idx) :
    ∃ t : Fin cfg1.N, (cfg1.win 5).flush t = true ∧ i ∈ ((cfg1.win 5).blk t).view.set := by
  have hN : cfg1.N = 48 := N_1
  have hi0 : (i 0).val < 8 := (i 0).isLt
  have hi1 : (i 1).val < 1024 := (i 1).isLt
  have hi2 : (i 2).val < 768 := (i 2).isLt
  have ht : (i 0).val * 6 + (i 2).val / 128 < cfg1.N := by omega
  obtain ⟨-, -, -, -, -, -, -, -, -, -, -, -, -, e0, e1, e2⟩ := idx_facts1 ⟨(i 0).val * 6 + (i 2).val / 128, ht⟩
  refine ⟨⟨(i 0).val * 6 + (i 2).val / 128, ht⟩, flush1_5 _, ?_⟩
  rw [mem_blk1]
  intro a
  match a with
  | ⟨0, _⟩ =>
    show win1_5.index ⟨(i 0).val * 6 + (i 2).val / 128, ht⟩ (0 : Fin 3) * 1 ≤ (i 0).val
      ∧ (i 0).val < win1_5.index ⟨(i 0).val * 6 + (i 2).val / 128, ht⟩ (0 : Fin 3) * 1 + 1
    rw [e0]; show ((i 0).val * 6 + (i 2).val / 128) / 6 * 1 ≤ (i 0).val ∧ (i 0).val < ((i 0).val * 6 + (i 2).val / 128) / 6 * 1 + 1; omega
  | ⟨1, _⟩ =>
    show win1_5.index ⟨(i 0).val * 6 + (i 2).val / 128, ht⟩ (1 : Fin 3) * 1024 ≤ (i 1).val
      ∧ (i 1).val < win1_5.index ⟨(i 0).val * 6 + (i 2).val / 128, ht⟩ (1 : Fin 3) * 1024 + 1024
    rw [e1]; omega
  | ⟨2, _⟩ =>
    show win1_5.index ⟨(i 0).val * 6 + (i 2).val / 128, ht⟩ (2 : Fin 3) * 128 ≤ (i 2).val
      ∧ (i 2).val < win1_5.index ⟨(i 0).val * 6 + (i 2).val / 128, ht⟩ (2 : Fin 3) * 128 + 128
    rw [e2]; show ((i 0).val * 6 + (i 2).val / 128) % 6 * 128 ≤ (i 2).val ∧ (i 2).val < ((i 0).val * 6 + (i 2).val / 128) % 6 * 128 + 128; omega

/-- The output array after the region is the whole attention output. -/
theorem arr1_eq (c : Dev nD) : (dat1 V c).arrAt 5 cfg1.N = A1 V c :=
  (dat1 V c).arrAt_eq_of_cover 5 (A1 V c) (fun t _ => flushed1_eq V c t) cover1

/-- The output array after the region, at batch b, position n and channel 64·h + e: head h's output at (n, e). -/
theorem arr1 (c : Dev nD) (b : Fin 8) (n : Fin 1024) (h : Fin 12) (e : Fin 64) :
    ((dat1 V c).arrAt 5 cfg1.N : S8x1024x768.Idx → EReal) (ix3 b n (Cert.Attn.chanO h e))
      = Cert.Attn.head
          (fun n' => Cert.Attn.rope (fun e' => (V c main_v7 : S8x1024x2304.Idx → EReal) (ix3 b n' (Cert.Attn.chan 0 h e')))
            (fun e' => (V c main_arg1 : S1024x64.Idx → EReal) (ix2 n' e')) (fun e' => (V c main_arg2 : S1024x64.Idx → EReal) (ix2 n' e')))
          (fun n' => Cert.Attn.rope (fun e' => (V c main_v7 : S8x1024x2304.Idx → EReal) (ix3 b n' (Cert.Attn.chan 1 h e')))
            (fun e' => (V c main_arg1 : S1024x64.Idx → EReal) (ix2 n' e')) (fun e' => (V c main_arg2 : S1024x64.Idx → EReal) (ix2 n' e')))
          (fun m e' => (V c main_v7 : S8x1024x2304.Idx → EReal) (ix3 b m (Cert.Attn.chan 2 h e'))) n e := by
  refine (congrFun (arr1_eq V c) (ix3 b n (Cert.Attn.chanO h e))).trans ?_
  show headAt1 (V c main_v7) (V c main_arg1) (V c main_arg2) _ _ _ _ = headAt1 (V c main_v7) (V c main_arg1) (V c main_arg2) b h n e
  have hh := h.isLt
  have he := e.isLt
  exact headAt1_congr _ _ _ rfl (Fin.ext (by show (64 * h.val + e.val) / 64 = h.val; omega)) rfl
    (Fin.ext (by show (64 * h.val + e.val) % 64 = e.val; omega))

end Cert.KernelIdeal.Arr

end
-- ==== Proof.Pay2.lean ====
/-
  The second matmul body's value at an index.

  The body multiplies a [512, 768] block by a [768, 768] block into a zero accumulator and adds a [1, 768] bias row
  broadcast down the 512 rows.  Over the extended reals a shape cast to the same shape is the identity, the product
  into the zero accumulator is the plain sum over the one contracted axis, and the broadcast row read at (r, d) is the
  row's entry d:  entry (r, d) is  (Σ_c a[r, c] · w[c, d]) + bias[0, d].
-/
import proofs.«154133_j39204461478412_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.PayMM

open Cert.KernelIdeal Cert.KernelIdeal.Gen Idealize.ShloMosaic Idealize.ShloMosaic.ValueIdx

/-- The dimension numbers of the last product: [512, 768] × [768, 768], contracting axis 1 with axis 0. -/
abbrev D2 : DotDims S512x768 S768x768 S512x768 := dot_S512x768_S768x768_S512x768_1_0_0_1_n_n

/-- The left operand's row coordinate is the result's row. -/
theorem D2_lhs_0 (i : S512x768.Idx) (q : D2.contr.Idx) : (D2.lhsIdx i q 0).val = (i 0).val := by
  unfold DotDims.lhsIdx
  rw [dif_neg (show ¬(0 : Fin S512x768.rank) ∈ D2.lhsBatch by decide),
    dif_pos (show (0 : Fin S512x768.rank) ∈ D2.lhsNonContracting by decide)]
  rfl

/-- The left operand's column coordinate is the contracted coordinate. -/
theorem D2_lhs_1 (i : S512x768.Idx) (q : D2.contr.Idx) : (D2.lhsIdx i q 1).val = (q ⟨0, by decide⟩).val :=
  D2.lhsIdx_val_of_single rfl i q

/-- The right operand's row coordinate is the contracted coordinate. -/
theorem D2_rhs_0 (i : S512x768.Idx) (q : D2.contr.Idx) : (D2.rhsIdx i q 0).val = (q ⟨0, by decide⟩).val :=
  D2.rhsIdx_val_of_single rfl i q

/-- The right operand's column coordinate is the result's column. -/
theorem D2_rhs_1 (i : S512x768.Idx) (q : D2.contr.Idx) : (D2.rhsIdx i q 1).val = (i 1).val := by
  unfold DotDims.rhsIdx
  rw [dif_neg (show ¬(1 : Fin S768x768.rank) ∈ D2.rhsBatch by decide),
    dif_pos (show (1 : Fin S768x768.rank) ∈ D2.rhsNonContracting by decide)]
  rfl

/-- The product into the zero accumulator, read at (r, d): the sum over the contracted coordinate. -/
theorem mm2_apply (a : FVec Ideal S512x768 .bf16) (w : FVec Ideal S768x768 .bf16) (r : Fin 512) (d : Fin 768) :
    matmul D2 none a w (constant (F := Ideal) S512x768 .f32 0x00000000#32) (ix2 r d)
      = ∑ c : Fin 768, a (ix2 r c) * w (ix2 c d) := by
  refine (Ideal.matmul_constant_zero_apply D2 none a w (ix2 r d)).trans ?_
  rw [← Equiv.sum_comp (contrEquiv1 D2 768 rfl rfl).symm]
  refine Finset.sum_congr rfl fun k _ => ?_
  have hk := contrEquiv1_symm_val D2 768 rfl rfl k
  have el : D2.lhsIdx (ix2 r d) ((contrEquiv1 D2 768 rfl rfl).symm k) = ix2 r k := funext fun x => Fin.ext (by
    match x with
    | ⟨0, _⟩ => exact D2_lhs_0 _ _
    | ⟨1, _⟩ => exact (D2_lhs_1 _ _).trans hk)
  have er : D2.rhsIdx (ix2 r d) ((contrEquiv1 D2 768 rfl rfl).symm k) = ix2 k d := funext fun x => Fin.ext (by
    match x with
    | ⟨0, _⟩ => exact (D2_rhs_0 _ _).trans hk
    | ⟨1, _⟩ => exact D2_rhs_1 _ _)
  rw [el, er]

/-- The bias row broadcast down the rows, read at (r, d): the row's entry d. -/
theorem biasRow_apply (bias : FVec Ideal S1x768 .f32) (r : Fin 512) (d : Fin 768) :
    broadcastTo S512x768 bias broadcasts_S1x768_S512x768 (ix2 r d) = bias (ix2 0 d) :=
  broadcastTo_apply bias broadcasts_S1x768_S512x768 (ix2 r d) (ix2 0 d) (fun x => by
    match x with
    | ⟨0, _⟩ => rfl
    | ⟨1, _⟩ => rfl)

/-- The second matmul body's stored value at (r, d). -/
theorem pay2_apply (a : Vec Ideal S512x768 .bf16) (w : Vec Ideal S768x768 .bf16) (bias : Vec Ideal S1x768 .f32)
    (r : Fin 512) (d : Fin 768) :
    Cert.KernelIdeal.Gen.k2_pay1 (F := Ideal) a w bias (ix2 r d)
      = (∑ c : Fin 768, a (ix2 r c) * w (ix2 c d)) + bias (ix2 0 d) := by
  unfold Cert.KernelIdeal.Gen.k2_pay1
  rw [shapeCast_self, shapeCast_self, shapeCast_self]
  refine (addf_apply _ _ (ix2 r d)).trans ?_
  rw [mm2_apply a w r d, biasRow_apply bias r d]

end Cert.KernelIdeal.PayMM

end
-- ==== Proof.Arr2.lean ====
/-
  The last region's output array as one function of what the region finds.

  Grid point t multiplies rows 512·t … 512·t + 511 of the attention output by the whole output weight matrix, adds
  the bias row, and writes the result back to the same rows.  So each written block is that block of ONE array — row
  r, column d holds (Σ_k a[r, k] · w[k, d]) + bias[0, d] — and the sixteen blocks cover all 8192 rows: the output array
  ends holding that array.
-/
import proofs.«154133_j39204461478412_2_alg».proof.Proof.KI.Reg2
import proofs.«154133_j39204461478412_2_alg».proof.Proof.Pay2
import Idealize.ShloMosaic.Lib.Pipeline.Value
import Idealize.ShloMosaic.Lib.ValueIdx

noncomputable section

namespace Cert.KernelIdeal.Arr

open Cert.KernelIdeal Cert.KernelIdeal.Gen Cert.KernelIdeal.Hand Idealize.ShloMosaic Idealize.ShloMosaic.TcCoe
open Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- Row r of the attention output against column d of the weights, plus the bias at d. -/
def prod2 (a : S8192x768.Idx → EReal) (w : S768x768.Idx → EReal) (bias : S1x768.Idx → EReal) (r : Fin 8192)
    (d : Fin 768) : EReal :=
  (∑ k : Fin 768, a (ix2 r k) * w (ix2 k d)) + bias (ix2 (0 : Fin 1) d)

/-- The definition unfolded. -/
theorem prod2_def (a : S8192x768.Idx → EReal) (w : S768x768.Idx → EReal) (bias : S1x768.Idx → EReal) (r : Fin 8192)
    (d : Fin 768) : prod2 a w bias r d = (∑ k : Fin 768, a (ix2 r k) * w (ix2 k d)) + bias (ix2 (0 : Fin 1) d) := rfl

/-- The whole result, as an array over the output's index. -/
def G2 (c : Dev nD) : S8192x768.Idx → EReal := fun i =>
  prod2 (V c main_v9) (V c main_v4) (V c main_v10) ⟨(i 0).val, (i 0).isLt⟩ ⟨(i 1).val, (i 1).isLt⟩

/-- The block indices over the grid: the attention output's and the result's row block is the point, everything
    else 0. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The attention output's block at point t, entry (p, k): row 512·t + p. -/
theorem blk2_0 (c : Dev nD) (t : Fin cfg2.N) (p : Fin 512) (k : Fin 768) (r : Fin 8192)
    (hr : r.val = 512 * t.val + p.val) :
    (iblk2 V c 0 t : S512x768.Idx → EReal) (ix2 p k) = (V c main_v9 : S8192x768.Idx → EReal) (ix2 r k) := by
  obtain ⟨e0, e1, -⟩ := idx_facts2 t
  show (V c main_v9 : S8192x768.Idx → EReal) (((cfg2.win 0).blk t).view.emb (ix2 p k)) = _
  refine congrArg _ (funext fun a => Fin.ext ?_)
  match a with
  | ⟨0, _⟩ => show win2_0.index t (0 : Fin 2) * 512 + 1 * p.val = r.val; omega
  | ⟨1, _⟩ => show win2_0.index t (1 : Fin 2) * 768 + 1 * k.val = k.val; omega

/-- The weights' block at any point is the whole matrix. -/
theorem blk2_1 (c : Dev nD) (t : Fin cfg2.N) (k : Fin 768) (q : Fin 768) :
    (iblk2 V c 1 t : S768x768.Idx → EReal) (ix2 k q) = (V c main_v4 : S768x768.Idx → EReal) (ix2 k q) := by
  obtain ⟨-, -, e2, e3, -⟩ := idx_facts2 t
  show (V c main_v4 : S768x768.Idx → EReal) (((cfg2.win 1).blk t).view.emb (ix2 k q)) = _
  refine congrArg _ (funext fun a => Fin.ext ?_)
  match a with
  | ⟨0, _⟩ => show win2_1.index t (0 : Fin 2) * 768 + 1 * k.val = k.val; omega
  | ⟨1, _⟩ => show win2_1.index t (1 : Fin 2) * 768 + 1 * q.val = q.val; omega

/-- The bias row's block at any point is the whole row. -/
theorem blk2_2 (c : Dev nD) (t : Fin cfg2.N) (z : Fin 1) (q : Fin 768) :
    (iblk2 V c 2 t : S1x768.Idx → EReal) (ix2 z q) = (V c main_v10 : S1x768.Idx → EReal) (ix2 z q) := by
  obtain ⟨-, -, -, -, e4, e5, -⟩ := idx_facts2 t
  show (V c main_v10 : S1x768.Idx → EReal) (((cfg2.win 2).blk t).view.emb (ix2 z q)) = _
  refine congrArg _ (funext fun a => Fin.ext ?_)
  match a with
  | ⟨0, _⟩ => show win2_2.index t (0 : Fin 2) * 1 + 1 * z.val = z.val; omega
  | ⟨1, _⟩ => show win2_2.index t (1 : Fin 2) * 768 + 1 * q.val = q.val; omega

/-- What point t stores at entry y of its block: the result at row 512·t + y₀, column y₁. -/
theorem point2 (c : Dev nD) (t : Fin cfg2.N) (y : S512x768.Idx) (r : Fin 8192) (q : Fin 768)
    (hr : r.val = 512 * t.val + (y 0).val) (hq : q.val = (y 1).val) :
    k2_pay1 (F := Ideal) (iblk2 V c 0 t) (iblk2 V c 1 t) (iblk2 V c 2 t) y
      = prod2 (V c main_v9) (V c main_v4) (V c main_v10) r q := by
  obtain ⟨p, q', rfl⟩ : ∃ (p : Fin 512) (q' : Fin 768), y = ix2 p q' := ⟨y 0, y 1, eq_ix2 y⟩
  obtain rfl : q = q' := Fin.ext hq
  refine (PayMM.pay2_apply _ _ _ p q).trans ?_
  unfold prod2
  exact congrArg₂ (· + ·)
    (Finset.sum_congr rfl fun k _ => congrArg₂ (· * ·) (blk2_0 V c t p k r hr) (blk2_1 V c t k q))
    (blk2_2 V c t 0 q)

/-- What point t writes back is block t of the whole result. -/
theorem flushed2_eq (c : Dev nD) (t : Fin cfg2.N) :
    (dat2 V c).flushed 3 t = ((cfg2.win 3).blk t).view.read (Elt Ideal) (G2 V c) := by
  show (cfg2.win 3).cut (grid2.coords t) ((dat2 V c).after 3 t) = _
  rw [after2_3]
  unfold out2_3
  rw [View.canon_unit_zero hz2]
  simp only [View.ld_unit_zero (S := S512x768) hz2, View.ld_unit_zero (S := S768x768) hz2,
    View.ld_unit_zero (S := S1x768) hz2]
  funext j
  obtain ⟨-, -, -, -, -, -, e6, e7⟩ := idx_facts2 t
  have hN : cfg2.N = 16 := N_2
  have ht : t.val < cfg2.N := t.isLt
  have hj0 : (j 0).val < 512 := (j 0).isLt
  have hj1 : (j 1).val < 768 := (j 1).isLt
  refine (point2 V c t _ ⟨512 * t.val + (j 0).val, by omega⟩ ⟨(j 1).val, hj1⟩ rfl rfl).trans ?_
  show prod2 _ _ _ _ _ = prod2 _ _ _ _ _
  congr 1 <;> apply Fin.ext
  · show 512 * t.val + (j 0).val = win2_3.index t (0 : Fin 2) * 512 + 1 * (j 0).val; omega
  · show (j 1).val = win2_3.index t (1 : Fin 2) * 768 + 1 * (j 1).val; omega

/-- An index is in point t's block iff each coordinate is in the block's range. -/
theorem mem_blk2 (t : Fin cfg2.N) (i : S8192x768.Idx) :
    i ∈ ((cfg2.win 3).blk t).view.set ↔ ∀ a : Fin 2, win2_3.index t a * S512x768.size a ≤ (i a).val
      ∧ (i a).val < win2_3.index t a * S512x768.size a + S512x768.size a := by
  show i ∈ ((View.whole main_v11).slice (win2_3.rect t)).set ↔ _
  rw [View.set_slice_whole, Rect.mem_set_unit]
  exact Iff.rfl

/-- Row r is written by point r / 512. -/
theorem cover2 (i : S8192x768.Idx) :
    ∃ t : Fin cfg2.N, (cfg2.win 3).flush t = true ∧ i ∈ ((cfg2.win 3).blk t).view.set := by
  have hN : cfg2.N = 16 := N_2
  have hi0 : (i 0).val < 8192 := (i 0).isLt
  have hi1 : (i 1).val < 768 := (i 1).isLt
  have ht : (i 0).val / 512 < cfg2.N := by omega
  obtain ⟨-, -, -, -, -, -, e6, e7⟩ := idx_facts2 ⟨(i 0).val / 512, ht⟩
  refine ⟨⟨(i 0).val / 512, ht⟩, flush2_3 _, ?_⟩
  rw [mem_blk2]
  intro a
  match a with
  | ⟨0, _⟩ =>
    show win2_3.index ⟨(i 0).val / 512, ht⟩ (0 : Fin 2) * 512 ≤ (i 0).val
      ∧ (i 0).val < win2_3.index ⟨(i 0).val / 512, ht⟩ (0 : Fin 2) * 512 + 512
    rw [e6]; show (i 0).val / 512 * 512 ≤ (i 0).val ∧ (i 0).val < (i 0).val / 512 * 512 + 512; omega
  | ⟨1, _⟩ =>
    show win2_3.index ⟨(i 0).val / 512, ht⟩ (1 : Fin 2) * 768 ≤ (i 1).val
      ∧ (i 1).val < win2_3.index ⟨(i 0).val / 512, ht⟩ (1 : Fin 2) * 768 + 768
    rw [e7]; omega

/-- The output array after the region is the whole result. -/
theorem arr2_eq (c : Dev nD) : (dat2 V c).arrAt 3 cfg2.N = G2 V c :=
  (dat2 V c).arrAt_eq_of_cover 3 (G2 V c) (fun t _ => flushed2_eq V c t) cover2

/-- The output array after the region, at row r and column d. -/
theorem arr2 (c : Dev nD) (r : Fin 8192) (d : Fin 768) :
    ((dat2 V c).arrAt 3 cfg2.N : S8192x768.Idx → EReal) (ix2 r d)
      = prod2 (V c main_v9) (V c main_v4) (V c main_v10) r d :=
  (congrFun (arr2_eq V c) (ix2 r d)).trans rfl

end Cert.KernelIdeal.Arr

end
-- ==== Proof.KernelValue.lean ====
/-
  The kernel program's result is the specification: the composition through the program's boundaries, with the three
  regions' arrays read off their pipelines.
-/
import proofs.«154133_j39204461478412_2_alg».proof.Proof.KernelValueChain
import proofs.«154133_j39204461478412_2_alg».proof.Proof.Arr0
import proofs.«154133_j39204461478412_2_alg».proof.Proof.Arr1
import proofs.«154133_j39204461478412_2_alg».proof.Proof.Arr2

noncomputable section

namespace Cert.KernelIdeal.Val

open Cert.KernelIdeal Cert.KernelIdeal.Gen Cert.KernelIdeal.Hand Cert.KernelIdeal.Glue Idealize.ShloMosaic Idealize.ShloMosaic.TcCoe Idealize.ShloMosaic.ValueIdx

/-- The array the kernel program returns is the specification's. -/
theorem result_eq_G (m : (ℓ : Loc nD τ sig) → Buf (Elt Ideal) ℓ) (ρ : Dev nD → PrngReg) (c : Dev nD) :
    (W7 m ρ c (Proc.devRef .tc main_v12) : S8x1024x768.Idx → EReal)
      = Cert.Attn.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  result_eq_G_of m ρ (fun V c r d => Cert.KernelIdeal.Arr.arr0 V c r d)
    (fun V c b n h e => Cert.KernelIdeal.Arr.arr1 V c b n h e)
    (fun V c r d => Cert.KernelIdeal.Arr.arr2 V c r d) c

end Cert.KernelIdeal.Val

end
-- ==== Proof.RefQkv.lean ====
/-
  The fused projection: the reference's first contraction, read at an index, is the specification's sum over the
  768 input channels.
-/
import proofs.«154133_j39204461478412_2_alg».proof.Proof.Gen.ReferenceIdeal.Read
import proofs.«154133_j39204461478412_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The projection's element (b, n, d) is  Σ_c x[b, n, c] · wq[d, c]. -/
theorem v0_at (x0 : (⟨S8x1024x768, .f32⟩ : BufTy).Contents (Elt Ideal)) (x3 : (⟨S2304x768, .f32⟩ : BufTy).Contents (Elt Ideal)) (b : Fin 8) (n : Fin 1024) (d : Fin 2304) :
    val_main_v0 (F := Ideal) x0 x3 (ix3 b n d) = Cert.Attn.qkv x0 x3 b n d := by
  rw [val_main_v0_apply]
  unfold Cert.Attn.qkv
  refine Finset.sum_congr rfl fun k _ => ?_
  have el : lidx_main_v0 (ix3 b n d) k = ix3 b n k := funext fun a => Fin.ext (by
    match a with | ⟨0, _⟩ => rfl | ⟨1, _⟩ => rfl | ⟨2, _⟩ => rfl)
  have er : ridx_main_v0 (ix3 b n d) k = ix2 d k := funext fun a => Fin.ext (by
    match a with | ⟨0, _⟩ => rfl | ⟨1, _⟩ => rfl)
  rw [el, er]

end Cert.ReferenceIdeal.RefValue

end
-- ==== Proof.RefSplit.lean ====
/-
  Splitting the projection into heads: the reshape to [8, 1024, 3, 12, 64], the three unit slices, the reshapes that
  drop the unit axis and the transposes that bring the head axis forward are all re-indexings.  Element
  (b, h, n, e) of the query, key and value arrays is the projection's channel 768·s + 64·h + e at (b, n), s = 0, 1, 2.
-/
import proofs.«154133_j39204461478412_2_alg».proof.Proof.Gen.ReferenceIdeal.Read
import proofs.«154133_j39204461478412_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The five-axis view: element (b, n, s, h, e) is the projection's channel 768·s + 64·h + e at (b, n). -/
theorem v1_at (x0 : (⟨S8x1024x768, .f32⟩ : BufTy).Contents (Elt Ideal)) (x3 : (⟨S2304x768, .f32⟩ : BufTy).Contents (Elt Ideal)) (b : Fin 8) (n : Fin 1024) (s : Fin 3) (h : Fin 12) (e : Fin 64) :
    val_main_v1 (F := Ideal) x0 x3 (ix5 b n s h e) = val_main_v0 (F := Ideal) x0 x3 (ix3 b n (Cert.Attn.chan s h e)) := by
  rw [val_main_v1_apply]
  refine congrArg _ (funext fun a => Fin.ext ?_)
  have hb := b.isLt; have hn := n.isLt; have hs := s.isLt; have hh := h.isLt; have he := e.isLt
  match a with
  | ⟨0, _⟩ =>
    show ((((b.val * 1024 + n.val) * 3 + s.val) * 12 + h.val) * 64 + e.val) / 2359296 = b.val
    omega
  | ⟨1, _⟩ =>
    show ((((b.val * 1024 + n.val) * 3 + s.val) * 12 + h.val) * 64 + e.val) / 2304 % 1024 = n.val
    omega
  | ⟨2, _⟩ =>
    show ((((b.val * 1024 + n.val) * 3 + s.val) * 12 + h.val) * 64 + e.val) % 2304 = 768 * s.val + 64 * h.val + e.val
    omega

/-- Dropping a unit axis: the four-axis index (b, n, h, e) reads the five-axis one (b, n, 0, h, e). -/
theorem drop_unit_idx (b : Fin 8) (n : Fin 1024) (h : Fin 12) (e : Fin 64) :
    idx_main_v3 (ix4 b n h e) = ix5 b n (0 : Fin 1) h e := by
  refine funext fun a => Fin.ext ?_
  have hb := b.isLt; have hn := n.isLt; have hh := h.isLt; have he := e.isLt
  match a with
  | ⟨0, _⟩ =>
    show (((b.val * 1024 + n.val) * 12 + h.val) * 64 + e.val) / 786432 = b.val
    omega
  | ⟨1, _⟩ =>
    show (((b.val * 1024 + n.val) * 12 + h.val) * 64 + e.val) / 768 % 1024 = n.val
    omega
  | ⟨2, _⟩ => rfl
  | ⟨3, _⟩ =>
    show (((b.val * 1024 + n.val) * 12 + h.val) * 64 + e.val) / 64 % 12 = h.val
    omega
  | ⟨4, _⟩ =>
    show (((b.val * 1024 + n.val) * 12 + h.val) * 64 + e.val) % 64 = e.val
    omega

/-- The query section, head axis second. -/
theorem v8_at (x0 : (⟨S8x1024x768, .f32⟩ : BufTy).Contents (Elt Ideal)) (x3 : (⟨S2304x768, .f32⟩ : BufTy).Contents (Elt Ideal)) (b : Fin 8) (h : Fin 12) (n : Fin 1024) (e : Fin 64) :
    val_main_v8 (F := Ideal) x0 x3 (ix4 b h n e) = val_main_v0 (F := Ideal) x0 x3 (ix3 b n (Cert.Attn.chan 0 h e)) := by
  rw [val_main_v8_apply]
  have e8 : idx_main_v8 (ix4 b h n e) = ix4 b n h e := funext fun a => Fin.ext (by
    match a with | ⟨0, _⟩ => rfl | ⟨1, _⟩ => rfl | ⟨2, _⟩ => rfl | ⟨3, _⟩ => rfl)
  rw [e8, val_main_v3_apply, drop_unit_idx, val_main_v2_apply]
  have e2 : idx_main_v2 (ix5 b n (0 : Fin 1) h e) = ix5 b n (0 : Fin 3) h e := funext fun a => Fin.ext (by
    match a with | ⟨0, _⟩ => rfl | ⟨1, _⟩ => rfl | ⟨2, _⟩ => rfl | ⟨3, _⟩ => rfl | ⟨4, _⟩ => rfl)
  rw [e2, v1_at]

/-- The key section, head axis second. -/
theorem v9_at (x0 : (⟨S8x1024x768, .f32⟩ : BufTy).Contents (Elt Ideal)) (x3 : (⟨S2304x768, .f32⟩ : BufTy).Contents (Elt Ideal)) (b : Fin 8) (h : Fin 12) (n : Fin 1024) (e : Fin 64) :
    val_main_v9 (F := Ideal) x0 x3 (ix4 b h n e) = val_main_v0 (F := Ideal) x0 x3 (ix3 b n (Cert.Attn.chan 1 h e)) := by
  rw [val_main_v9_apply]
  have e9 : idx_main_v9 (ix4 b h n e) = ix4 b n h e := funext fun a => Fin.ext (by
    match a with | ⟨0, _⟩ => rfl | ⟨1, _⟩ => rfl | ⟨2, _⟩ => rfl | ⟨3, _⟩ => rfl)
  have e5 : idx_main_v5 (ix4 b n h e) = idx_main_v3 (ix4 b n h e) := rfl
  rw [e9, val_main_v5_apply, e5, drop_unit_idx, val_main_v4_apply]
  have e4 : idx_main_v4 (ix5 b n (0 : Fin 1) h e) = ix5 b n (1 : Fin 3) h e := funext fun a => Fin.ext (by
    match a with | ⟨0, _⟩ => rfl | ⟨1, _⟩ => rfl | ⟨2, _⟩ => rfl | ⟨3, _⟩ => rfl | ⟨4, _⟩ => rfl)
  rw [e4, v1_at]

/-- The value section, head axis second. -/
theorem v10_at (x0 : (⟨S8x1024x768, .f32⟩ : BufTy).Contents (Elt Ideal)) (x3 : (⟨S2304x768, .f32⟩ : BufTy).Contents (Elt Ideal)) (b : Fin 8) (h : Fin 12) (n : Fin 1024) (e : Fin 64) :
    val_main_v10 (F := Ideal) x0 x3 (ix4 b h n e) = val_main_v0 (F := Ideal) x0 x3 (ix3 b n (Cert.Attn.chan 2 h e)) := by
  rw [val_main_v10_apply]
  have e10 : idx_main_v10 (ix4 b h n e) = ix4 b n h e := funext fun a => Fin.ext (by
    match a with | ⟨0, _⟩ => rfl | ⟨1, _⟩ => rfl | ⟨2, _⟩ => rfl | ⟨3, _⟩ => rfl)
  have e7 : idx_main_v7 (ix4 b n h e) = idx_main_v3 (ix4 b n h e) := rfl
  rw [e10, val_main_v7_apply, e7, drop_unit_idx, val_main_v6_apply]
  have e6 : idx_main_v6 (ix5 b n (0 : Fin 1) h e) = ix5 b n (2 : Fin 3) h e := funext fun a => Fin.ext (by
    match a with | ⟨0, _⟩ => rfl | ⟨1, _⟩ => rfl | ⟨2, _⟩ => rfl | ⟨3, _⟩ => rfl | ⟨4, _⟩ => rfl)
  rw [e6, v1_at]

end Cert.ReferenceIdeal.RefValue

end
-- ==== Proof.RefRope.lean ====
/-
  The rotary embedding.  A concatenation is read at an index through the piece that holds the index; the
  concatenation of the negated upper half-lanes with the lower half-lanes is the rotate-half, and joining an empty
  prefix in front of an array is the identity.
-/
import proofs.«154133_j39204461478412_2_alg».proof.Proof.Gen.ReferenceIdeal.Read
import proofs.«154133_j39204461478412_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- Two half-width pieces joined along the lanes: lane e < 32 is the first piece's lane e, lane e ≥ 32 the second
    piece's lane e − 32. -/
theorem concat_halves_at (p q : (⟨S8x12x1024x32, .f32⟩ : BufTy).Contents (Elt Ideal))
    (hc : Shape.Concatenates [S8x12x1024x32, S8x12x1024x32] S8x12x1024x64 3)
    (b : Fin 8) (h : Fin 12) (n : Fin 1024) (e : Fin 64) :
    concatenate S8x12x1024x64 3 [⟨S8x12x1024x32, p⟩, ⟨S8x12x1024x32, q⟩] hc (ix4 b h n e)
      = if he : e.val < 32 then p (ix4 b h n (⟨e.val, he⟩ : Fin 32))
        else q (ix4 b h n (⟨e.val - 32, by have := e.isLt; omega⟩ : Fin 32)) := by
  by_cases he : e.val < 32
  · rw [dif_pos he]
    exact concatenate_pair_apply_left 3 p q hc (ix4 b h n e) rfl (ix4 b h n (⟨e.val, he⟩ : Fin 32)) (fun a => by
      match a with | ⟨0, _⟩ => rfl | ⟨1, _⟩ => rfl | ⟨2, _⟩ => rfl | ⟨3, _⟩ => rfl)
  · rw [dif_neg he]
    exact concatenate_pair_apply_right 3 p q hc (ix4 b h n e) rfl rfl
      (ix4 b h n (⟨e.val - 32, by have := e.isLt; omega⟩ : Fin 32)) (fun a ha => by
        match a with
        | ⟨0, _⟩ => rfl
        | ⟨1, _⟩ => rfl
        | ⟨2, _⟩ => rfl
        | ⟨3, _⟩ => exact absurd rfl ha)
      (by show e.val - 32 + 32 = e.val; omega)

/-- An empty piece joined in front along the positions: every element comes from the second piece, at the same index. -/
theorem concat_empty_at (p : (⟨S8x12x0x64, .f32⟩ : BufTy).Contents (Elt Ideal)) (q : (⟨S8x12x1024x64, .f32⟩ : BufTy).Contents (Elt Ideal))
    (hc : Shape.Concatenates [S8x12x0x64, S8x12x1024x64] S8x12x1024x64 2)
    (b : Fin 8) (h : Fin 12) (n : Fin 1024) (e : Fin 64) :
    concatenate S8x12x1024x64 2 [⟨S8x12x0x64, p⟩, ⟨S8x12x1024x64, q⟩] hc (ix4 b h n e) = q (ix4 b h n e) :=
  concatenate_pair_apply_right 2 p q hc (ix4 b h n e) rfl rfl (ix4 b h n e) (fun a ha => by
      match a with
      | ⟨0, _⟩ => rfl
      | ⟨1, _⟩ => rfl
      | ⟨2, _⟩ => rfl
      | ⟨3, _⟩ => rfl)
    (by show n.val + 0 = n.val; omega)

/-- The rotate-half of the queries: the concatenation of the negated upper half-lanes and the lower half-lanes. -/
theorem v18_at (x0 : (⟨S8x1024x768, .f32⟩ : BufTy).Contents (Elt Ideal)) (x3 : (⟨S2304x768, .f32⟩ : BufTy).Contents (Elt Ideal)) (b : Fin 8) (h : Fin 12) (n : Fin 1024) (e : Fin 64) :
    val_main_v18 (F := Ideal) x0 x3 (ix4 b h n e)
      = Cert.Attn.rot (fun e' : Fin 64 => val_main_v8 (F := Ideal) x0 x3 (ix4 b h n e')) e := by
  unfold val_main_v18
  refine (concat_halves_at _ _ _ b h n e).trans ?_
  unfold Cert.Attn.rot
  by_cases he : e.val < 32
  · rw [dif_pos he, dif_pos he, val_main_v17_apply, val_main_v16_apply]
    have e16 : idx_main_v16 (ix4 b h n (⟨e.val, he⟩ : Fin 32)) = ix4 b h n (⟨e.val + 32, by omega⟩ : Fin 64) :=
      funext fun a => Fin.ext (by
        match a with
        | ⟨0, _⟩ => rfl
        | ⟨1, _⟩ => rfl
        | ⟨2, _⟩ => rfl
        | ⟨3, _⟩ => show 32 + e.val = e.val + 32; omega)
    rw [e16]
    rfl
  · rw [dif_neg he, dif_neg he, val_main_v15_apply]
    have e15 : idx_main_v15 (ix4 b h n (⟨e.val - 32, by have := e.isLt; omega⟩ : Fin 32))
        = ix4 b h n (⟨e.val - 32, by omega⟩ : Fin 64) :=
      funext fun a => Fin.ext (by
        match a with
        | ⟨0, _⟩ => rfl
        | ⟨1, _⟩ => rfl
        | ⟨2, _⟩ => rfl
        | ⟨3, _⟩ => rfl)
    rw [e15]

/-- The rotated queries: u · cos + rot u · sin, lane by lane. -/
theorem v22_at (x0 : (⟨S8x1024x768, .f32⟩ : BufTy).Contents (Elt Ideal)) (x1 x2 : (⟨S1024x64, .f32⟩ : BufTy).Contents (Elt Ideal)) (x3 : (⟨S2304x768, .f32⟩ : BufTy).Contents (Elt Ideal)) (b : Fin 8) (h : Fin 12) (n : Fin 1024) (e : Fin 64) :
    val_main_v22 (F := Ideal) x0 x1 x2 x3 (ix4 b h n e)
      = Cert.Attn.rope (fun e' : Fin 64 => val_main_v8 (F := Ideal) x0 x3 (ix4 b h n e'))
          (fun e' : Fin 64 => x1 (ix2 n e')) (fun e' : Fin 64 => x2 (ix2 n e')) e := by
  rw [val_main_v22_apply, val_main_v14_apply, val_main_v21_apply, val_main_v13_apply, val_main_v12_apply,
    val_main_v20_apply, val_main_v19_apply, v18_at]
  have ec : idx_main_v12 (idx_main_v13 (ix4 b h n e)) = ix2 n e := funext fun a => Fin.ext (by
    match a with | ⟨0, _⟩ => rfl | ⟨1, _⟩ => rfl)
  have es : idx_main_v19 (idx_main_v20 (ix4 b h n e)) = ix2 n e := funext fun a => Fin.ext (by
    match a with | ⟨0, _⟩ => rfl | ⟨1, _⟩ => rfl)
  rw [ec, es]
  rfl

/-- Joining the empty prefix in front changes nothing. -/
theorem v23_at (x0 : (⟨S8x1024x768, .f32⟩ : BufTy).Contents (Elt Ideal)) (x1 x2 : (⟨S1024x64, .f32⟩ : BufTy).Contents (Elt Ideal)) (x3 : (⟨S2304x768, .f32⟩ : BufTy).Contents (Elt Ideal)) (b : Fin 8) (h : Fin 12) (n : Fin 1024) (e : Fin 64) :
    val_main_v23 (F := Ideal) x0 x1 x2 x3 (ix4 b h n e) = val_main_v22 (F := Ideal) x0 x1 x2 x3 (ix4 b h n e) := by
  unfold val_main_v23
  exact concat_empty_at _ _ _ b h n e

/-- The rotate-half of the keys: the concatenation of the negated upper half-lanes and the lower half-lanes. -/
theorem v31_at (x0 : (⟨S8x1024x768, .f32⟩ : BufTy).Contents (Elt Ideal)) (x3 : (⟨S2304x768, .f32⟩ : BufTy).Contents (Elt Ideal)) (b : Fin 8) (h : Fin 12) (n : Fin 1024) (e : Fin 64) :
    val_main_v31 (F := Ideal) x0 x3 (ix4 b h n e)
      = Cert.Attn.rot (fun e' : Fin 64 => val_main_v9 (F := Ideal) x0 x3 (ix4 b h n e')) e := by
  unfold val_main_v31
  refine (concat_halves_at _ _ _ b h n e).trans ?_
  unfold Cert.Attn.rot
  by_cases he : e.val < 32
  · rw [dif_pos he, dif_pos he, val_main_v30_apply, val_main_v29_apply]
    have e16 : idx_main_v29 (ix4 b h n (⟨e.val, he⟩ : Fin 32)) = ix4 b h n (⟨e.val + 32, by omega⟩ : Fin 64) :=
      funext fun a => Fin.ext (by
        match a with
        | ⟨0, _⟩ => rfl
        | ⟨1, _⟩ => rfl
        | ⟨2, _⟩ => rfl
        | ⟨3, _⟩ => show 32 + e.val = e.val + 32; omega)
    rw [e16]
    rfl
  · rw [dif_neg he, dif_neg he, val_main_v28_apply]
    have e15 : idx_main_v28 (ix4 b h n (⟨e.val - 32, by have := e.isLt; omega⟩ : Fin 32))
        = ix4 b h n (⟨e.val - 32, by omega⟩ : Fin 64) :=
      funext fun a => Fin.ext (by
        match a with
        | ⟨0, _⟩ => rfl
        | ⟨1, _⟩ => rfl
        | ⟨2, _⟩ => rfl
        | ⟨3, _⟩ => rfl)
    rw [e15]

/-- The rotated keys: u · cos + rot u · sin, lane by lane. -/
theorem v35_at (x0 : (⟨S8x1024x768, .f32⟩ : BufTy).Contents (Elt Ideal)) (x1 x2 : (⟨S1024x64, .f32⟩ : BufTy).Contents (Elt Ideal)) (x3 : (⟨S2304x768, .f32⟩ : BufTy).Contents (Elt Ideal)) (b : Fin 8) (h : Fin 12) (n : Fin 1024) (e : Fin 64) :
    val_main_v35 (F := Ideal) x0 x1 x2 x3 (ix4 b h n e)
      = Cert.Attn.rope (fun e' : Fin 64 => val_main_v9 (F := Ideal) x0 x3 (ix4 b h n e'))
          (fun e' : Fin 64 => x1 (ix2 n e')) (fun e' : Fin 64 => x2 (ix2 n e')) e := by
  rw [val_main_v35_apply, val_main_v27_apply, val_main_v34_apply, val_main_v26_apply, val_main_v25_apply,
    val_main_v33_apply, val_main_v32_apply, v31_at]
  have ec : idx_main_v25 (idx_main_v26 (ix4 b h n e)) = ix2 n e := funext fun a => Fin.ext (by
    match a with | ⟨0, _⟩ => rfl | ⟨1, _⟩ => rfl)
  have es : idx_main_v32 (idx_main_v33 (ix4 b h n e)) = ix2 n e := funext fun a => Fin.ext (by
    match a with | ⟨0, _⟩ => rfl | ⟨1, _⟩ => rfl)
  rw [ec, es]
  rfl

/-- Joining the empty prefix in front changes nothing. -/
theorem v36_at (x0 : (⟨S8x1024x768, .f32⟩ : BufTy).Contents (Elt Ideal)) (x1 x2 : (⟨S1024x64, .f32⟩ : BufTy).Contents (Elt Ideal)) (x3 : (⟨S2304x768, .f32⟩ : BufTy).Contents (Elt Ideal)) (b : Fin 8) (h : Fin 12) (n : Fin 1024) (e : Fin 64) :
    val_main_v36 (F := Ideal) x0 x1 x2 x3 (ix4 b h n e) = val_main_v35 (F := Ideal) x0 x1 x2 x3 (ix4 b h n e) := by
  unfold val_main_v36
  exact concat_empty_at _ _ _ b h n e

end Cert.ReferenceIdeal.RefValue

end
-- ==== Proof.RefScore.lean ====
/-
  Scores and softmax.  The scores are a contraction over the 64 lanes times 1/8; the row maximum is a fold of max
  from −∞ over the 1024 key positions (and the extra maximum with −∞ changes nothing); the weights are
  exp (s − max s) divided by the row's sum of those, the sum started from zero.
-/
import proofs.«154133_j39204461478412_2_alg».proof.Proof.Gen.ReferenceIdeal.Read
import proofs.«154133_j39204461478412_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The word 0xFF800000 is −∞. -/
theorem negInf_eq : (FloatOps.ofBits (F := Ideal) .f32 0xFF800000#32 : EReal) = ⊥ := by
  simp [Ideal.ofBits, Ideal.ieee]

/-- The scaled scores of query position n against key position m. -/
theorem v39_at (x0 : (⟨S8x1024x768, .f32⟩ : BufTy).Contents (Elt Ideal)) (x1 x2 : (⟨S1024x64, .f32⟩ : BufTy).Contents (Elt Ideal)) (x3 : (⟨S2304x768, .f32⟩ : BufTy).Contents (Elt Ideal)) (b : Fin 8) (h : Fin 12) (n m : Fin 1024) :
    val_main_v39 (F := Ideal) x0 x1 x2 x3 (ix4 b h n m)
      = (∑ e : Fin 64, val_main_v23 (F := Ideal) x0 x1 x2 x3 (ix4 b h n e) * val_main_v36 (F := Ideal) x0 x1 x2 x3 (ix4 b h m e))
          * Cert.Attn.eighth := by
  rw [val_main_v39_apply, val_main_v37_apply, val_main_v38_apply, val_main_cst_apply]
  refine congrArg (· * Cert.Attn.eighth) (Finset.sum_congr rfl fun k _ => ?_)
  have el : lidx_main_v37 (ix4 b h n m) k = ix4 b h n k := funext fun a => Fin.ext (by match a with | ⟨0, _⟩ => rfl | ⟨1, _⟩ => rfl | ⟨2, _⟩ => rfl | ⟨3, _⟩ => rfl)
  have er : ridx_main_v37 (ix4 b h n m) k = ix4 b h m k := funext fun a => Fin.ext (by match a with | ⟨0, _⟩ => rfl | ⟨1, _⟩ => rfl | ⟨2, _⟩ => rfl | ⟨3, _⟩ => rfl)
  rw [el, er]

/-- A max-reduction over the last axis, read at (b, h, n): the fold of max from the initial value over that row. -/
theorem max_reduce_at (y : S8x12x1024x1024.Idx → EReal) (init : S_.Idx → EReal)
    (h' : S8x12x1024x1024.ReducesTo [3] S8x12x1024) (hu : 0 < S_.numel) (b : Fin 8) (h : Fin 12) (n : Fin 1024) :
    Host.reduce (α := EReal) (FloatOps.maximumf (F := Ideal) (φ := .f32)) y init h' hu (ix3 b h n)
      = (Finset.univ : Finset (Fin 1024)).fold max (init (Shape.Idx.first hu)) (fun m : Fin 1024 => y (ix4 b h n m)) := by
  have hr : S8x12x1024x1024.Reduces [3] S8x12x1024 := by decide
  refine (Host.reduce_eq_fold_single (FloatOps.maximumf (F := Ideal) (φ := .f32)) y init h' hr hu (ix3 b h n)).trans ?_
  refine congrArg (fun f : Fin 1024 → EReal => (Finset.univ : Finset (Fin 1024)).fold max (init (Shape.Idx.first hu)) f)
    (funext fun m => congrArg y (funext fun a => Fin.ext ?_))
  match a with | ⟨0, _⟩ => rfl | ⟨1, _⟩ => rfl | ⟨2, _⟩ => rfl | ⟨3, _⟩ => rfl

/-- The row maximum. -/
theorem v42_at (x0 : (⟨S8x1024x768, .f32⟩ : BufTy).Contents (Elt Ideal)) (x1 x2 : (⟨S1024x64, .f32⟩ : BufTy).Contents (Elt Ideal)) (x3 : (⟨S2304x768, .f32⟩ : BufTy).Contents (Elt Ideal)) (b : Fin 8) (h : Fin 12) (n : Fin 1024) :
    val_main_v42 (F := Ideal) x0 x1 x2 x3 (ix3 b h n)
      = Cert.Attn.rowMax (fun m : Fin 1024 => val_main_v39 (F := Ideal) x0 x1 x2 x3 (ix4 b h n m)) := by
  have h40 : val_main_v40 (F := Ideal) x0 x1 x2 x3 (ix3 b h n)
      = (Finset.univ : Finset (Fin 1024)).fold max ⊥ (fun m : Fin 1024 => val_main_v39 (F := Ideal) x0 x1 x2 x3 (ix4 b h n m)) := by
    unfold val_main_v40
    refine (max_reduce_at _ _ _ _ b h n).trans ?_
    rw [val_main_cst_0_apply, negInf_eq]
  rw [val_main_v42_apply, val_main_v41_apply, val_main_cst_1_apply, h40, negInf_eq]
  exact max_eq_right bot_le

/-- The unnormalised weight. -/
theorem v46_at (x0 : (⟨S8x1024x768, .f32⟩ : BufTy).Contents (Elt Ideal)) (x1 x2 : (⟨S1024x64, .f32⟩ : BufTy).Contents (Elt Ideal)) (x3 : (⟨S2304x768, .f32⟩ : BufTy).Contents (Elt Ideal)) (b : Fin 8) (h : Fin 12) (n m : Fin 1024) :
    val_main_v46 (F := Ideal) x0 x1 x2 x3 (ix4 b h n m)
      = Cert.Attn.expo (fun m' : Fin 1024 => val_main_v39 (F := Ideal) x0 x1 x2 x3 (ix4 b h n m')) m := by
  rw [val_main_v46_apply, val_main_v45_apply, val_main_v44_apply, val_main_v43_apply]
  have e43 : idx_main_v43 (idx_main_v44 (ix4 b h n m)) = ix3 b h n := funext fun a => Fin.ext (by match a with | ⟨0, _⟩ => rfl | ⟨1, _⟩ => rfl | ⟨2, _⟩ => rfl)
  rw [e43, v42_at]
  rfl

/-- The row's normaliser. -/
theorem v47_at (x0 : (⟨S8x1024x768, .f32⟩ : BufTy).Contents (Elt Ideal)) (x1 x2 : (⟨S1024x64, .f32⟩ : BufTy).Contents (Elt Ideal)) (x3 : (⟨S2304x768, .f32⟩ : BufTy).Contents (Elt Ideal)) (b : Fin 8) (h : Fin 12) (n : Fin 1024) :
    val_main_v47 (F := Ideal) x0 x1 x2 x3 (ix3 b h n)
      = ∑ m' : Fin 1024, Cert.Attn.expo (fun m'' : Fin 1024 => val_main_v39 (F := Ideal) x0 x1 x2 x3 (ix4 b h n m'')) m' := by
  rw [val_main_v47_apply, val_main_cst_2_apply]
  have hz : (FloatOps.ofBits (F := Ideal) .f32 0x00000000#32 : EReal) = 0 := Ideal.ofBits_zero_f32
  rw [hz, zero_add]
  refine Finset.sum_congr rfl fun k _ => ?_
  have e47 : idx_main_v47 (ix3 b h n) k = ix4 b h n k := funext fun a => Fin.ext (by match a with | ⟨0, _⟩ => rfl | ⟨1, _⟩ => rfl | ⟨2, _⟩ => rfl | ⟨3, _⟩ => rfl)
  rw [e47, v46_at]

/-- The softmax weight. -/
theorem v50_at (x0 : (⟨S8x1024x768, .f32⟩ : BufTy).Contents (Elt Ideal)) (x1 x2 : (⟨S1024x64, .f32⟩ : BufTy).Contents (Elt Ideal)) (x3 : (⟨S2304x768, .f32⟩ : BufTy).Contents (Elt Ideal)) (b : Fin 8) (h : Fin 12) (n m : Fin 1024) :
    val_main_v50 (F := Ideal) x0 x1 x2 x3 (ix4 b h n m)
      = Cert.Attn.prob (fun m' : Fin 1024 => val_main_v39 (F := Ideal) x0 x1 x2 x3 (ix4 b h n m')) m := by
  rw [val_main_v50_apply, val_main_v49_apply, val_main_v48_apply]
  have e48 : idx_main_v48 (idx_main_v49 (ix4 b h n m)) = ix3 b h n := funext fun a => Fin.ext (by match a with | ⟨0, _⟩ => rfl | ⟨1, _⟩ => rfl | ⟨2, _⟩ => rfl)
  rw [e48, v47_at, v46_at]
  rfl

end Cert.ReferenceIdeal.RefValue

end
-- ==== Proof.RefHead.lean ====
/-
  A head's output and the merge of the heads.  The output is the contraction of the weights against the values over the
  1024 key positions; the transpose and the reshape to 768 channels put head h's lane e at channel 64·h + e.
-/
import proofs.«154133_j39204461478412_2_alg».proof.Proof.Gen.ReferenceIdeal.Read
import proofs.«154133_j39204461478412_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- Head h's output at position n, lane e. -/
theorem v51_at (x0 : (⟨S8x1024x768, .f32⟩ : BufTy).Contents (Elt Ideal)) (x1 x2 : (⟨S1024x64, .f32⟩ : BufTy).Contents (Elt Ideal)) (x3 : (⟨S2304x768, .f32⟩ : BufTy).Contents (Elt Ideal)) (b : Fin 8) (h : Fin 12) (n : Fin 1024) (e : Fin 64) :
    val_main_v51 (F := Ideal) x0 x1 x2 x3 (ix4 b h n e)
      = ∑ m : Fin 1024, val_main_v50 (F := Ideal) x0 x1 x2 x3 (ix4 b h n m) * val_main_v10 (F := Ideal) x0 x3 (ix4 b h m e) := by
  rw [val_main_v51_apply]
  refine Finset.sum_congr rfl fun k _ => ?_
  have el : lidx_main_v51 (ix4 b h n e) k = ix4 b h n k := funext fun a => Fin.ext (by match a with | ⟨0, _⟩ => rfl | ⟨1, _⟩ => rfl | ⟨2, _⟩ => rfl | ⟨3, _⟩ => rfl)
  have er : ridx_main_v51 (ix4 b h n e) k = ix4 b h k e := funext fun a => Fin.ext (by match a with | ⟨0, _⟩ => rfl | ⟨1, _⟩ => rfl | ⟨2, _⟩ => rfl | ⟨3, _⟩ => rfl)
  rw [el, er]

/-- Channel c of the merged heads is lane c mod 64 of head c / 64. -/
theorem v53_at (x0 : (⟨S8x1024x768, .f32⟩ : BufTy).Contents (Elt Ideal)) (x1 x2 : (⟨S1024x64, .f32⟩ : BufTy).Contents (Elt Ideal)) (x3 : (⟨S2304x768, .f32⟩ : BufTy).Contents (Elt Ideal)) (b : Fin 8) (n : Fin 1024) (c : Fin 768) :
    val_main_v53 (F := Ideal) x0 x1 x2 x3 (ix3 b n c)
      = val_main_v51 (F := Ideal) x0 x1 x2 x3
          (ix4 b (⟨c.val / 64, by have := c.isLt; omega⟩ : Fin 12) n (⟨c.val % 64, Nat.mod_lt _ (by decide)⟩ : Fin 64)) := by
  rw [val_main_v53_apply, val_main_v52_apply]
  refine congrArg _ (funext fun a => Fin.ext ?_)
  have hb := b.isLt; have hn := n.isLt; have hc := c.isLt
  match a with
  | ⟨0, _⟩ =>
    show ((b.val * 1024 + n.val) * 768 + c.val) / 786432 = b.val
    omega
  | ⟨1, _⟩ =>
    show ((b.val * 1024 + n.val) * 768 + c.val) / 64 % 12 = c.val / 64
    omega
  | ⟨2, _⟩ =>
    show ((b.val * 1024 + n.val) * 768 + c.val) / 768 % 1024 = n.val
    omega
  | ⟨3, _⟩ =>
    show ((b.val * 1024 + n.val) * 768 + c.val) % 64 = c.val % 64
    omega

end Cert.ReferenceIdeal.RefValue

end
-- ==== Proof.RefAttn.lean ====
/-
  The stages composed: the reference's rotated queries and keys, its values, scores, weights, head outputs and merged
  heads are the specification's, index by index.
-/
import proofs.«154133_j39204461478412_2_alg».proof.Proof.RefQkv
import proofs.«154133_j39204461478412_2_alg».proof.Proof.RefSplit
import proofs.«154133_j39204461478412_2_alg».proof.Proof.RefRope
import proofs.«154133_j39204461478412_2_alg».proof.Proof.RefScore
import proofs.«154133_j39204461478412_2_alg».proof.Proof.RefHead

noncomputable section

namespace Cert.ReferenceIdeal.RefValue

open Cert.ReferenceIdeal Cert.ReferenceIdeal.Gen Cert.ReferenceIdeal.Read Idealize.ShloMosaic Idealize.ShloMosaic.ValueIdx

/-- The rotated queries. -/
theorem q_eq (x0 : (⟨S8x1024x768, .f32⟩ : BufTy).Contents (Elt Ideal)) (x1 x2 : (⟨S1024x64, .f32⟩ : BufTy).Contents (Elt Ideal)) (x3 : (⟨S2304x768, .f32⟩ : BufTy).Contents (Elt Ideal)) (b : Fin 8) (h : Fin 12) (n : Fin 1024) (e : Fin 64) :
    val_main_v23 (F := Ideal) x0 x1 x2 x3 (ix4 b h n e) = Cert.Attn.qh x0 x1 x2 x3 b h n e := by
  rw [v23_at, v22_at]
  unfold Cert.Attn.qh
  refine congrArg (fun u : Fin 64 → EReal =>
    Cert.Attn.rope u (fun e' : Fin 64 => x1 (ix2 n e')) (fun e' : Fin 64 => x2 (ix2 n e')) e) (funext fun e' => ?_)
  rw [v8_at, v0_at]

/-- The rotated keys. -/
theorem k_eq (x0 : (⟨S8x1024x768, .f32⟩ : BufTy).Contents (Elt Ideal)) (x1 x2 : (⟨S1024x64, .f32⟩ : BufTy).Contents (Elt Ideal)) (x3 : (⟨S2304x768, .f32⟩ : BufTy).Contents (Elt Ideal)) (b : Fin 8) (h : Fin 12) (n : Fin 1024) (e : Fin 64) :
    val_main_v36 (F := Ideal) x0 x1 x2 x3 (ix4 b h n e) = Cert.Attn.kh x0 x1 x2 x3 b h n e := by
  rw [v36_at, v35_at]
  unfold Cert.Attn.kh
  refine congrArg (fun u : Fin 64 → EReal =>
    Cert.Attn.rope u (fun e' : Fin 64 => x1 (ix2 n e')) (fun e' : Fin 64 => x2 (ix2 n e')) e) (funext fun e' => ?_)
  rw [v9_at, v0_at]

/-- The values. -/
theorem v_eq (x0 : (⟨S8x1024x768, .f32⟩ : BufTy).Contents (Elt Ideal)) (x3 : (⟨S2304x768, .f32⟩ : BufTy).Contents (Elt Ideal)) (b : Fin 8) (h : Fin 12) (n : Fin 1024) (e : Fin 64) :
    val_main_v10 (F := Ideal) x0 x3 (ix4 b h n e) = Cert.Attn.vh x0 x3 b h n e := by
  rw [v10_at, v0_at]
  rfl

/-- The scores. -/
theorem score_eq (x0 : (⟨S8x1024x768, .f32⟩ : BufTy).Contents (Elt Ideal)) (x1 x2 : (⟨S1024x64, .f32⟩ : BufTy).Contents (Elt Ideal)) (x3 : (⟨S2304x768, .f32⟩ : BufTy).Contents (Elt Ideal)) (b : Fin 8) (h : Fin 12) (n m : Fin 1024) :
    val_main_v39 (F := Ideal) x0 x1 x2 x3 (ix4 b h n m) = Cert.Attn.score (Cert.Attn.qh x0 x1 x2 x3 b h) (Cert.Attn.kh x0 x1 x2 x3 b h) n m := by
  rw [v39_at]
  unfold Cert.Attn.score
  refine congrArg (· * Cert.Attn.eighth) (Finset.sum_congr rfl fun e _ => ?_)
  rw [q_eq, k_eq]

/-- A head's output. -/
theorem head_eq (x0 : (⟨S8x1024x768, .f32⟩ : BufTy).Contents (Elt Ideal)) (x1 x2 : (⟨S1024x64, .f32⟩ : BufTy).Contents (Elt Ideal)) (x3 : (⟨S2304x768, .f32⟩ : BufTy).Contents (Elt Ideal)) (b : Fin 8) (h : Fin 12) (n : Fin 1024) (e : Fin 64) :
    val_main_v51 (F := Ideal) x0 x1 x2 x3 (ix4 b h n e) = Cert.Attn.head (Cert.Attn.qh x0 x1 x2 x3 b h) (Cert.Attn.kh x0 x1 x2 x3 b h) (Cert.Attn.vh x0 x3 b h) n e := by
  rw [v51_at]
  unfold Cert.Attn.head
  have hs : (fun m' : Fin 1024 => val_main_v39 (F := Ideal) x0 x1 x2 x3 (ix4 b h n m'))
      = Cert.Attn.score (Cert.Attn.qh x0 x1 x2 x3 b h) (Cert.Attn.kh x0 x1 x2 x3 b h) n := funext fun m' => score_eq x0 x1 x2 x3 b h n m'
  refine Finset.sum_congr rfl fun m _ => ?_
  rw [v50_at, v_eq, hs]

/-- The merged heads. -/
theorem attn_eq (x0 : (⟨S8x1024x768, .f32⟩ : BufTy).Contents (Elt Ideal)) (x1 x2 : (⟨S1024x64, .f32⟩ : BufTy).Contents (Elt Ideal)) (x3 : (⟨S2304x768, .f32⟩ : BufTy).Contents (Elt Ideal)) (b : Fin 8) (n : Fin 1024) (c : Fin 768) :
    val_main_v53 (F := Ideal) x0 x1 x2 x3 (ix3 b n c) = Cert.Attn.attn x0 x1 x2 x3 b n c := by
  rw [v53_at, head_eq]
  rfl

end Cert.ReferenceIdeal.RefValue

end
-- ==== Proof.RefOut.lean ====
/-
  The output projection and the bias: the reference's last contraction and its broadcast bias, read at an index, in
  terms of the attention output it is given.
-/
import proofs.«154133_j39204461478412_2_alg».proof.Proof.Gen.ReferenceIdeal.Read
import proofs.«154133_j39204461478412_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The result's element (b, n, d) is  (Σ_c a[b, n, c] · wp[d, c]) + bp[d]  with a the array the projection is given. -/
theorem v57_at (x0 : (⟨S8x1024x768, .f32⟩ : BufTy).Contents (Elt Ideal)) (x1 x2 : (⟨S1024x64, .f32⟩ : BufTy).Contents (Elt Ideal)) (x3 : (⟨S2304x768, .f32⟩ : BufTy).Contents (Elt Ideal)) (x4 : (⟨S768x768, .f32⟩ : BufTy).Contents (Elt Ideal)) (x5 : (⟨S768, .f32⟩ : BufTy).Contents (Elt Ideal)) (b : Fin 8) (n : Fin 1024) (d : Fin 768) :
    val_main_v57 (F := Ideal) x0 x1 x2 x3 x4 x5 (ix3 b n d)
      = (∑ c : Fin 768, val_main_v53 (F := Ideal) x0 x1 x2 x3 (ix3 b n c) * x4 (ix2 d c)) + x5 (ix1 d) := by
  rw [val_main_v57_apply, val_main_v54_apply, val_main_v56_apply, val_main_v55_apply]
  have eb : idx_main_v55 (idx_main_v56 (ix3 b n d)) = ix1 d := funext fun a => Fin.ext (by
    match a with | ⟨0, _⟩ => rfl)
  rw [eb]
  refine congrArg (· + x5 (ix1 d)) (Finset.sum_congr rfl fun k _ => ?_)
  have el : lidx_main_v54 (ix3 b n d) k = ix3 b n k := funext fun a => Fin.ext (by
    match a with | ⟨0, _⟩ => rfl | ⟨1, _⟩ => rfl | ⟨2, _⟩ => rfl)
  have er : ridx_main_v54 (ix3 b n d) k = ix2 d k := funext fun a => Fin.ext (by
    match a with | ⟨0, _⟩ => rfl | ⟨1, _⟩ => rfl)
  rw [el, er]

end Cert.ReferenceIdeal.RefValue

end
-- ==== Proof.RefSpec.lean ====
/-
  The reference's result is the specification: each host operation read at an index (the generated read-at-an-index
  lemmas), composed down to `Cert.Attn.G`.
-/
import proofs.«154133_j39204461478412_2_alg».proof.Proof.RefAttn
import proofs.«154133_j39204461478412_2_alg».proof.Proof.RefOut

noncomputable section

namespace Cert.ReferenceIdeal.RefValue

open Cert.ReferenceIdeal Cert.ReferenceIdeal.Gen Cert.ReferenceIdeal.Read Idealize.ShloMosaic Idealize.ShloMosaic.ValueIdx

/-- The reference computes the specification's array. -/
theorem ref_eq_G (x0 : (⟨S8x1024x768, .f32⟩ : BufTy).Contents (Elt Ideal)) (x1 x2 : (⟨S1024x64, .f32⟩ : BufTy).Contents (Elt Ideal)) (x3 : (⟨S2304x768, .f32⟩ : BufTy).Contents (Elt Ideal)) (x4 : (⟨S768x768, .f32⟩ : BufTy).Contents (Elt Ideal)) (x5 : (⟨S768, .f32⟩ : BufTy).Contents (Elt Ideal)) :
    Cert.ReferenceIdeal.Read.val_main_v57 (F := Ideal) x0 x1 x2 x3 x4 x5 = Cert.Attn.G x0 x1 x2 x3 x4 x5 := by
  funext i
  obtain ⟨b, n, d, rfl⟩ : ∃ (b : Fin 8) (n : Fin 1024) (d : Fin 768), i = ix3 b n d := ⟨i 0, i 1, i 2, eq_ix3 i⟩
  rw [v57_at, Cert.Attn.G_ix3]
  unfold Cert.Attn.out
  refine congrArg (· + x5 (ix1 d)) (Finset.sum_congr rfl fun c _ => ?_)
  rw [attn_eq]

end Cert.ReferenceIdeal.RefValue

end
-- ==== Proof.lean ====
/-
  The certificate: a multi-head attention block with rotary embedding — the fused query/key/value projection, per head
  the rotated queries against the rotated keys scaled by 1/8, a softmax over the keys spelt as exp (s − max s) over its
  sum, the weighted values, and the output projection with its bias — computed by three tiled kernels (the projection by
  row blocks; attention by batch and pair of heads; the output projection by row blocks) against the same block
  written with whole-array operations.

  At the extended reals both programs compute ONE function of the six argument arrays, `Cert.Attn.G`, index by index:
  every change of float format is the identity there, a matrix product into a zero accumulator is the plain sum of
  products whatever its tiling, and the two programs apply the same operations in the same order (the kernel's `0 − x`
  is the reference's `−x` on every extended real; the reference's extra maximum against −∞ is the identity). The
  kernel's result array is the fold of its regions' write-backs, read back to `G` of the launch contents; the
  reference's is its operations' composed term, read to `G` operation by operation. No law that needs finiteness is
  used, so the precondition is not opened.
-/
import proofs.«154133_j39204461478412_2_alg».proof.Proof.Frames
import proofs.«154133_j39204461478412_2_alg».proof.Proof.KernelValue
import proofs.«154133_j39204461478412_2_alg».proof.Proof.RefSpec
import Idealize.ShloMosaic.Adequacy
import Idealize.ShloMosaic.Init

noncomputable section

namespace Cert.Proof

open Idealize.ShloMosaic Idealize.ShloMosaic.TcCoe Idealize.SL.Sem

/-- From memories agreeing on the arguments both idealized programs end with the result array at `Cert.Attn.G` of the
    arguments: the kernel's by the fold of its boundaries' contents, the reference's by its run read operation by operation. -/
theorem algebraic : Cert.algebraic_KernelIdeal_ReferenceIdeal := by
  intro m ρ m' ρ' _ hagree
  refine ⟨fun c => Cert.Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Val.result_eq_G m ρ c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v57_eq, Cert.ReferenceIdeal.RefValue.ref_eq_G,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
